-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3072 : Shape := ⟨2, ![16384, 3072]⟩
abbrev S2048x3072 : Shape := ⟨2, ![2048, 3072]⟩
abbrev S2048 : Shape := ⟨1, ![2048]⟩
abbrev S2048x2048 : Shape := ⟨2, ![2048, 2048]⟩
abbrev S1024x2048 : Shape := ⟨2, ![1024, 2048]⟩
abbrev S1024 : Shape := ⟨1, ![1024]⟩
abbrev S512x1024 : Shape := ⟨2, ![512, 1024]⟩
abbrev S512 : Shape := ⟨1, ![512]⟩
abbrev S_ : Shape := ⟨0, ![]⟩

class Facts : Prop where
  bcast_S_S16384x3072 : S_.BroadcastsInDim S16384x3072 (![] : Fin 0 → Fin S16384x3072.rank)
  reducesTo_S16384x3072_S_d0_1 : S16384x3072.ReducesTo [0, 1] S_
  h_S_ : 0 < S_.numel
  bcast_S_S2048x3072 : S_.BroadcastsInDim S2048x3072 (![] : Fin 0 → Fin S2048x3072.rank)
  reducesTo_S2048x3072_S_d0_1 : S2048x3072.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part4 {F : FTy → Type} [FloatOps F] (main_arg14 : FVec F S512 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  main_v73

def fn_part3 {F : FTy → Type} [FloatOps F] (main_arg11 : FVec F S1024 .f32) (main_arg12 : FVec F S1024 .f32) (main_arg13 : FVec F S512x1024 .f32) (main_arg14 : FVec F S512 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S512x1024 .f32 := Host.absf main_arg13
  let main_cst_24 : FVec F S_ .f32 := constant S_ .f32 0x7F800000#32
  let main_v65 : FVec F S512x1024 .f32 := broadcastInDim S512x1024 ![] bcast_S_S512x1024 main_cst_24
  let main_v66 : IVec S512x1024 1 := cmpf .olt main_v64 main_v65
  let main_c_25 : IVec S_ 1 := constantI S_ 1 1#1
  let main_v67 : IVec S_ 1 := (fun x v => Host.reduce IntOp.andi x v reducesTo_S512x1024_S_d0_1 h_S_) main_v66 main_c_25
  fn_part4 (F := F) main_arg14 main_v63 main_v67

def fn_part2 {F : FTy → Type} [FloatOps F] (main_arg7 : FVec F S2048 .f32) (main_arg8 : FVec F S2048 .f32) (main_arg9 : FVec F S1024x2048 .f32) (main_arg10 : FVec F S1024 .f32) (main_arg11 : FVec F S1024 .f32) (main_arg12 : FVec F S1024 .f32) (main_arg13 : FVec F S512x1024 .f32) (main_arg14 : FVec F S512 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S1024x2048 .f32 := Host.absf main_arg9
  let main_cst_16 : FVec F S_ .f32 := constant S_ .f32 0x7F800000#32
  let main_v45 : FVec F S1024x2048 .f32 := broadcastInDim S1024x2048 ![] bcast_S_S1024x2048 main_cst_16
  let main_v46 : IVec S1024x2048 1 := cmpf .olt main_v44 main_v45
  let main_c_17 : IVec S_ 1 := constantI S_ 1 1#1
  let main_v47 : IVec S_ 1 := (fun x v => Host.reduce IntOp.andi x v reducesTo_S1024x2048_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_v48 main_v49 main_v50

def fn_part1 {F : FTy → Type} [FloatOps F] (main_arg4 : FVec F S2048 .f32) (main_arg5 : FVec F S2048x2048 .f32) (main_arg6 : FVec F S2048 .f32) (main_arg7 : FVec F S2048 .f32) (main_arg8 : FVec F S2048 .f32) (main_arg9 : FVec F S1024x2048 .f32) (main_arg10 : FVec F S1024 .f32) (main_arg11 : FVec F S1024 .f32) (main_arg12 : FVec F S1024 .f32) (main_arg13 : FVec F S512x1024 .f32) (main_arg14 : FVec F S512 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S16384x3072 .f32) (main_arg1 : FVec F S2048x3072 .f32) (main_arg2 : FVec F S2048 .f32) (main_arg3 : FVec F S2048 .f32) (main_arg4 : FVec F S2048 .f32) (main_arg5 : FVec F S2048x2048 .f32) (main_arg6 : FVec F S2048 .f32) (main_arg7 : FVec F S2048 .f32) (main_arg8 : FVec F S2048 .f32) (main_arg9 : FVec F S1024x2048 .f32) (main_arg10 : FVec F S1024 .f32) (main_arg11 : FVec F S1024 .f32) (main_arg12 : FVec F S1024 .f32) (main_arg13 : FVec F S512x1024 .f32) (main_arg14 : FVec F S512 .f32) : IVec S_ 1 :=
  let main_v0 : FVec F S16384x3072 .f32 := Host.absf main_arg0
  let main_cst : FVec F S_ .f32 := constant S_ .f32 0x7F800000#32
  let main_v1 : FVec F S16384x3072 .f32 := broadcastInDim S16384x3072 ![] bcast_S_S16384x3072 main_cst
  let main_v2 : IVec S16384x3072 1 := cmpf .olt main_v0 main_v1
  let main_c : IVec S_ 1 := constantI S_ 1 1#1
  let main_v3 : IVec S_ 1 := (fun x v => Host.reduce IntOp.andi x v reducesTo_S16384x3072_S_d0_1 h_S_) main_v2 main_c
  let main_v4 : FVec F S2048x3072 .f32 := Host.absf main_arg1
  let main_cst_0 : FVec F S_ .f32 := constant S_ .f32 0x7F800000#32
  let main_v5 : FVec F S2048x3072 .f32 := broadcastInDim S2048x3072 ![] bcast_S_S2048x3072 main_cst_0
  let main_v6 : IVec S2048x3072 1 := cmpf .olt main_v4 main_v5
  let main_c_1 : IVec S_ 1 := constantI S_ 1 1#1
  let main_v7 : IVec S_ 1 := (fun x v => Host.reduce IntOp.andi x v reducesTo_S2048x3072_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S16384x3072 : Shape := ⟨2, ![16384, 3072]⟩
abbrev S2048x3072 : Shape := ⟨2, ![2048, 3072]⟩
abbrev S2048 : Shape := ⟨1, ![2048]⟩
abbrev S2048x2048 : Shape := ⟨2, ![2048, 2048]⟩
abbrev S1024x2048 : Shape := ⟨2, ![1024, 2048]⟩
abbrev S1024 : Shape := ⟨1, ![1024]⟩
abbrev S512x1024 : Shape := ⟨2, ![512, 1024]⟩
abbrev S512 : Shape := ⟨1, ![512]⟩
abbrev S_ : Shape := ⟨0, ![]⟩
abbrev S1x2048 : Shape := ⟨2, ![1, 2048]⟩
abbrev S1x1024 : Shape := ⟨2, ![1, 1024]⟩
abbrev S1x512 : Shape := ⟨2, ![1, 512]⟩
abbrev S16384x2048 : Shape := ⟨2, ![16384, 2048]⟩
abbrev S256x3072 : Shape := ⟨2, ![256, 3072]⟩
abbrev S256x2048 : Shape := ⟨2, ![256, 2048]⟩
abbrev S16384x1024 : Shape := ⟨2, ![16384, 1024]⟩
abbrev S256x1024 : Shape := ⟨2, ![256, 1024]⟩
abbrev S16384x512 : Shape := ⟨2, ![16384, 512]⟩
abbrev S256x512 : Shape := ⟨2, ![256, 512]⟩

abbrev nBuf : Space → Nat
  | .hbm => 199
  | .vmem => 36
  | .smem => 0
  | _ => 0

abbrev hbmTy0_0 (i : Nat) : BufTy := match i % 128 with
  | 0 => ⟨S16384x3072, .f32⟩
  | 1 => ⟨S2048x3072, .f32⟩
  | 2 => ⟨S2048, .f32⟩
  | 3 => ⟨S2048, .f32⟩
  | 4 => ⟨S2048, .f32⟩
  | 5 => ⟨S2048x2048, .f32⟩
  | 6 => ⟨S2048, .f32⟩
  | 7 => ⟨S2048, .f32⟩
  | 8 => ⟨S2048, .f32⟩
  | 9 => ⟨S1024x2048, .f32⟩
  | 10 => ⟨S1024, .f32⟩
  | 11 => ⟨S1024, .f32⟩
  | 12 => ⟨S1024, .f32⟩
  | 13 => ⟨S512x1024, .f32⟩
  | 14 => ⟨S512, .f32⟩
  | 15 => ⟨S_, .f32⟩
  | 16 => ⟨S2048x3072, .f32⟩
  | 17 => ⟨S2048x3072, .i1⟩
  | 18 => ⟨S_, .f32⟩
  | 19 => ⟨S_, .f32⟩
  | 20 => ⟨S2048x3072, .f32⟩
  | 21 => ⟨S2048x3072, .f32⟩
  | 22 => ⟨S2048x3072, .f32⟩
  | 23 => ⟨S2048x3072, .bf16⟩
  | 24 => ⟨S_, .f32⟩
  | 25 => ⟨S2048, .f32⟩
  | 26 => ⟨S2048, .i1⟩
  | 27 => ⟨S_, .f32⟩
  | 28 => ⟨S_, .f32⟩
  | 29 => ⟨S2048, .f32⟩
  | 30 => ⟨S2048, .f32⟩
  | 31 => ⟨S2048, .f32⟩
  | 32 => ⟨S1x2048, .f32⟩
  | 33 => ⟨S_, .f32⟩
  | 34 => ⟨S2048x2048, .f32⟩
  | 35 => ⟨S2048x2048, .i1⟩
  | 36 => ⟨S_, .f32⟩
  | 37 => ⟨S_, .f32⟩
  | 38 => ⟨S2048x2048, .f32⟩
  | 39 => ⟨S2048x2048, .f32⟩
  | 40 => ⟨S2048x2048, .f32⟩
  | 41 => ⟨S2048x2048, .bf16⟩
  | 42 => ⟨S_, .f32⟩
  | 43 => ⟨S2048, .f32⟩
  | 44 => ⟨S2048, .i1⟩
  | 45 => ⟨S_, .f32⟩
  | 46 => ⟨S_, .f32⟩
  | 47 => ⟨S2048, .f32⟩
  | 48 => ⟨S2048, .f32⟩
  | 49 => ⟨S2048, .f32⟩
  | 50 => ⟨S1x2048, .f32⟩
  | 51 => ⟨S_, .f32⟩
  | 52 => ⟨S1024x2048, .f32⟩
  | 53 => ⟨S1024x2048, .i1⟩
  | 54 => ⟨S_, .f32⟩
  | 55 => ⟨S_, .f32⟩
  | 56 => ⟨S1024x2048, .f32⟩
  | 57 => ⟨S1024x2048, .f32⟩
  | 58 => ⟨S1024x2048, .f32⟩
  | 59 => ⟨S1024x2048, .bf16⟩
  | 60 => ⟨S_, .f32⟩
  | 61 => ⟨S1024, .f32⟩
  | 62 => ⟨S1024, .i1⟩
  | 63 => ⟨S_, .f32⟩
  | 64 => ⟨S_, .f32⟩
  | 65 => ⟨S1024, .f32⟩
  | 66 => ⟨S1024, .f32⟩
  | 67 => ⟨S1024, .f32⟩
  | 68 => ⟨S1x1024, .f32⟩
  | 69 => ⟨S_, .f32⟩
  | 70 => ⟨S512x1024, .f32⟩
  | 71 => ⟨S512x1024, .i1⟩
  | 72 => ⟨S_, .f32⟩
  | 73 => ⟨S_, .f32⟩
  | 74 => ⟨S512x1024, .f32⟩
  | 75 => ⟨S512x1024, .f32⟩
  | 76 => ⟨S512x1024, .f32⟩
  | 77 => ⟨S512x1024, .bf16⟩
  | 78 => ⟨S_, .f32⟩
  | 79 => ⟨S512, .f32⟩
  | 80 => ⟨S512, .i1⟩
  | 81 => ⟨S_, .f32⟩
  | 82 => ⟨S_, .f32⟩
  | 83 => ⟨S512, .f32⟩
  | 84 => ⟨S512, .f32⟩
  | 85 => ⟨S512, .f32⟩
  | 86 => ⟨S1x512, .f32⟩
  | 87 => ⟨S16384x2048, .f32⟩
  | 88 => ⟨S_, .f32⟩
  | 89 => ⟨S2048, .f32⟩
  | 90 => ⟨S1x2048, .f32⟩
  | 91 => ⟨S_, .f32⟩
  | 92 => ⟨S1x2048, .f32⟩
  | 93 => ⟨S1x2048, .f32⟩
  | 94 => ⟨S_, .i32⟩
  | 95 => ⟨S_, .f32⟩
  | 96 => ⟨S2048, .f32⟩
  | 97 => ⟨S1x2048, .f32⟩
  | 98 => ⟨S_, .f32⟩
  | 99 => ⟨S1x2048, .f32⟩
  | 100 => ⟨S1x2048, .f32⟩
  | 101 => ⟨S16384x2048, .f32⟩
  | 102 => ⟨S16384x2048, .f32⟩
  | 103 => ⟨S16384x2048, .f32⟩
  | 104 => ⟨S_, .f32⟩
  | 105 => ⟨S_, .f32⟩
  | 106 => ⟨S_, .f32⟩
  | 107 => ⟨S_, .f32⟩
  | 108 => ⟨S2048, .f32⟩
  | 109 => ⟨S1x2048, .f32⟩
  | 110 => ⟨S1x2048, .f32⟩
  | 111 => ⟨S1x2048, .f32⟩
  | 112 => ⟨S_, .f32⟩
  | 113 => ⟨S_, .i1⟩
  | 114 => ⟨S_, .f32⟩
  | 115 => ⟨S_, .f32⟩
  | 116 => ⟨S1x2048, .f32⟩
  | 117 => ⟨S1x2048, .f32⟩
  | 118 => ⟨S_, .f32⟩
  | 119 => ⟨S1x2048, .f32⟩
  | 120 => ⟨S1x2048, .f32⟩
  | 121 => ⟨S1x2048, .f32⟩
  | 122 => ⟨S1x2048, .f32⟩
  | 123 => ⟨S1x2048, .f32⟩
  | 124 => ⟨S16384x2048, .f32⟩
  | 125 => ⟨S_, .f32⟩
  | 126 => ⟨S2048, .f32⟩
  | 127 => ⟨S1x2048, .f32⟩
  | _ => ⟨S16384x3072, .f32⟩

abbrev hbmTy0_1 (i : Nat) : BufTy := match i % 128 with
  | 0 => ⟨S_, .f32⟩
  | 1 => ⟨S1x2048, .f32⟩
  | 2 => ⟨S1x2048, .f32⟩
  | 3 => ⟨S_, .i32⟩
  | 4 => ⟨S_, .f32⟩
  | 5 => ⟨S2048, .f32⟩
  | 6 => ⟨S1x2048, .f32⟩
  | 7 => ⟨S_, .f32⟩
  | 8 => ⟨S1x2048, .f32⟩
  | 9 => ⟨S1x2048, .f32⟩
  | 10 => ⟨S16384x2048, .f32⟩
  | 11 => ⟨S16384x2048, .f32⟩
  | 12 => ⟨S16384x2048, .f32⟩
  | 13 => ⟨S_, .f32⟩
  | 14 => ⟨S_, .f32⟩
  | 15 => ⟨S_, .f32⟩
  | 16 => ⟨S_, .f32⟩
  | 17 => ⟨S2048, .f32⟩
  | 18 => ⟨S1x2048, .f32⟩
  | 19 => ⟨S1x2048, .f32⟩
  | 20 => ⟨S1x2048, .f32⟩
  | 21 => ⟨S_, .f32⟩
  | 22 => ⟨S_, .i1⟩
  | 23 => ⟨S_, .f32⟩
  | 24 => ⟨S_, .f32⟩
  | 25 => ⟨S1x2048, .f32⟩
  | 26 => ⟨S1x2048, .f32⟩
  | 27 => ⟨S_, .f32⟩
  | 28 => ⟨S1x2048, .f32⟩
  | 29 => ⟨S1x2048, .f32⟩
  | 30 => ⟨S1x2048, .f32⟩
  | 31 => ⟨S1x2048, .f32⟩
  | 32 => ⟨S1x2048, .f32⟩
  | 33 => ⟨S16384x1024, .f32⟩
  | 34 => ⟨S_, .f32⟩
  | 35 => ⟨S1024, .f32⟩
  | 36 => ⟨S1x1024, .f32⟩
  | 37 => ⟨S_, .f32⟩
  | 38 => ⟨S1x1024, .f32⟩
  | 39 => ⟨S1x1024, .f32⟩
  | 40 => ⟨S_, .i32⟩
  | 41 => ⟨S_, .f32⟩
  | 42 => ⟨S1024, .f32⟩
  | 43 => ⟨S1x1024, .f32⟩
  | 44 => ⟨S_, .f32⟩
  | 45 => ⟨S1x1024, .f32⟩
  | 46 => ⟨S1x1024, .f32⟩
  | 47 => ⟨S16384x1024, .f32⟩
  | 48 => ⟨S16384x1024, .f32⟩
  | 49 => ⟨S16384x1024, .f32⟩
  | 50 => ⟨S_, .f32⟩
  | 51 => ⟨S_, .f32⟩
  | 52 => ⟨S_, .f32⟩
  | 53 => ⟨S_, .f32⟩
  | 54 => ⟨S1024, .f32⟩
  | 55 => ⟨S1x1024, .f32⟩
  | 56 => ⟨S1x1024, .f32⟩
  | 57 => ⟨S1x1024, .f32⟩
  | 58 => ⟨S_, .f32⟩
  | 59 => ⟨S_, .i1⟩
  | 60 => ⟨S_, .f32⟩
  | 61 => ⟨S_, .f32⟩
  | 62 => ⟨S1x1024, .f32⟩
  | 63 => ⟨S1x1024, .f32⟩
  | 64 => ⟨S_, .f32⟩
  | 65 => ⟨S1x1024, .f32⟩
  | 66 => ⟨S1x1024, .f32⟩
  | 67 => ⟨S1x1024, .f32⟩
  | 68 => ⟨S1x1024, .f32⟩
  | 69 => ⟨S1x1024, .f32⟩
  | 70 => ⟨S16384x512, .f32⟩
  | _ => ⟨S16384x3072, .f32⟩

abbrev hbmTy (i : Nat) : BufTy := match i / 128 with
  | 0 => hbmTy0_0 i
  | 1 => hbmTy0_1 i
  | _ => ⟨S16384x3072, .f32⟩

abbrev bufTy : (tb : Table) → Fin (tcTables nBuf tb) → BufTy
  | .hbm, ⟨i, _⟩ => hbmTy i
  | .local _ .vmem, ⟨0, _⟩ => ⟨S256x3072, .f32⟩
  | .local _ .vmem, ⟨1, _⟩ => ⟨S256x3072, .f32⟩
  | .local _ .vmem, ⟨2, _⟩ => ⟨S2048x3072, .bf16⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S2048x2048, .bf16⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S1x2048, .f32⟩
  | .local _ .vmem, ⟨19, _⟩ => ⟨S1x2048, .f32⟩
  | .local _ .vmem, ⟨20, _⟩ => ⟨S1x2048, .f32⟩
  | .local _ .vmem, ⟨21, _⟩ => ⟨S1x2048, .f32⟩
  | .local _ .vmem, ⟨22, _⟩ => ⟨S1024x2048, .bf16⟩
  | .local _ .vmem, ⟨23, _⟩ => ⟨S1x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S1x1024, .f32⟩
  | .local _ .vmem, ⟨29, _⟩ => ⟨S1x1024, .f32⟩
  | .local _ .vmem, ⟨30, _⟩ => ⟨S1x1024, .f32⟩
  | .local _ .vmem, ⟨31, _⟩ => ⟨S1x1024, .f32⟩
  | .local _ .vmem, ⟨32, _⟩ => ⟨S512x1024, .bf16⟩
  | .local _ .vmem, ⟨33, _⟩ => ⟨S1x512, .f32⟩
  | .local _ .vmem, ⟨34, _⟩ => ⟨S256x512, .f32⟩
  | .local _ .vmem, ⟨35, _⟩ => ⟨S256x512, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_cst_0 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v2 : Ref sig .tc := ⟨.hbm, 22, rfl⟩
abbrev main_v3 : Ref sig .tc := ⟨.hbm, 23, rfl⟩
abbrev main_cst_2 : Ref sig .tc := ⟨.hbm, 24, rfl⟩
abbrev main_v4 : Ref sig .tc := ⟨.hbm, 25, rfl⟩
abbrev main_v5 : Ref sig .tc := ⟨.hbm, 26, rfl⟩
abbrev main_cst_3 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_v6 : Ref sig .tc := ⟨.hbm, 31, rfl⟩
abbrev main_v7 : Ref sig .tc := ⟨.hbm, 32, rfl⟩
abbrev main_cst_5 : Ref sig .tc := ⟨.hbm, 33, rfl⟩
abbrev main_v8 : Ref sig .tc := ⟨.hbm, 34, rfl⟩
abbrev main_v9 : Ref sig .tc := ⟨.hbm, 35, rfl⟩
abbrev main_cst_6 : Ref sig .tc := ⟨.hbm, 36, rfl⟩
abbrev main_cst_7 : Ref sig .tc := ⟨.hbm, 37, rfl⟩
abbrev main_call2_v0 : Ref sig .tc := ⟨.hbm, 38, rfl⟩
abbrev main_call2_v1 : Ref sig .tc := ⟨.hbm, 39, rfl⟩
abbrev main_v10 : Ref sig .tc := ⟨.hbm, 40, rfl⟩
abbrev main_v11 : Ref sig .tc := ⟨.hbm, 41, rfl⟩
abbrev main_cst_8 : Ref sig .tc := ⟨.hbm, 42, rfl⟩
abbrev main_v12 : Ref sig .tc := ⟨.hbm, 43, rfl⟩
abbrev main_v13 : Ref sig .tc := ⟨.hbm, 44, rfl⟩
abbrev main_cst_9 : Ref sig .tc := ⟨.hbm, 45, rfl⟩
abbrev main_cst_10 : Ref sig .tc := ⟨.hbm, 46, rfl⟩
abbrev main_call3_v0 : Ref sig .tc := ⟨.hbm, 47, rfl⟩
abbrev main_call3_v1 : Ref sig .tc := ⟨.hbm, 48, rfl⟩
abbrev main_v14 : Ref sig .tc := ⟨.hbm, 49, rfl⟩
abbrev main_v15 : Ref sig .tc := ⟨.hbm, 50, rfl⟩
abbrev main_cst_11 : Ref sig .tc := ⟨.hbm, 51, rfl⟩
abbrev main_v16 : Ref sig .tc := ⟨.hbm, 52, rfl⟩
abbrev main_v17 : Ref sig .tc := ⟨.hbm, 53, rfl⟩
abbrev main_cst_12 : Ref sig .tc := ⟨.hbm, 54, rfl⟩
abbrev main_cst_13 : Ref sig .tc := ⟨.hbm, 55, rfl⟩
abbrev main_call4_v0 : Ref sig .tc := ⟨.hbm, 56, rfl⟩
abbrev main_call4_v1 : Ref sig .tc := ⟨.hbm, 57, rfl⟩
abbrev main_v18 : Ref sig .tc := ⟨.hbm, 58, rfl⟩
abbrev main_v19 : Ref sig .tc := ⟨.hbm, 59, rfl⟩
abbrev main_cst_14 : Ref sig .tc := ⟨.hbm, 60, rfl⟩
abbrev main_v20 : Ref sig .tc := ⟨.hbm, 61, rfl⟩
abbrev main_v21 : Ref sig .tc := ⟨.hbm, 62, rfl⟩
abbrev main_cst_15 : Ref sig .tc := ⟨.hbm, 63, rfl⟩
abbrev main_cst_16 : Ref sig .tc := ⟨.hbm, 64, rfl⟩
abbrev main_call5_v0 : Ref sig .tc := ⟨.hbm, 65, rfl⟩
abbrev main_call5_v1 : Ref sig .tc := ⟨.hbm, 66, rfl⟩
abbrev main_v22 : Ref sig .tc := ⟨.hbm, 67, rfl⟩
abbrev main_v23 : Ref sig .tc := ⟨.hbm, 68, rfl⟩
abbrev main_cst_17 : Ref sig .tc := ⟨.hbm, 69, rfl⟩
abbrev main_v24 : Ref sig .tc := ⟨.hbm, 70, rfl⟩
abbrev main_v25 : Ref sig .tc := ⟨.hbm, 71, rfl⟩
abbrev main_cst_18 : Ref sig .tc := ⟨.hbm, 72, rfl⟩
abbrev main_cst_19 : Ref sig .tc := ⟨.hbm, 73, rfl⟩
abbrev main_call6_v0 : Ref sig .tc := ⟨.hbm, 74, rfl⟩
abbrev main_call6_v1 : Ref sig .tc := ⟨.hbm, 75, rfl⟩
abbrev main_v26 : Ref sig .tc := ⟨.hbm, 76, rfl⟩
abbrev main_v27 : Ref sig .tc := ⟨.hbm, 77, rfl⟩
abbrev main_cst_20 : Ref sig .tc := ⟨.hbm, 78, rfl⟩
abbrev main_v28 : Ref sig .tc := ⟨.hbm, 79, rfl⟩
abbrev main_v29 : Ref sig .tc := ⟨.hbm, 80, rfl⟩
abbrev main_cst_21 : Ref sig .tc := ⟨.hbm, 81, rfl⟩
abbrev main_cst_22 : Ref sig .tc := ⟨.hbm, 82, rfl⟩
abbrev main_call7_v0 : Ref sig .tc := ⟨.hbm, 83, rfl⟩
abbrev main_call7_v1 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_cst_23 : Ref sig .tc := ⟨.hbm, 88, rfl⟩
abbrev main_v33 : Ref sig .tc := ⟨.hbm, 89, rfl⟩
abbrev main_v34 : Ref sig .tc := ⟨.hbm, 90, rfl⟩
abbrev main_cst_24 : Ref sig .tc := ⟨.hbm, 91, rfl⟩
abbrev main_v35 : Ref sig .tc := ⟨.hbm, 92, rfl⟩
abbrev main_v36 : Ref sig .tc := ⟨.hbm, 93, rfl⟩
abbrev main_c : Ref sig .tc := ⟨.hbm, 94, rfl⟩
abbrev main_call8_cst : Ref sig .tc := ⟨.hbm, 95, rfl⟩
abbrev main_call8_v0 : Ref sig .tc := ⟨.hbm, 96, rfl⟩
abbrev main_call8_v1 : Ref sig .tc := ⟨.hbm, 97, rfl⟩
abbrev main_call8_cst_0 : Ref sig .tc := ⟨.hbm, 98, rfl⟩
abbrev main_call8_v2 : Ref sig .tc := ⟨.hbm, 99, rfl⟩
abbrev main_call8_v3 : Ref sig .tc := ⟨.hbm, 100, rfl⟩
abbrev main_call8_v4 : Ref sig .tc := ⟨.hbm, 101, rfl⟩
abbrev main_call8_v5 : Ref sig .tc := ⟨.hbm, 102, rfl⟩
abbrev main_call8_v6 : Ref sig .tc := ⟨.hbm, 103, rfl⟩
abbrev main_call8_v7 : Ref sig .tc := ⟨.hbm, 104, rfl⟩
abbrev main_call8_cst_1 : Ref sig .tc := ⟨.hbm, 105, rfl⟩
abbrev main_call8_v8 : Ref sig .tc := ⟨.hbm, 106, rfl⟩
abbrev main_call8_cst_2 : Ref sig .tc := ⟨.hbm, 107, rfl⟩
abbrev main_call8_v9 : Ref sig .tc := ⟨.hbm, 108, rfl⟩
abbrev main_call8_v10 : Ref sig .tc := ⟨.hbm, 109, rfl⟩
abbrev main_call8_v11 : Ref sig .tc := ⟨.hbm, 110, rfl⟩
abbrev main_call8_v12 : Ref sig .tc := ⟨.hbm, 111, rfl⟩
abbrev main_call8_cst_3 : Ref sig .tc := ⟨.hbm, 112, rfl⟩
abbrev main_call8_v13 : Ref sig .tc := ⟨.hbm, 113, rfl⟩
abbrev main_call8_cst_4 : Ref sig .tc := ⟨.hbm, 114, rfl⟩
abbrev main_call8_call0_v0 : Ref sig .tc := ⟨.hbm, 115, rfl⟩
abbrev main_call8_call0_v1 : Ref sig .tc := ⟨.hbm, 116, rfl⟩
abbrev main_v37 : Ref sig .tc := ⟨.hbm, 117, rfl⟩
abbrev main_cst_25 : Ref sig .tc := ⟨.hbm, 118, rfl⟩
abbrev main_v38 : Ref sig .tc := ⟨.hbm, 119, rfl⟩
abbrev main_v39 : Ref sig .tc := ⟨.hbm, 120, rfl⟩
abbrev main_v40 : Ref sig .tc := ⟨.hbm, 121, rfl⟩
abbrev main_v41 : Ref sig .tc := ⟨.hbm, 122, rfl⟩
abbrev main_v42 : Ref sig .tc := ⟨.hbm, 123, rfl⟩
abbrev main_v43 : Ref sig .tc := ⟨.hbm, 124, rfl⟩
abbrev main_cst_26 : Ref sig .tc := ⟨.hbm, 125, rfl⟩
abbrev main_v44 : Ref sig .tc := ⟨.hbm, 126, rfl⟩
abbrev main_v45 : Ref sig .tc := ⟨.hbm, 127, rfl⟩
abbrev main_cst_27 : Ref sig .tc := ⟨.hbm, 128, rfl⟩
abbrev main_v46 : Ref sig .tc := ⟨.hbm, 129, rfl⟩
abbrev main_v47 : Ref sig .tc := ⟨.hbm, 130, rfl⟩
abbrev main_c_28 : Ref sig .tc := ⟨.hbm, 131, rfl⟩
abbrev main_call9_cst : Ref sig .tc := ⟨.hbm, 132, rfl⟩
abbrev main_call9_v0 : Ref sig .tc := ⟨.hbm, 133, rfl⟩
abbrev main_call9_v1 : Ref sig .tc := ⟨.hbm, 134, rfl⟩
abbrev main_call9_cst_0 : Ref sig .tc := ⟨.hbm, 135, rfl⟩
abbrev main_call9_v2 : Ref sig .tc := ⟨.hbm, 136, rfl⟩
abbrev main_call9_v3 : Ref sig .tc := ⟨.hbm, 137, rfl⟩
abbrev main_call9_v4 : Ref sig .tc := ⟨.hbm, 138, rfl⟩
abbrev main_call9_v5 : Ref sig .tc := ⟨.hbm, 139, rfl⟩
abbrev main_call9_v6 : Ref sig .tc := ⟨.hbm, 140, rfl⟩
abbrev main_call9_v7 : Ref sig .tc := ⟨.hbm, 141, rfl⟩
abbrev main_call9_cst_1 : Ref sig .tc := ⟨.hbm, 142, rfl⟩
abbrev main_call9_v8 : Ref sig .tc := ⟨.hbm, 143, rfl⟩
abbrev main_call9_cst_2 : Ref sig .tc := ⟨.hbm, 144, rfl⟩
abbrev main_call9_v9 : Ref sig .tc := ⟨.hbm, 145, rfl⟩
abbrev main_call9_v10 : Ref sig .tc := ⟨.hbm, 146, rfl⟩
abbrev main_call9_v11 : Ref sig .tc := ⟨.hbm, 147, rfl⟩
abbrev main_call9_v12 : Ref sig .tc := ⟨.hbm, 148, rfl⟩
abbrev main_call9_cst_3 : Ref sig .tc := ⟨.hbm, 149, rfl⟩
abbrev main_call9_v13 : Ref sig .tc := ⟨.hbm, 150, rfl⟩
abbrev main_call9_cst_4 : Ref sig .tc := ⟨.hbm, 151, rfl⟩
abbrev main_call9_call0_v0 : Ref sig .tc := ⟨.hbm, 152, rfl⟩
abbrev main_call9_call0_v1 : Ref sig .tc := ⟨.hbm, 153, rfl⟩
abbrev main_v48 : Ref sig .tc := ⟨.hbm, 154, rfl⟩
abbrev main_cst_29 : Ref sig .tc := ⟨.hbm, 155, rfl⟩
abbrev main_v49 : Ref sig .tc := ⟨.hbm, 156, rfl⟩
abbrev main_v50 : Ref sig .tc := ⟨.hbm, 157, rfl⟩
abbrev main_v51 : Ref sig .tc := ⟨.hbm, 158, rfl⟩
abbrev main_v52 : Ref sig .tc := ⟨.hbm, 159, rfl⟩
abbrev main_v53 : Ref sig .tc := ⟨.hbm, 160, rfl⟩
abbrev main_v54 : Ref sig .tc := ⟨.hbm, 161, rfl⟩
abbrev main_cst_30 : Ref sig .tc := ⟨.hbm, 162, rfl⟩
abbrev main_v55 : Ref sig .tc := ⟨.hbm, 163, rfl⟩
abbrev main_v56 : Ref sig .tc := ⟨.hbm, 164, rfl⟩
abbrev main_cst_31 : Ref sig .tc := ⟨.hbm, 165, rfl⟩
abbrev main_v57 : Ref sig .tc := ⟨.hbm, 166, rfl⟩
abbrev main_v58 : Ref sig .tc := ⟨.hbm, 167, rfl⟩
abbrev main_c_32 : Ref sig .tc := ⟨.hbm, 168, rfl⟩
abbrev main_call10_cst : Ref sig .tc := ⟨.hbm, 169, rfl⟩
abbrev main_call10_v0 : Ref sig .tc := ⟨.hbm, 170, rfl⟩
abbrev main_call10_v1 : Ref sig .tc := ⟨.hbm, 171, rfl⟩
abbrev main_call10_cst_0 : Ref sig .tc := ⟨.hbm, 172, rfl⟩
abbrev main_call10_v2 : Ref sig .tc := ⟨.hbm, 173, rfl⟩
abbrev main_call10_v3 : Ref sig .tc := ⟨.hbm, 174, rfl⟩
abbrev main_call10_v4 : Ref sig .tc := ⟨.hbm, 175, rfl⟩
abbrev main_call10_v5 : Ref sig .tc := ⟨.hbm, 176, rfl⟩
abbrev main_call10_v6 : Ref sig .tc := ⟨.hbm, 177, rfl⟩
abbrev main_call10_v7 : Ref sig .tc := ⟨.hbm, 178, rfl⟩
abbrev main_call10_cst_1 : Ref sig .tc := ⟨.hbm, 179, rfl⟩
abbrev main_call10_v8 : Ref sig .tc := ⟨.hbm, 180, rfl⟩
abbrev main_call10_cst_2 : Ref sig .tc := ⟨.hbm, 181, rfl⟩
abbrev main_call10_v9 : Ref sig .tc := ⟨.hbm, 182, rfl⟩
abbrev main_call10_v10 : Ref sig .tc := ⟨.hbm, 183, rfl⟩
abbrev main_call10_v11 : Ref sig .tc := ⟨.hbm, 184, rfl⟩
abbrev main_call10_v12 : Ref sig .tc := ⟨.hbm, 185, rfl⟩
abbrev main_call10_cst_3 : Ref sig .tc := ⟨.hbm, 186, rfl⟩
abbrev main_call10_v13 : Ref sig .tc := ⟨.hbm, 187, rfl⟩
abbrev main_call10_cst_4 : Ref sig .tc := ⟨.hbm, 188, rfl⟩
abbrev main_call10_call0_v0 : Ref sig .tc := ⟨.hbm, 189, rfl⟩
abbrev main_call10_call0_v1 : Ref sig .tc := ⟨.hbm, 190, rfl⟩
abbrev main_v59 : Ref sig .tc := ⟨.hbm, 191, rfl⟩
abbrev main_cst_33 : Ref sig .tc := ⟨.hbm, 192, rfl⟩
abbrev main_v60 : Ref sig .tc := ⟨.hbm, 193, rfl⟩
abbrev main_v61 : Ref sig .tc := ⟨.hbm, 194, rfl⟩
abbrev main_v62 : Ref sig .tc := ⟨.hbm, 195, rfl⟩
abbrev main_v63 : Ref sig .tc := ⟨.hbm, 196, rfl⟩
abbrev main_v64 : Ref sig .tc := ⟨.hbm, 197, rfl⟩
abbrev main_v65 : Ref sig .tc := ⟨.hbm, 198, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg7_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc3_stg7_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem7_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34
abbrev cc3_sem7_1 : DmaSem sig := 35

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2048x2048 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x2048 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S256x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x1024 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x512 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S256x512 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  bcast_S_S2048x3072 : S_.BroadcastsInDim S2048x3072 (![] : Fin 0 → Fin S2048x3072.rank)
  bitsLt_bf16_f32 : FTy.bits .bf16 < FTy.bits .f32
  bcast_S_S2048 : S_.BroadcastsInDim S2048 (![] : Fin 0 → Fin S2048.rank)
  shapeCasts_S2048_S1x2048 : S2048.ShapeCasts S1x2048
  bcast_S_S2048x2048 : S_.BroadcastsInDim S2048x2048 (![] : Fin 0 → Fin S2048x2048.rank)
  bcast_S_S1024x2048 : S_.BroadcastsInDim S1024x2048 (![] : Fin 0 → Fin S1024x2048.rank)
  bcast_S_S1024 : S_.BroadcastsInDim S1024 (![] : Fin 0 → Fin S1024.rank)
  shapeCasts_S1024_S1x1024 : S1024.ShapeCasts S1x1024
  bcast_S_S512x1024 : S_.BroadcastsInDim S512x1024 (![] : Fin 0 → Fin S512x1024.rank)
  bcast_S_S512 : S_.BroadcastsInDim S512 (![] : Fin 0 → Fin S512.rank)
  shapeCasts_S512_S1x512 : S512.ShapeCasts S1x512
  inb_S256x3072_S256x3072_0_0 : ∀ a, (![0, 0] : Fin 2 → Nat) a + S256x3072.size a ≤ S256x3072.size a
  h_S256x3072 : 0 < S256x3072.numel
  inb_S2048x3072_S2048x3072_0_0 : ∀ a, (![0, 0] : Fin 2 → Nat) a + S2048x3072.size a ≤ S2048x3072.size a
  h_S2048x3072 : 0 < S2048x3072.numel
  shapeCasts_S2048x3072_S2048x3072 : S2048x3072.ShapeCasts S2048x3072
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S256x2048_S256x2048_0_0 : ∀ a, (![0, 0] : Fin 2 → Nat) a + S256x2048.size a ≤ S256x2048.size a
  h_S256x2048 : 0 < S256x2048.numel
  reducesTo_S16384x2048_S2048_d0 : S16384x2048.ReducesTo [0] S2048
  h_S_ : 0 < S_.numel
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S1x2048_S16384x2048_0_1 : S1x2048.BroadcastsInDim S16384x2048 (![0, 1] : Fin 2 → Fin S16384x2048.rank)
  shapeCasts_S256x2048_S256x2048 : S256x2048.ShapeCasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  reducesTo_S16384x1024_S1024_d0 : S16384x1024.ReducesTo [0] S1024
  bcast_S1024_S1x1024_1 : S1024.BroadcastsInDim S1x1024 (![1] : Fin 1 → Fin S1x1024.rank)
  bcast_S_S1x1024 : S_.BroadcastsInDim S1x1024 (![] : Fin 0 → Fin S1x1024.rank)
  bcast_S1x1024_S16384x1024_0_1 : S1x1024.BroadcastsInDim S16384x1024 (![0, 1] : Fin 2 → Fin S16384x1024.rank)
  shapeCasts_S256x1024_S256x1024 : S256x1024.ShapeCasts S256x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  dot_S256x3072_S2048x3072_S256x2048_1_1_0_0_n_n_wf : DotDims.WF S256x3072 S2048x3072 S256x2048 [1] [1] [0] [0] [] []
  dot_S256x2048_S2048x2048_S256x2048_1_1_0_0_n_n_wf : DotDims.WF S256x2048 S2048x2048 S256x2048 [1] [1] [0] [0] [] []
  dot_S256x2048_S1024x2048_S256x1024_1_1_0_0_n_n_wf : DotDims.WF S256x2048 S1024x2048 S256x1024 [1] [1] [0] [0] [] []
  dot_S256x1024_S512x1024_S256x512_1_1_0_0_n_n_wf : DotDims.WF S256x1024 S512x1024 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3072.size a ≤ S16384x3072.size a
  hwx0_0 : ∀ i : grid0.Coords, EltTy.bits .f32 = 32 ∨ (Rect.block (s := S16384x3072) S256x3072.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x3072.size a ≤ S2048x3072.size a
  hwx0_1 : ∀ i : grid0.Coords, EltTy.bits .bf16 = 32 ∨ (Rect.block (s := S2048x3072) S2048x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S16384x2048.size a
  hwx0_3 : ∀ i : grid0.Coords, EltTy.bits .f32 = 32 ∨ (Rect.block (s := S16384x2048) S256x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S16384x2048.size a
  hwx1_0 : ∀ i : grid1.Coords, EltTy.bits .f32 = 32 ∨ (Rect.block (s := S16384x2048) S256x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x2048.size a
  hwx1_1 : ∀ i : grid1.Coords, EltTy.bits .f32 = 32 ∨ (Rect.block (s := S1x2048) S1x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x2048.size a
  hwx1_3 : ∀ i : grid1.Coords, EltTy.bits .f32 = 32 ∨ (Rect.block (s := S1x2048) S1x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2048.size a ≤ S1x2048.size a
  hwx1_4 : ∀ i : grid1.Coords, EltTy.bits .f32 = 32 ∨ (Rect.block (s := S1x2048) S1x2048.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2048x2048.size a ≤ S2048x2048.size a
  hwx1_5 : ∀ i : grid1.Coords, EltTy.bits .bf16 = 32 ∨ (Rect.block (s := S2048x2048) S2048x2048.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2048.size a ≤ S1x2048.size a
  hwx1_6 : ∀ i : grid1.Coords, EltTy.bits .f32 = 32 ∨ (Rect.block (s := S1x2048) S1x2048.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x2048.size a ≤ S16384x2048.size a
  hwx1_7 : ∀ i : grid1.Coords, EltTy.bits .f32 = 32 ∨ (Rect.block (s := S16384x2048) S256x2048.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x2048.size a ≤ S16384x2048.size a
  hwx2_0 : ∀ i : grid2.Coords, EltTy.bits .f32 = 32 ∨ (Rect.block (s := S16384x2048) S256x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x2048.size a ≤ S1x2048.size a
  hwx2_1 : ∀ i : grid2.Coords, EltTy.bits .f32 = 32 ∨ (Rect.block (s := S1x2048) S1x2048.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x2048.size a
  hwx2_2 : ∀ i : grid2.Coords, EltTy.bits .f32 = 32 ∨ (Rect.block (s := S1x2048) S1x2048.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x2048.size a ≤ S1x2048.size a
  hwx2_3 : ∀ i : grid2.Coords, EltTy.bits .f32 = 32 ∨ (Rect.block (s := S1x2048) S1x2048.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2048.size a ≤ S1x2048.size a
  hwx2_4 : ∀ i : grid2.Coords, EltTy.bits .f32 = 32 ∨ (Rect.block (s := S1x2048) S1x2048.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1024x2048.size a ≤ S1024x2048.size a
  hwx2_5 : ∀ i : grid2.Coords, EltTy.bits .bf16 = 32 ∨ (Rect.block (s := S1024x2048) S1024x2048.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1024.size a ≤ S1x1024.size a
  hwx2_6 : ∀ i : grid2.Coords, EltTy.bits .f32 = 32 ∨ (Rect.block (s := S1x1024) S1x1024.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S256x1024.size a ≤ S16384x1024.size a
  hwx2_7 : ∀ i : grid2.Coords, EltTy.bits .f32 = 32 ∨ (Rect.block (s := S16384x1024) S256x1024.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x1024.size a ≤ S16384x1024.size a
  hwx3_0 : ∀ i : grid3.Coords, EltTy.bits .f32 = 32 ∨ (Rect.block (s := S16384x1024) S256x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x1024.size a ≤ S1x1024.size a
  hwx3_1 : ∀ i : grid3.Coords, EltTy.bits .f32 = 32 ∨ (Rect.block (s := S1x1024) S1x1024.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x1024.size a
  hwx3_2 : ∀ i : grid3.Coords, EltTy.bits .f32 = 32 ∨ (Rect.block (s := S1x1024) S1x1024.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1024.size a ≤ S1x1024.size a
  hwx3_3 : ∀ i : grid3.Coords, EltTy.bits .f32 = 32 ∨ (Rect.block (s := S1x1024) S1x1024.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x1024.size a
  hwx3_4 : ∀ i : grid3.Coords, EltTy.bits .f32 = 32 ∨ (Rect.block (s := S1x1024) S1x1024.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512x1024.size a ≤ S512x1024.size a
  hwx3_5 : ∀ i : grid3.Coords, EltTy.bits .bf16 = 32 ∨ (Rect.block (s := S512x1024) S512x1024.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x512.size a ≤ S1x512.size a
  hwx3_6 : ∀ i : grid3.Coords, EltTy.bits .f32 = 32 ∨ (Rect.block (s := S1x512) S1x512.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S256x512.size a ≤ S16384x512.size a
  hwx3_7 : ∀ i : grid3.Coords, EltTy.bits .f32 = 32 ∨ (Rect.block (s := S16384x512) S256x512.size (cc3_transform_7 i) (hinb3_7 i)).WholeWords (EltTy.packing .f32)

variable [Facts₀]

def dot_S256x3072_S2048x3072_S256x2048_1_1_0_0_n_n : DotDims S256x3072 S2048x3072 S256x2048 where
  lhsContracting := [1]
  rhsContracting := [1]
  lhsNonContracting := [0]
  rhsNonContracting := [0]
  lhsBatch := []
  rhsBatch := []
  wf := dot_S256x3072_S2048x3072_S256x2048_1_1_0_0_n_n_wf
def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf
def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf
def dot_S256x1024_S512x1024_S256x512_1_1_0_0_n_n : DotDims S256x1024 S512x1024 S256x512 where
  lhsContracting := [1]
  rhsContracting := [1]
  lhsNonContracting := [0]
  rhsNonContracting := [0]
  lhsBatch := []
  rhsBatch := []
  wf := dot_S256x1024_S512x1024_S256x512_1_1_0_0_n_n_wf

abbrev win0_0 : Pipeline.Window sig grid0 :=
  Pipeline.Window.ofSpec (Memref.whole main_arg0) S256x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S1x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v40) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S2048x2048.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S1x2048.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v43) S256x2048.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v43) S256x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S1x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x2048.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x2048.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v19) S1024x2048.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v23) S1x1024.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v54) S256x1024.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v54) S256x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S1x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S1x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S1x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S1x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v27) S512x1024.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v31) S1x512.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v65) S256x512.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S16384x3072 : Shape := ⟨2, ![16384, 3072]⟩
abbrev S2048x3072 : Shape := ⟨2, ![2048, 3072]⟩
abbrev S2048 : Shape := ⟨1, ![2048]⟩
abbrev S2048x2048 : Shape := ⟨2, ![2048, 2048]⟩
abbrev S1024x2048 : Shape := ⟨2, ![1024, 2048]⟩
abbrev S1024 : Shape := ⟨1, ![1024]⟩
abbrev S512x1024 : Shape := ⟨2, ![512, 1024]⟩
abbrev S512 : Shape := ⟨1, ![512]⟩
abbrev S_ : Shape := ⟨0, ![]⟩
abbrev S16384x2048 : Shape := ⟨2, ![16384, 2048]⟩
abbrev S1x2048 : Shape := ⟨2, ![1, 2048]⟩
abbrev S16384x1024 : Shape := ⟨2, ![16384, 1024]⟩
abbrev S1x1024 : Shape := ⟨2, ![1, 1024]⟩
abbrev S16384x512 : Shape := ⟨2, ![16384, 512]⟩
abbrev S1x512 : Shape := ⟨2, ![1, 512]⟩

abbrev nBuf : Space → Nat
  | .hbm => 295
  | .vmem => 0
  | .smem => 0
  | _ => 0

abbrev hbmTy0_0 (i : Nat) : BufTy := match i % 128 with
  | 0 => ⟨S16384x3072, .f32⟩
  | 1 => ⟨S2048x3072, .f32⟩
  | 2 => ⟨S2048, .f32⟩
  | 3 => ⟨S2048, .f32⟩
  | 4 => ⟨S2048, .f32⟩
  | 5 => ⟨S2048x2048, .f32⟩
  | 6 => ⟨S2048, .f32⟩
  | 7 => ⟨S2048, .f32⟩
  | 8 => ⟨S2048, .f32⟩
  | 9 => ⟨S1024x2048, .f32⟩
  | 10 => ⟨S1024, .f32⟩
  | 11 => ⟨S1024, .f32⟩
  | 12 => ⟨S1024, .f32⟩
  | 13 => ⟨S512x1024, .f32⟩
  | 14 => ⟨S512, .f32⟩
  | 15 => ⟨S_, .f32⟩
  | 16 => ⟨S16384x3072, .f32⟩
  | 17 => ⟨S16384x3072, .i1⟩
  | 18 => ⟨S_, .f32⟩
  | 19 => ⟨S16384x3072, .f32⟩
  | 20 => ⟨S_, .f32⟩
  | 21 => ⟨S16384x3072, .f32⟩
  | 22 => ⟨S16384x3072, .f32⟩
  | 23 => ⟨S16384x3072, .f32⟩
  | 24 => ⟨S_, .f32⟩
  | 25 => ⟨S2048x3072, .f32⟩
  | 26 => ⟨S2048x3072, .i1⟩
  | 27 => ⟨S_, .f32⟩
  | 28 => ⟨S2048x3072, .f32⟩
  | 29 => ⟨S_, .f32⟩
  | 30 => ⟨S2048x3072, .f32⟩
  | 31 => ⟨S2048x3072, .f32⟩
  | 32 => ⟨S2048x3072, .f32⟩
  | 33 => ⟨S16384x2048, .f32⟩
  | 34 => ⟨S_, .f32⟩
  | 35 => ⟨S2048, .f32⟩
  | 36 => ⟨S2048, .i1⟩
  | 37 => ⟨S_, .f32⟩
  | 38 => ⟨S2048, .f32⟩
  | 39 => ⟨S_, .f32⟩
  | 40 => ⟨S2048, .f32⟩
  | 41 => ⟨S2048, .f32⟩
  | 42 => ⟨S2048, .f32⟩
  | 43 => ⟨S1x2048, .f32⟩
  | 44 => ⟨S16384x2048, .f32⟩
  | 45 => ⟨S16384x2048, .f32⟩
  | 46 => ⟨S_, .f32⟩
  | 47 => ⟨S2048, .f32⟩
  | 48 => ⟨S_, .f32⟩
  | 49 => ⟨S2048, .f32⟩
  | 50 => ⟨S2048, .f32⟩
  | 51 => ⟨S_, .i32⟩
  | 52 => ⟨S_, .f32⟩
  | 53 => ⟨S2048, .f32⟩
  | 54 => ⟨S1x2048, .f32⟩
  | 55 => ⟨S_, .f32⟩
  | 56 => ⟨S1x2048, .f32⟩
  | 57 => ⟨S1x2048, .f32⟩
  | 58 => ⟨S16384x2048, .f32⟩
  | 59 => ⟨S16384x2048, .f32⟩
  | 60 => ⟨S16384x2048, .f32⟩
  | 61 => ⟨S_, .f32⟩
  | 62 => ⟨S_, .f32⟩
  | 63 => ⟨S_, .f32⟩
  | 64 => ⟨S_, .f32⟩
  | 65 => ⟨S2048, .f32⟩
  | 66 => ⟨S2048, .f32⟩
  | 67 => ⟨S2048, .f32⟩
  | 68 => ⟨S_, .f32⟩
  | 69 => ⟨S_, .i1⟩
  | 70 => ⟨S_, .f32⟩
  | 71 => ⟨S_, .f32⟩
  | 72 => ⟨S2048, .f32⟩
  | 73 => ⟨S2048, .f32⟩
  | 74 => ⟨S1x2048, .f32⟩
  | 75 => ⟨S16384x2048, .f32⟩
  | 76 => ⟨S16384x2048, .f32⟩
  | 77 => ⟨S_, .f32⟩
  | 78 => ⟨S2048, .f32⟩
  | 79 => ⟨S2048, .f32⟩
  | 80 => ⟨S2048, .f32⟩
  | 81 => ⟨S1x2048, .f32⟩
  | 82 => ⟨S16384x2048, .f32⟩
  | 83 => ⟨S16384x2048, .f32⟩
  | 84 => ⟨S1x2048, .f32⟩
  | 85 => ⟨S16384x2048, .f32⟩
  | 86 => ⟨S16384x2048, .f32⟩
  | 87 => ⟨S1x2048, .f32⟩
  | 88 => ⟨S16384x2048, .f32⟩
  | 89 => ⟨S16384x2048, .f32⟩
  | 90 => ⟨S_, .f32⟩
  | 91 => ⟨S_, .f32⟩
  | 92 => ⟨S_, .f32⟩
  | 93 => ⟨S16384x2048, .f32⟩
  | 94 => ⟨S16384x2048, .f32⟩
  | 95 => ⟨S_, .f32⟩
  | 96 => ⟨S16384x2048, .f32⟩
  | 97 => ⟨S16384x2048, .f32⟩
  | 98 => ⟨S_, .f32⟩
  | 99 => ⟨S16384x2048, .f32⟩
  | 100 => ⟨S16384x2048, .i1⟩
  | 101 => ⟨S_, .f32⟩
  | 102 => ⟨S16384x2048, .f32⟩
  | 103 => ⟨S_, .f32⟩
  | 104 => ⟨S16384x2048, .f32⟩
  | 105 => ⟨S16384x2048, .f32⟩
  | 106 => ⟨S16384x2048, .f32⟩
  | 107 => ⟨S_, .f32⟩
  | 108 => ⟨S2048x2048, .f32⟩
  | 109 => ⟨S2048x2048, .i1⟩
  | 110 => ⟨S_, .f32⟩
  | 111 => ⟨S2048x2048, .f32⟩
  | 112 => ⟨S_, .f32⟩
  | 113 => ⟨S2048x2048, .f32⟩
  | 114 => ⟨S2048x2048, .f32⟩
  | 115 => ⟨S2048x2048, .f32⟩
  | 116 => ⟨S16384x2048, .f32⟩
  | 117 => ⟨S_, .f32⟩
  | 118 => ⟨S2048, .f32⟩
  | 119 => ⟨S2048, .i1⟩
  | 120 => ⟨S_, .f32⟩
  | 121 => ⟨S2048, .f32⟩
  | 122 => ⟨S_, .f32⟩
  | 123 => ⟨S2048, .f32⟩
  | 124 => ⟨S2048, .f32⟩
  | 125 => ⟨S2048, .f32⟩
  | 126 => ⟨S1x2048, .f32⟩
  | 127 => ⟨S16384x2048, .f32⟩
  | _ => ⟨S16384x3072, .f32⟩

abbrev hbmTy0_1 (i : Nat) : BufTy := match i % 128 with
  | 0 => ⟨S16384x2048, .f32⟩
  | 1 => ⟨S_, .f32⟩
  | 2 => ⟨S2048, .f32⟩
  | 3 => ⟨S_, .f32⟩
  | 4 => ⟨S2048, .f32⟩
  | 5 => ⟨S2048, .f32⟩
  | 6 => ⟨S_, .i32⟩
  | 7 => ⟨S_, .f32⟩
  | 8 => ⟨S2048, .f32⟩
  | 9 => ⟨S1x2048, .f32⟩
  | 10 => ⟨S_, .f32⟩
  | 11 => ⟨S1x2048, .f32⟩
  | 12 => ⟨S1x2048, .f32⟩
  | 13 => ⟨S16384x2048, .f32⟩
  | 14 => ⟨S16384x2048, .f32⟩
  | 15 => ⟨S16384x2048, .f32⟩
  | 16 => ⟨S_, .f32⟩
  | 17 => ⟨S_, .f32⟩
  | 18 => ⟨S_, .f32⟩
  | 19 => ⟨S_, .f32⟩
  | 20 => ⟨S2048, .f32⟩
  | 21 => ⟨S2048, .f32⟩
  | 22 => ⟨S2048, .f32⟩
  | 23 => ⟨S_, .f32⟩
  | 24 => ⟨S_, .i1⟩
  | 25 => ⟨S_, .f32⟩
  | 26 => ⟨S_, .f32⟩
  | 27 => ⟨S2048, .f32⟩
  | 28 => ⟨S2048, .f32⟩
  | 29 => ⟨S1x2048, .f32⟩
  | 30 => ⟨S16384x2048, .f32⟩
  | 31 => ⟨S16384x2048, .f32⟩
  | 32 => ⟨S_, .f32⟩
  | 33 => ⟨S2048, .f32⟩
  | 34 => ⟨S2048, .f32⟩
  | 35 => ⟨S2048, .f32⟩
  | 36 => ⟨S1x2048, .f32⟩
  | 37 => ⟨S16384x2048, .f32⟩
  | 38 => ⟨S16384x2048, .f32⟩
  | 39 => ⟨S1x2048, .f32⟩
  | 40 => ⟨S16384x2048, .f32⟩
  | 41 => ⟨S16384x2048, .f32⟩
  | 42 => ⟨S1x2048, .f32⟩
  | 43 => ⟨S16384x2048, .f32⟩
  | 44 => ⟨S16384x2048, .f32⟩
  | 45 => ⟨S_, .f32⟩
  | 46 => ⟨S_, .f32⟩
  | 47 => ⟨S_, .f32⟩
  | 48 => ⟨S16384x2048, .f32⟩
  | 49 => ⟨S16384x2048, .f32⟩
  | 50 => ⟨S_, .f32⟩
  | 51 => ⟨S16384x2048, .f32⟩
  | 52 => ⟨S16384x2048, .f32⟩
  | 53 => ⟨S_, .f32⟩
  | 54 => ⟨S16384x2048, .f32⟩
  | 55 => ⟨S16384x2048, .i1⟩
  | 56 => ⟨S_, .f32⟩
  | 57 => ⟨S16384x2048, .f32⟩
  | 58 => ⟨S_, .f32⟩
  | 59 => ⟨S16384x2048, .f32⟩
  | 60 => ⟨S16384x2048, .f32⟩
  | 61 => ⟨S16384x2048, .f32⟩
  | 62 => ⟨S_, .f32⟩
  | 63 => ⟨S1024x2048, .f32⟩
  | 64 => ⟨S1024x2048, .i1⟩
  | 65 => ⟨S_, .f32⟩
  | 66 => ⟨S1024x2048, .f32⟩
  | 67 => ⟨S_, .f32⟩
  | 68 => ⟨S1024x2048, .f32⟩
  | 69 => ⟨S1024x2048, .f32⟩
  | 70 => ⟨S1024x2048, .f32⟩
  | 71 => ⟨S16384x1024, .f32⟩
  | 72 => ⟨S_, .f32⟩
  | 73 => ⟨S1024, .f32⟩
  | 74 => ⟨S1024, .i1⟩
  | 75 => ⟨S_, .f32⟩
  | 76 => ⟨S1024, .f32⟩
  | 77 => ⟨S_, .f32⟩
  | 78 => ⟨S1024, .f32⟩
  | 79 => ⟨S1024, .f32⟩
  | 80 => ⟨S1024, .f32⟩
  | 81 => ⟨S1x1024, .f32⟩
  | 82 => ⟨S16384x1024, .f32⟩
  | 83 => ⟨S16384x1024, .f32⟩
  | 84 => ⟨S_, .f32⟩
  | 85 => ⟨S1024, .f32⟩
  | 86 => ⟨S_, .f32⟩
  | 87 => ⟨S1024, .f32⟩
  | 88 => ⟨S1024, .f32⟩
  | 89 => ⟨S_, .i32⟩
  | 90 => ⟨S_, .f32⟩
  | 91 => ⟨S1024, .f32⟩
  | 92 => ⟨S1x1024, .f32⟩
  | 93 => ⟨S_, .f32⟩
  | 94 => ⟨S1x1024, .f32⟩
  | 95 => ⟨S1x1024, .f32⟩
  | 96 => ⟨S16384x1024, .f32⟩
  | 97 => ⟨S16384x1024, .f32⟩
  | 98 => ⟨S16384x1024, .f32⟩
  | 99 => ⟨S_, .f32⟩
  | 100 => ⟨S_, .f32⟩
  | 101 => ⟨S_, .f32⟩
  | 102 => ⟨S_, .f32⟩
  | 103 => ⟨S1024, .f32⟩
  | 104 => ⟨S1024, .f32⟩
  | 105 => ⟨S1024, .f32⟩
  | 106 => ⟨S_, .f32⟩
  | 107 => ⟨S_, .i1⟩
  | 108 => ⟨S_, .f32⟩
  | 109 => ⟨S_, .f32⟩
  | 110 => ⟨S1024, .f32⟩
  | 111 => ⟨S1024, .f32⟩
  | 112 => ⟨S1x1024, .f32⟩
  | 113 => ⟨S16384x1024, .f32⟩
  | 114 => ⟨S16384x1024, .f32⟩
  | 115 => ⟨S_, .f32⟩
  | 116 => ⟨S1024, .f32⟩
  | 117 => ⟨S1024, .f32⟩
  | 118 => ⟨S1024, .f32⟩
  | 119 => ⟨S1x1024, .f32⟩
  | 120 => ⟨S16384x1024, .f32⟩
  | 121 => ⟨S16384x1024, .f32⟩
  | 122 => ⟨S1x1024, .f32⟩
  | 123 => ⟨S16384x1024, .f32⟩
  | 124 => ⟨S16384x1024, .f32⟩
  | 125 => ⟨S1x1024, .f32⟩
  | 126 => ⟨S16384x1024, .f32⟩
  | 127 => ⟨S16384x1024, .f32⟩
  | _ => ⟨S16384x3072, .f32⟩

abbrev hbmTy0_2 (i : Nat) : BufTy := match i % 128 with
  | 0 => ⟨S_, .f32⟩
  | 1 => ⟨S_, .f32⟩
  | 2 => ⟨S_, .f32⟩
  | 3 => ⟨S16384x1024, .f32⟩
  | 4 => ⟨S16384x1024, .f32⟩
  | 5 => ⟨S_, .f32⟩
  | 6 => ⟨S16384x1024, .f32⟩
  | 7 => ⟨S16384x1024, .f32⟩
  | 8 => ⟨S_, .f32⟩
  | 9 => ⟨S16384x1024, .f32⟩
  | 10 => ⟨S16384x1024, .i1⟩
  | 11 => ⟨S_, .f32⟩
  | 12 => ⟨S16384x1024, .f32⟩
  | 13 => ⟨S_, .f32⟩
  | 14 => ⟨S16384x1024, .f32⟩
  | 15 => ⟨S16384x1024, .f32⟩
  | 16 => ⟨S16384x1024, .f32⟩
  | 17 => ⟨S_, .f32⟩
  | 18 => ⟨S512x1024, .f32⟩
  | 19 => ⟨S512x1024, .i1⟩
  | 20 => ⟨S_, .f32⟩
  | 21 => ⟨S512x1024, .f32⟩
  | 22 => ⟨S_, .f32⟩
  | 23 => ⟨S512x1024, .f32⟩
  | 24 => ⟨S512x1024, .f32⟩
  | 25 => ⟨S512x1024, .f32⟩
  | 26 => ⟨S16384x512, .f32⟩
  | 27 => ⟨S_, .f32⟩
  | 28 => ⟨S512, .f32⟩
  | 29 => ⟨S512, .i1⟩
  | 30 => ⟨S_, .f32⟩
  | 31 => ⟨S512, .f32⟩
  | 32 => ⟨S_, .f32⟩
  | 33 => ⟨S512, .f32⟩
  | 34 => ⟨S512, .f32⟩
  | 35 => ⟨S512, .f32⟩
  | 36 => ⟨S1x512, .f32⟩
  | 37 => ⟨S16384x512, .f32⟩
  | 38 => ⟨S16384x512, .f32⟩
  | _ => ⟨S16384x3072, .f32⟩

abbrev hbmTy (i : Nat) : BufTy := match i / 128 with
  | 0 => hbmTy0_0 i
  | 1 => hbmTy0_1 i
  | 2 => hbmTy0_2 i
  | _ => ⟨S16384x3072, .f32⟩

abbrev bufTy : (tb : Table) → Fin (tcTables nBuf tb) → BufTy
  | .hbm, ⟨i, _⟩ => hbmTy i
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_cst_1 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_cst_2 : Ref sig .tc := ⟨.hbm, 24, rfl⟩
abbrev main_v6 : Ref sig .tc := ⟨.hbm, 25, rfl⟩
abbrev main_v7 : Ref sig .tc := ⟨.hbm, 26, rfl⟩
abbrev main_cst_3 : Ref sig .tc := ⟨.hbm, 27, rfl⟩
abbrev main_v8 : Ref sig .tc := ⟨.hbm, 28, rfl⟩
abbrev main_cst_4 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_5 : Ref sig .tc := ⟨.hbm, 34, rfl⟩
abbrev main_v13 : Ref sig .tc := ⟨.hbm, 35, rfl⟩
abbrev main_v14 : Ref sig .tc := ⟨.hbm, 36, rfl⟩
abbrev main_cst_6 : Ref sig .tc := ⟨.hbm, 37, rfl⟩
abbrev main_v15 : Ref sig .tc := ⟨.hbm, 38, rfl⟩
abbrev main_cst_7 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_8 : Ref sig .tc := ⟨.hbm, 46, rfl⟩
abbrev main_v22 : Ref sig .tc := ⟨.hbm, 47, rfl⟩
abbrev main_cst_9 : Ref sig .tc := ⟨.hbm, 48, rfl⟩
abbrev main_v23 : Ref sig .tc := ⟨.hbm, 49, rfl⟩
abbrev main_v24 : Ref sig .tc := ⟨.hbm, 50, rfl⟩
abbrev main_c : Ref sig .tc := ⟨.hbm, 51, rfl⟩
abbrev main_call3_cst : Ref sig .tc := ⟨.hbm, 52, rfl⟩
abbrev main_call3_v0 : Ref sig .tc := ⟨.hbm, 53, rfl⟩
abbrev main_call3_v1 : Ref sig .tc := ⟨.hbm, 54, rfl⟩
abbrev main_call3_cst_0 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_call3_v5 : Ref sig .tc := ⟨.hbm, 59, rfl⟩
abbrev main_call3_v6 : Ref sig .tc := ⟨.hbm, 60, rfl⟩
abbrev main_call3_v7 : Ref sig .tc := ⟨.hbm, 61, rfl⟩
abbrev main_call3_cst_1 : Ref sig .tc := ⟨.hbm, 62, rfl⟩
abbrev main_call3_v8 : Ref sig .tc := ⟨.hbm, 63, rfl⟩
abbrev main_call3_cst_2 : Ref sig .tc := ⟨.hbm, 64, rfl⟩
abbrev main_call3_v9 : Ref sig .tc := ⟨.hbm, 65, rfl⟩
abbrev main_call3_v10 : Ref sig .tc := ⟨.hbm, 66, rfl⟩
abbrev main_call3_v11 : Ref sig .tc := ⟨.hbm, 67, rfl⟩
abbrev main_call3_cst_3 : Ref sig .tc := ⟨.hbm, 68, rfl⟩
abbrev main_call3_v12 : Ref sig .tc := ⟨.hbm, 69, rfl⟩
abbrev main_call3_cst_4 : Ref sig .tc := ⟨.hbm, 70, rfl⟩
abbrev main_call3_call0_v0 : Ref sig .tc := ⟨.hbm, 71, rfl⟩
abbrev main_call3_call0_v1 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_cst_10 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_cst_11 : Ref sig .tc := ⟨.hbm, 90, rfl⟩
abbrev main_cst_12 : Ref sig .tc := ⟨.hbm, 91, rfl⟩
abbrev main_call4_v0 : Ref sig .tc := ⟨.hbm, 92, rfl⟩
abbrev main_call4_v1 : Ref sig .tc := ⟨.hbm, 93, rfl⟩
abbrev main_call4_v2 : Ref sig .tc := ⟨.hbm, 94, rfl⟩
abbrev main_call4_v3 : Ref sig .tc := ⟨.hbm, 95, rfl⟩
abbrev main_call4_v4 : Ref sig .tc := ⟨.hbm, 96, rfl⟩
abbrev main_v41 : Ref sig .tc := ⟨.hbm, 97, rfl⟩
abbrev main_cst_13 : Ref sig .tc := ⟨.hbm, 98, rfl⟩
abbrev main_v42 : Ref sig .tc := ⟨.hbm, 99, rfl⟩
abbrev main_v43 : Ref sig .tc := ⟨.hbm, 100, rfl⟩
abbrev main_cst_14 : Ref sig .tc := ⟨.hbm, 101, rfl⟩
abbrev main_v44 : Ref sig .tc := ⟨.hbm, 102, rfl⟩
abbrev main_cst_15 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_cst_16 : Ref sig .tc := ⟨.hbm, 107, rfl⟩
abbrev main_v48 : Ref sig .tc := ⟨.hbm, 108, rfl⟩
abbrev main_v49 : Ref sig .tc := ⟨.hbm, 109, rfl⟩
abbrev main_cst_17 : Ref sig .tc := ⟨.hbm, 110, rfl⟩
abbrev main_v50 : Ref sig .tc := ⟨.hbm, 111, rfl⟩
abbrev main_cst_18 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_cst_19 : Ref sig .tc := ⟨.hbm, 117, rfl⟩
abbrev main_v55 : Ref sig .tc := ⟨.hbm, 118, rfl⟩
abbrev main_v56 : Ref sig .tc := ⟨.hbm, 119, rfl⟩
abbrev main_cst_20 : Ref sig .tc := ⟨.hbm, 120, rfl⟩
abbrev main_v57 : Ref sig .tc := ⟨.hbm, 121, rfl⟩
abbrev main_cst_21 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_cst_22 : Ref sig .tc := ⟨.hbm, 129, rfl⟩
abbrev main_v64 : Ref sig .tc := ⟨.hbm, 130, rfl⟩
abbrev main_cst_23 : Ref sig .tc := ⟨.hbm, 131, rfl⟩
abbrev main_v65 : Ref sig .tc := ⟨.hbm, 132, rfl⟩
abbrev main_v66 : Ref sig .tc := ⟨.hbm, 133, rfl⟩
abbrev main_c_24 : Ref sig .tc := ⟨.hbm, 134, rfl⟩
abbrev main_call8_cst : Ref sig .tc := ⟨.hbm, 135, rfl⟩
abbrev main_call8_v0 : Ref sig .tc := ⟨.hbm, 136, rfl⟩
abbrev main_call8_v1 : Ref sig .tc := ⟨.hbm, 137, rfl⟩
abbrev main_call8_cst_0 : Ref sig .tc := ⟨.hbm, 138, rfl⟩
abbrev main_call8_v2 : Ref sig .tc := ⟨.hbm, 139, rfl⟩
abbrev main_call8_v3 : Ref sig .tc := ⟨.hbm, 140, rfl⟩
abbrev main_call8_v4 : Ref sig .tc := ⟨.hbm, 141, rfl⟩
abbrev main_call8_v5 : Ref sig .tc := ⟨.hbm, 142, rfl⟩
abbrev main_call8_v6 : Ref sig .tc := ⟨.hbm, 143, rfl⟩
abbrev main_call8_v7 : Ref sig .tc := ⟨.hbm, 144, rfl⟩
abbrev main_call8_cst_1 : Ref sig .tc := ⟨.hbm, 145, rfl⟩
abbrev main_call8_v8 : Ref sig .tc := ⟨.hbm, 146, rfl⟩
abbrev main_call8_cst_2 : Ref sig .tc := ⟨.hbm, 147, rfl⟩
abbrev main_call8_v9 : Ref sig .tc := ⟨.hbm, 148, rfl⟩
abbrev main_call8_v10 : Ref sig .tc := ⟨.hbm, 149, rfl⟩
abbrev main_call8_v11 : Ref sig .tc := ⟨.hbm, 150, rfl⟩
abbrev main_call8_cst_3 : Ref sig .tc := ⟨.hbm, 151, rfl⟩
abbrev main_call8_v12 : Ref sig .tc := ⟨.hbm, 152, rfl⟩
abbrev main_call8_cst_4 : Ref sig .tc := ⟨.hbm, 153, rfl⟩
abbrev main_call8_call0_v0 : Ref sig .tc := ⟨.hbm, 154, rfl⟩
abbrev main_call8_call0_v1 : Ref sig .tc := ⟨.hbm, 155, rfl⟩
abbrev main_v67 : Ref sig .tc := ⟨.hbm, 156, rfl⟩
abbrev main_v68 : Ref sig .tc := ⟨.hbm, 157, rfl⟩
abbrev main_v69 : Ref sig .tc := ⟨.hbm, 158, rfl⟩
abbrev main_v70 : Ref sig .tc := ⟨.hbm, 159, rfl⟩
abbrev main_cst_25 : Ref sig .tc := ⟨.hbm, 160, rfl⟩
abbrev main_v71 : Ref sig .tc := ⟨.hbm, 161, rfl⟩
abbrev main_v72 : Ref sig .tc := ⟨.hbm, 162, rfl⟩
abbrev main_v73 : Ref sig .tc := ⟨.hbm, 163, rfl⟩
abbrev main_v74 : Ref sig .tc := ⟨.hbm, 164, rfl⟩
abbrev main_v75 : Ref sig .tc := ⟨.hbm, 165, rfl⟩
abbrev main_v76 : Ref sig .tc := ⟨.hbm, 166, rfl⟩
abbrev main_v77 : Ref sig .tc := ⟨.hbm, 167, rfl⟩
abbrev main_v78 : Ref sig .tc := ⟨.hbm, 168, rfl⟩
abbrev main_v79 : Ref sig .tc := ⟨.hbm, 169, rfl⟩
abbrev main_v80 : Ref sig .tc := ⟨.hbm, 170, rfl⟩
abbrev main_v81 : Ref sig .tc := ⟨.hbm, 171, rfl⟩
abbrev main_v82 : Ref sig .tc := ⟨.hbm, 172, rfl⟩
abbrev main_cst_26 : Ref sig .tc := ⟨.hbm, 173, rfl⟩
abbrev main_cst_27 : Ref sig .tc := ⟨.hbm, 174, rfl⟩
abbrev main_call9_v0 : Ref sig .tc := ⟨.hbm, 175, rfl⟩
abbrev main_call9_v1 : Ref sig .tc := ⟨.hbm, 176, rfl⟩
abbrev main_call9_v2 : Ref sig .tc := ⟨.hbm, 177, rfl⟩
abbrev main_call9_v3 : Ref sig .tc := ⟨.hbm, 178, rfl⟩
abbrev main_call9_v4 : Ref sig .tc := ⟨.hbm, 179, rfl⟩
abbrev main_v83 : Ref sig .tc := ⟨.hbm, 180, rfl⟩
abbrev main_cst_28 : Ref sig .tc := ⟨.hbm, 181, rfl⟩
abbrev main_v84 : Ref sig .tc := ⟨.hbm, 182, rfl⟩
abbrev main_v85 : Ref sig .tc := ⟨.hbm, 183, rfl⟩
abbrev main_cst_29 : Ref sig .tc := ⟨.hbm, 184, rfl⟩
abbrev main_v86 : Ref sig .tc := ⟨.hbm, 185, rfl⟩
abbrev main_cst_30 : Ref sig .tc := ⟨.hbm, 186, rfl⟩
abbrev main_v87 : Ref sig .tc := ⟨.hbm, 187, rfl⟩
abbrev main_v88 : Ref sig .tc := ⟨.hbm, 188, rfl⟩
abbrev main_v89 : Ref sig .tc := ⟨.hbm, 189, rfl⟩
abbrev main_cst_31 : Ref sig .tc := ⟨.hbm, 190, rfl⟩
abbrev main_v90 : Ref sig .tc := ⟨.hbm, 191, rfl⟩
abbrev main_v91 : Ref sig .tc := ⟨.hbm, 192, rfl⟩
abbrev main_cst_32 : Ref sig .tc := ⟨.hbm, 193, rfl⟩
abbrev main_v92 : Ref sig .tc := ⟨.hbm, 194, rfl⟩
abbrev main_cst_33 : Ref sig .tc := ⟨.hbm, 195, rfl⟩
abbrev main_v93 : Ref sig .tc := ⟨.hbm, 196, rfl⟩
abbrev main_v94 : Ref sig .tc := ⟨.hbm, 197, rfl⟩
abbrev main_v95 : Ref sig .tc := ⟨.hbm, 198, rfl⟩
abbrev main_v96 : Ref sig .tc := ⟨.hbm, 199, rfl⟩
abbrev main_cst_34 : Ref sig .tc := ⟨.hbm, 200, rfl⟩
abbrev main_v97 : Ref sig .tc := ⟨.hbm, 201, rfl⟩
abbrev main_v98 : Ref sig .tc := ⟨.hbm, 202, rfl⟩
abbrev main_cst_35 : Ref sig .tc := ⟨.hbm, 203, rfl⟩
abbrev main_v99 : Ref sig .tc := ⟨.hbm, 204, rfl⟩
abbrev main_cst_36 : Ref sig .tc := ⟨.hbm, 205, rfl⟩
abbrev main_v100 : Ref sig .tc := ⟨.hbm, 206, rfl⟩
abbrev main_v101 : Ref sig .tc := ⟨.hbm, 207, rfl⟩
abbrev main_v102 : Ref sig .tc := ⟨.hbm, 208, rfl⟩
abbrev main_v103 : Ref sig .tc := ⟨.hbm, 209, rfl⟩
abbrev main_v104 : Ref sig .tc := ⟨.hbm, 210, rfl⟩
abbrev main_v105 : Ref sig .tc := ⟨.hbm, 211, rfl⟩
abbrev main_cst_37 : Ref sig .tc := ⟨.hbm, 212, rfl⟩
abbrev main_v106 : Ref sig .tc := ⟨.hbm, 213, rfl⟩
abbrev main_cst_38 : Ref sig .tc := ⟨.hbm, 214, rfl⟩
abbrev main_v107 : Ref sig .tc := ⟨.hbm, 215, rfl⟩
abbrev main_v108 : Ref sig .tc := ⟨.hbm, 216, rfl⟩
abbrev main_c_39 : Ref sig .tc := ⟨.hbm, 217, rfl⟩
abbrev main_call13_cst : Ref sig .tc := ⟨.hbm, 218, rfl⟩
abbrev main_call13_v0 : Ref sig .tc := ⟨.hbm, 219, rfl⟩
abbrev main_call13_v1 : Ref sig .tc := ⟨.hbm, 220, rfl⟩
abbrev main_call13_cst_0 : Ref sig .tc := ⟨.hbm, 221, rfl⟩
abbrev main_call13_v2 : Ref sig .tc := ⟨.hbm, 222, rfl⟩
abbrev main_call13_v3 : Ref sig .tc := ⟨.hbm, 223, rfl⟩
abbrev main_call13_v4 : Ref sig .tc := ⟨.hbm, 224, rfl⟩
abbrev main_call13_v5 : Ref sig .tc := ⟨.hbm, 225, rfl⟩
abbrev main_call13_v6 : Ref sig .tc := ⟨.hbm, 226, rfl⟩
abbrev main_call13_v7 : Ref sig .tc := ⟨.hbm, 227, rfl⟩
abbrev main_call13_cst_1 : Ref sig .tc := ⟨.hbm, 228, rfl⟩
abbrev main_call13_v8 : Ref sig .tc := ⟨.hbm, 229, rfl⟩
abbrev main_call13_cst_2 : Ref sig .tc := ⟨.hbm, 230, rfl⟩
abbrev main_call13_v9 : Ref sig .tc := ⟨.hbm, 231, rfl⟩
abbrev main_call13_v10 : Ref sig .tc := ⟨.hbm, 232, rfl⟩
abbrev main_call13_v11 : Ref sig .tc := ⟨.hbm, 233, rfl⟩
abbrev main_call13_cst_3 : Ref sig .tc := ⟨.hbm, 234, rfl⟩
abbrev main_call13_v12 : Ref sig .tc := ⟨.hbm, 235, rfl⟩
abbrev main_call13_cst_4 : Ref sig .tc := ⟨.hbm, 236, rfl⟩
abbrev main_call13_call0_v0 : Ref sig .tc := ⟨.hbm, 237, rfl⟩
abbrev main_call13_call0_v1 : Ref sig .tc := ⟨.hbm, 238, rfl⟩
abbrev main_v109 : Ref sig .tc := ⟨.hbm, 239, rfl⟩
abbrev main_v110 : Ref sig .tc := ⟨.hbm, 240, rfl⟩
abbrev main_v111 : Ref sig .tc := ⟨.hbm, 241, rfl⟩
abbrev main_v112 : Ref sig .tc := ⟨.hbm, 242, rfl⟩
abbrev main_cst_40 : Ref sig .tc := ⟨.hbm, 243, rfl⟩
abbrev main_v113 : Ref sig .tc := ⟨.hbm, 244, rfl⟩
abbrev main_v114 : Ref sig .tc := ⟨.hbm, 245, rfl⟩
abbrev main_v115 : Ref sig .tc := ⟨.hbm, 246, rfl⟩
abbrev main_v116 : Ref sig .tc := ⟨.hbm, 247, rfl⟩
abbrev main_v117 : Ref sig .tc := ⟨.hbm, 248, rfl⟩
abbrev main_v118 : Ref sig .tc := ⟨.hbm, 249, rfl⟩
abbrev main_v119 : Ref sig .tc := ⟨.hbm, 250, rfl⟩
abbrev main_v120 : Ref sig .tc := ⟨.hbm, 251, rfl⟩
abbrev main_v121 : Ref sig .tc := ⟨.hbm, 252, rfl⟩
abbrev main_v122 : Ref sig .tc := ⟨.hbm, 253, rfl⟩
abbrev main_v123 : Ref sig .tc := ⟨.hbm, 254, rfl⟩
abbrev main_v124 : Ref sig .tc := ⟨.hbm, 255, rfl⟩
abbrev main_cst_41 : Ref sig .tc := ⟨.hbm, 256, rfl⟩
abbrev main_cst_42 : Ref sig .tc := ⟨.hbm, 257, rfl⟩
abbrev main_call14_v0 : Ref sig .tc := ⟨.hbm, 258, rfl⟩
abbrev main_call14_v1 : Ref sig .tc := ⟨.hbm, 259, rfl⟩
abbrev main_call14_v2 : Ref sig .tc := ⟨.hbm, 260, rfl⟩
abbrev main_call14_v3 : Ref sig .tc := ⟨.hbm, 261, rfl⟩
abbrev main_call14_v4 : Ref sig .tc := ⟨.hbm, 262, rfl⟩
abbrev main_v125 : Ref sig .tc := ⟨.hbm, 263, rfl⟩
abbrev main_cst_43 : Ref sig .tc := ⟨.hbm, 264, rfl⟩
abbrev main_v126 : Ref sig .tc := ⟨.hbm, 265, rfl⟩
abbrev main_v127 : Ref sig .tc := ⟨.hbm, 266, rfl⟩
abbrev main_cst_44 : Ref sig .tc := ⟨.hbm, 267, rfl⟩
abbrev main_v128 : Ref sig .tc := ⟨.hbm, 268, rfl⟩
abbrev main_cst_45 : Ref sig .tc := ⟨.hbm, 269, rfl⟩
abbrev main_v129 : Ref sig .tc := ⟨.hbm, 270, rfl⟩
abbrev main_v130 : Ref sig .tc := ⟨.hbm, 271, rfl⟩
abbrev main_v131 : Ref sig .tc := ⟨.hbm, 272, rfl⟩
abbrev main_cst_46 : Ref sig .tc := ⟨.hbm, 273, rfl⟩
abbrev main_v132 : Ref sig .tc := ⟨.hbm, 274, rfl⟩
abbrev main_v133 : Ref sig .tc := ⟨.hbm, 275, rfl⟩
abbrev main_cst_47 : Ref sig .tc := ⟨.hbm, 276, rfl⟩
abbrev main_v134 : Ref sig .tc := ⟨.hbm, 277, rfl⟩
abbrev main_cst_48 : Ref sig .tc := ⟨.hbm, 278, rfl⟩
abbrev main_v135 : Ref sig .tc := ⟨.hbm, 279, rfl⟩
abbrev main_v136 : Ref sig .tc := ⟨.hbm, 280, rfl⟩
abbrev main_v137 : Ref sig .tc := ⟨.hbm, 281, rfl⟩
abbrev main_v138 : Ref sig .tc := ⟨.hbm, 282, rfl⟩
abbrev main_cst_49 : Ref sig .tc := ⟨.hbm, 283, rfl⟩
abbrev main_v139 : Ref sig .tc := ⟨.hbm, 284, rfl⟩
abbrev main_v140 : Ref sig .tc := ⟨.hbm, 285, rfl⟩
abbrev main_cst_50 : Ref sig .tc := ⟨.hbm, 286, rfl⟩
abbrev main_v141 : Ref sig .tc := ⟨.hbm, 287, rfl⟩
abbrev main_cst_51 : Ref sig .tc := ⟨.hbm, 288, rfl⟩
abbrev main_v142 : Ref sig .tc := ⟨.hbm, 289, rfl⟩
abbrev main_v143 : Ref sig .tc := ⟨.hbm, 290, rfl⟩
abbrev main_v144 : Ref sig .tc := ⟨.hbm, 291, rfl⟩
abbrev main_v145 : Ref sig .tc := ⟨.hbm, 292, rfl⟩
abbrev main_v146 : Ref sig .tc := ⟨.hbm, 293, rfl⟩
abbrev main_v147 : Ref sig .tc := ⟨.hbm, 294, rfl⟩

abbrev nD : Nat := 1
abbrev τ : Topo := Topo.v7x

variable {F : FTy → Type} [FloatOps F]

class Facts₀ : Prop where
  bcast_S_S16384x3072 : S_.BroadcastsInDim S16384x3072 (![] : Fin 0 → Fin S16384x3072.rank)
  bcast_S_S2048x3072 : S_.BroadcastsInDim S2048x3072 (![] : Fin 0 → Fin S2048x3072.rank)
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  reducesTo_S16384x2048_S2048_d0 : S16384x2048.ReducesTo [0] S2048
  h_S_ : 0 < S_.numel
  bcast_S_S1x2048 : S_.BroadcastsInDim S1x2048 (![] : Fin 0 → Fin S1x2048.rank)
  bcast_S_S16384x2048 : S_.BroadcastsInDim S16384x2048 (![] : Fin 0 → Fin S16384x2048.rank)
  bcast_S_S2048x2048 : S_.BroadcastsInDim S2048x2048 (![] : Fin 0 → Fin S2048x2048.rank)
  bcast_S_S1024x2048 : S_.BroadcastsInDim S1024x2048 (![] : Fin 0 → Fin S1024x2048.rank)
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  reducesTo_S16384x1024_S1024_d0 : S16384x1024.ReducesTo [0] S1024
  bcast_S_S1x1024 : S_.BroadcastsInDim S1x1024 (![] : Fin 0 → Fin S1x1024.rank)
  bcast_S_S16384x1024 : S_.BroadcastsInDim S16384x1024 (![] : Fin 0 → Fin S16384x1024.rank)
  bcast_S_S512x1024 : S_.BroadcastsInDim S512x1024 (![] : Fin 0 → Fin S512x1024.rank)
  bcast_S_S512 : S_.BroadcastsInDim S512 (![] : Fin 0 → Fin S512.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  dot_S16384x3072_S2048x3072_S16384x2048_1_1_0_0_n_n_wf : DotDims.WF S16384x3072 S2048x3072 S16384x2048 [1] [1] [0] [0] [] []
  dot_S16384x2048_S2048x2048_S16384x2048_1_1_0_0_n_n_wf : DotDims.WF S16384x2048 S2048x2048 S16384x2048 [1] [1] [0] [0] [] []
  dot_S16384x2048_S1024x2048_S16384x1024_1_1_0_0_n_n_wf : DotDims.WF S16384x2048 S1024x2048 S16384x1024 [1] [1] [0] [0] [] []
  dot_S16384x1024_S512x1024_S16384x512_1_1_0_0_n_n_wf : DotDims.WF S16384x1024 S512x1024 S16384x512 [1] [1] [0] [0] [] []

variable [Facts₀]

def dot_S16384x3072_S2048x3072_S16384x2048_1_1_0_0_n_n : DotDims S16384x3072 S2048x3072 S16384x2048 where
  lhsContracting := [1]
  rhsContracting := [1]
  lhsNonContracting := [0]
  rhsNonContracting := [0]
  lhsBatch := []
  rhsBatch := []
  wf := dot_S16384x3072_S2048x3072_S16384x2048_1_1_0_0_n_n_wf
def dot_S16384x2048_S2048x2048_S16384x2048_1_1_0_0_n_n : DotDims S16384x2048 S2048x2048 S16384x2048 where
  lhsContracting := [1]
  rhsContracting := [1]
  lhsNonContracting := [0]
  rhsNonContracting := [0]
  lhsBatch := []
  rhsBatch := []
  wf := dot_S16384x2048_S2048x2048_S16384x2048_1_1_0_0_n_n_wf
def dot_S16384x2048_S1024x2048_S16384x1024_1_1_0_0_n_n : DotDims S16384x2048 S1024x2048 S16384x1024 where
  lhsContracting := [1]
  rhsContracting := [1]
  lhsNonContracting := [0]
  rhsNonContracting := [0]
  lhsBatch := []
  rhsBatch := []
  wf := dot_S16384x2048_S1024x2048_S16384x1024_1_1_0_0_n_n_wf
def dot_S16384x1024_S512x1024_S16384x512_1_1_0_0_n_n : DotDims S16384x1024 S512x1024 S16384x512 where
  lhsContracting := [1]
  rhsContracting := [1]
  lhsNonContracting := [0]
  rhsNonContracting := [0]
  lhsBatch := []
  rhsBatch := []
  wf := dot_S16384x1024_S512x1024_S16384x512_1_1_0_0_n_n_wf

class Facts : Prop extends Facts₀ where

variable [Facts]
-- ==== Proof.KRun.lean ====
/-
  The idealized kernel program's run with the result array kept.

  The program is four pipelined regions among stretches of host operations.  Its run, at the compiled mesh and from any
  memory with zero counters, terminates without a fault; the final state holds every unscoped buffer at the contents the
  last segment boundary leaves.  Read at the result buffer this is the last region's output array as the pipeline
  leaves it, and at each argument it is the launch contents, since neither a host operation nor a region writes one.
-/
import proofs.«137791_j65661460021769_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's contents and
    every argument array as launched. -/
theorem run_result : θ_run defs (onTc (τ := τ) (main (F := F))) ⟨m, fun _ => 0, ρ⟩ (fun r => ∀ c : Dev nD,
      r.2.mem ((c.tc : Thread nD τ).loc main_v65) = W30 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W30 m ρ c b)
    (hfin := fun c s' => by
      iintro ⟨⟨Hh, -⟩, HSI⟩
      unfold StableHlo.held
      imodintro
      iapply (pointsTo_read_all (Pipeline.ucRefs τ sig) (fun b => (((c : Thread nD τ)).1, b)) (W30 m ρ c) s')
      isplitl [Hh] <;> iassumption)
    (hQ := fun s h c =>
      ⟨h c _ (mem_uc main_v65 (by decide)),
       (h c _ (mem_uc main_arg0 (by decide))).trans (W30_main_arg0 m ρ c),
       (h c _ (mem_uc main_arg1 (by decide))).trans (W30_main_arg1 m ρ c),
       (h c _ (mem_uc main_arg2 (by decide))).trans (W30_main_arg2 m ρ c),
       (h c _ (mem_uc main_arg3 (by decide))).trans (W30_main_arg3 m ρ c),
       (h c _ (mem_uc main_arg4 (by decide))).trans (W30_main_arg4 m ρ c),
       (h c _ (mem_uc main_arg5 (by decide))).trans (W30_main_arg5 m ρ c),
       (h c _ (mem_uc main_arg6 (by decide))).trans (W30_main_arg6 m ρ c),
       (h c _ (mem_uc main_arg7 (by decide))).trans (W30_main_arg7 m ρ c),
       (h c _ (mem_uc main_arg8 (by decide))).trans (W30_main_arg8 m ρ c),
       (h c _ (mem_uc main_arg9 (by decide))).trans (W30_main_arg9 m ρ c),
       (h c _ (mem_uc main_arg10 (by decide))).trans (W30_main_arg10 m ρ c),
       (h c _ (mem_uc main_arg11 (by decide))).trans (W30_main_arg11 m ρ c),
       (h c _ (mem_uc main_arg12 (by decide))).trans (W30_main_arg12 m ρ c),
       (h c _ (mem_uc main_arg13 (by decide))).trans (W30_main_arg13 m ρ c),
       (h c _ (mem_uc main_arg14 (by decide))).trans (W30_main_arg14 m ρ c)⟩)

end Cert.KernelIdeal.KRun

end
-- ==== Proof.Spec.lean ====
/-
  The network both programs compute, entry by entry over the extended reals.

  A binarized linear layer sends a row `X p` to `Σ_k sgn (X p k) · sgn (W j k) + sgn (b j)`, where `sgn a` is `1` for
  `0 ≤ a` and `-1` otherwise.  Between two layers the batch statistics of each column `j` (the mean and the biased
  variance over the 16384 rows, the variance guarded by `0 < n − ddof`) normalise the column, which is then scaled by
  `g j` and shifted by `be j`.  One program clips the normalised value to `[-1, 1]` before the next layer takes its sign,
  the other takes the sign directly: a clip to an interval around `0` never changes on which side of `0` a value lies
  (`sg_clip`), so the two agree.  The division constant, the variance guard, the not-a-number filler and the
  epsilon stay the words the programs print; only `0`, `1` and `-1` are read as numbers.
-/
import Idealize.ShloMosaic.PureOps.Ideal.Laws
import Idealize.ShloMosaic.Lib.ValueIdx

noncomputable section

namespace Cert.BinNet

open Idealize.ShloMosaic Idealize.ShloMosaic.ValueIdx

/-- The sign with the tie at `0` sent to `+1`. -/
def sg (a : EReal) : EReal := Scalar.select (Ideal.cmp .oge a 0) 1 (-1)

/-- A linear layer over weights and a bias that are already signs: `Σ_k sgn (X p k) · Wb j k + bb j`. -/
def linB {B K N : ℕ} (X : Fin B → Fin K → EReal) (Wb : Fin N → Fin K → EReal) (bb : Fin N → EReal)
    (p : Fin B) (j : Fin N) : EReal :=
  (∑ k : Fin K, sg (X p k) * Wb j k) + bb j

/-- The binarized linear layer. -/
def lin {B K N : ℕ} (X : Fin B → Fin K → EReal) (W : Fin N → Fin K → EReal) (b : Fin N → EReal) :
    Fin B → Fin N → EReal :=
  linB X (fun j k => sg (W j k)) (fun j => sg (b j))

/-- The number of rows as the programs print it. -/
def cnt : EReal := Ideal.ofBits .f32 0x46800000#32
/-- The epsilon as the programs print it. -/
def eps : EReal := Ideal.ofBits .f32 0x3727C5AC#32
/-- The filler the variance takes when its divisor is not positive. -/
def filler : EReal := Ideal.ofBits .f32 0x7FC00000#32
/-- The variance's divisor: the number of rows less the (zero) degrees of freedom, as the programs compute it. -/
def dof : EReal := cnt - FloatOps.sitofp (F := Ideal) .f32 (0#32 : BitVec 32)

/-- A column's mean over the rows. -/
def mean {B N : ℕ} (h : Fin B → Fin N → EReal) (j : Fin N) : EReal := Ideal.div (∑ p : Fin B, h p j) cnt

/-- A column's biased variance over the rows. -/
def var {B N : ℕ} (h : Fin B → Fin N → EReal) (j : Fin N) : EReal :=
  Scalar.select (Ideal.cmp .ogt dof 0)
    (Ideal.div (∑ p : Fin B, (h p j - mean h j) * (h p j - mean h j)) dof) filler

/-- The reciprocal standard deviation of a column. -/
def istd {B N : ℕ} (h : Fin B → Fin N → EReal) (j : Fin N) : EReal := Ideal.rsqrt (var h j + eps)

/-- An entry normalised by given column statistics, scaled and shifted. -/
def zrow {B N : ℕ} (h : Fin B → Fin N → EReal) (mu iv g be : Fin N → EReal) (p : Fin B) (j : Fin N) : EReal :=
  (h p j - mu j) * iv j * g j + be j

/-- Batch normalisation in training mode. -/
def bnz {B N : ℕ} (h : Fin B → Fin N → EReal) (g be : Fin N → EReal) : Fin B → Fin N → EReal :=
  zrow h (mean h) (istd h) g be

/-- The clip to `[-1, 1]`. -/
def clip (z : EReal) : EReal := min 1 (max (-1) z)

theorem sg_clip (z : EReal) : sg (clip z) = sg z := by
  unfold sg clip Ideal.cmp
  congr 2
  simp only [decide_eq_decide]
  constructor
  · intro h
    by_contra hz
    have hz' : z < 0 := not_le.mp hz
    have h1 : max (-1) z < 0 := max_lt (by norm_num) hz'
    exact absurd (lt_of_le_of_lt (min_le_right _ _) h1) (not_lt.mpr h)
  · intro h
    exact le_min (by norm_num) (le_max_of_le_right h)

/-- A layer sees only the signs of its input, so clipping the input first changes nothing. -/
theorem lin_clip {B K N : ℕ} (X : Fin B → Fin K → EReal) (W : Fin N → Fin K → EReal) (b : Fin N → EReal) :
    lin (fun p k => clip (X p k)) W b = lin X W b := by
  funext p j
  unfold lin linB
  simp only [sg_clip]

/-- The four layers. -/
def net {B D H1 H2 H3 C : ℕ} (x : Fin B → Fin D → EReal)
    (W1 : Fin H1 → Fin D → EReal) (b1 g1 be1 : Fin H1 → EReal)
    (W2 : Fin H2 → Fin H1 → EReal) (b2 g2 be2 : Fin H2 → EReal)
    (W3 : Fin H3 → Fin H2 → EReal) (b3 g3 be3 : Fin H3 → EReal)
    (W4 : Fin C → Fin H3 → EReal) (b4 : Fin C → EReal) : Fin B → Fin C → EReal :=
  lin (bnz (lin (bnz (lin (bnz (lin x W1 b1) g1 be1) W2 b2) g2 be2) W3 b3) g3 be3) W4 b4

/-- A rank-2 array as a function of its two coordinates, and a rank-1 array of its one. -/
abbrev m2 {a b : ℕ} (A : (⟨2, ![a, b]⟩ : Shape).Idx → EReal) : Fin a → Fin b → EReal := fun p k => A (ix2 p k)
abbrev v1 {a : ℕ} (A : (⟨1, ![a]⟩ : Shape).Idx → EReal) : Fin a → EReal := fun j => A (ix1 j)
/-- A one-row array as a function of its column coordinate. -/
abbrev r1 {a : ℕ} (A : (⟨2, ![1, a]⟩ : Shape).Idx → EReal) : Fin a → EReal := fun j => A (ix2 0 j)
/-- A function of two coordinates as a rank-2 array. -/
abbrev arr2 {a b : ℕ} (f : Fin a → Fin b → EReal) : (⟨2, ![a, b]⟩ : Shape).Idx → EReal := fun i => f (i 0) (i 1)

/-- The result array as a function of the fifteen argument arrays. -/
def out (x : (⟨2, ![16384, 3072]⟩ : Shape).Idx → EReal)
    (W1 : (⟨2, ![2048, 3072]⟩ : Shape).Idx → EReal) (b1 g1 be1 : (⟨1, ![2048]⟩ : Shape).Idx → EReal)
    (W2 : (⟨2, ![2048, 2048]⟩ : Shape).Idx → EReal) (b2 g2 be2 : (⟨1, ![2048]⟩ : Shape).Idx → EReal)
    (W3 : (⟨2, ![1024, 2048]⟩ : Shape).Idx → EReal) (b3 g3 be3 : (⟨1, ![1024]⟩ : Shape).Idx → EReal)
    (W4 : (⟨2, ![512, 1024]⟩ : Shape).Idx → EReal) (b4 : (⟨1, ![512]⟩ : Shape).Idx → EReal) :
    (⟨2, ![16384, 512]⟩ : Shape).Idx → EReal :=
  arr2 (net (m2 x) (m2 W1) (v1 b1) (v1 g1) (v1 be1) (m2 W2) (v1 b2) (v1 g2) (v1 be2)
    (m2 W3) (v1 b3) (v1 g3) (v1 be3) (m2 W4) (v1 b4))

/-- A rank-2 array is determined by its values at coordinate pairs. -/
theorem arr2_ext {a b : ℕ} (A : (⟨2, ![a, b]⟩ : Shape).Idx → EReal) (f : Fin a → Fin b → EReal)
    (h : ∀ p k, A (ix2 p k) = f p k) : A = arr2 f := by
  funext i
  rw [eq_ix2 i]
  exact h _ _

end Cert.BinNet

end
-- ==== Proof.Consts.lean ====
/-
  The three float words both programs read as numbers: `+0.0` is `0`, `1.0` is `1`, `-1.0` is `-1` on the extended reals,
  and with them the sign selection the programs spell: "`1` where `0 ≤ a`, else `-1`" is the specification's `sg`.
-/
import proofs.«137791_j65661460021769_2_alg».proof.Proof.Spec

noncomputable section

namespace Cert.Consts

open Idealize.ShloMosaic

theorem ofBits_zero : Ideal.ofBits .f32 0x00000000#32 = 0 := Ideal.ofBits_zero_f32

theorem ofBits_one : Ideal.ofBits .f32 0x3F800000#32 = 1 := by
  simp [Ideal.ofBits, Ideal.ieee, -EReal.coe_mul]; norm_num

theorem ofBits_negone : Ideal.ofBits .f32 0xBF800000#32 = -1 := by
  simp [Ideal.ofBits, Ideal.ieee, -EReal.coe_mul]; norm_num

/-- The selection with the literal `-1.0` is the sign. -/
theorem select_sg (a : EReal) :
    Scalar.select (Ideal.cmp .oge a (Ideal.ofBits .f32 0x00000000#32)) (Ideal.ofBits .f32 0x3F800000#32)
      (Ideal.ofBits .f32 0xBF800000#32) = Cert.BinNet.sg a := by
  rw [ofBits_zero, ofBits_one, ofBits_negone]; rfl

/-- The selection with `1.0` negated is the sign. -/
theorem select_neg_sg (a : EReal) :
    Scalar.select (Ideal.cmp .oge a (Ideal.ofBits .f32 0x00000000#32)) (Ideal.ofBits .f32 0x3F800000#32)
      (-(Ideal.ofBits .f32 0x3F800000#32)) = Cert.BinNet.sg a := by
  rw [ofBits_zero, ofBits_one]; rfl

end Cert.Consts

end
-- ==== Proof.KHostDefs.lean ====
/-
  The host side of the idealized kernel program, stretch by stretch.

  The program's host operations come in four groups: everything before the first region (the weights and biases turned
  into signs, once), and one group before each later region (the batch statistics of the previous region's output and
  the scale and shift vectors laid out as rows).  Each group is a function from the buffer contents it finds to the
  buffer contents it leaves; the lemmas about a group are stated for ANY contents it finds.
-/
import proofs.«137791_j65661460021769_2_alg».proof.Proof.Gen.KernelIdeal.Frame
import Idealize.ShloMosaic.Lib.StableHlo.Run
import Idealize.ShloMosaic.Lib.ValueIdx

set_option maxRecDepth 16384

noncomputable section

namespace Cert.KernelIdeal.KHost

open Cert.KernelIdeal Cert.KernelIdeal.Gen
open Idealize.ShloMosaic Idealize.ShloMosaic.TcCoe Idealize.ShloMosaic.StableHlo Idealize.ShloMosaic.ValueIdx

/-- The buffer contents after every host operation before the first region, from contents `V0`. -/
abbrev pre0 (V0 : Valuation τ sig (Elt Ideal)) : Valuation τ sig (Elt Ideal) :=
  after hostOps0_16 (after hostOps0_15 (after hostOps0_14 (after hostOps0_13 (after hostOps0_12 (after hostOps0_11 (after hostOps0_10
    (after hostOps0_9 (after hostOps0_8 (after hostOps0_7 (after hostOps0_6 (after hostOps0_5 (after hostOps0_4 (after hostOps0_3
      (after hostOps0_2 (after hostOps0_1 (after hostOps0 V0))))))))))))))))

/-- After the host operations between the first and the second region. -/
abbrev pre1 (Va : Valuation τ sig (Elt Ideal)) : Valuation τ sig (Elt Ideal) :=
  after hostOps1_2 (after hostOps1_1 (after hostOps1 Va))

/-- After the host operations between the second and the third region. -/
abbrev pre2 (Va : Valuation τ sig (Elt Ideal)) : Valuation τ sig (Elt Ideal) :=
  after hostOps2_2 (after hostOps2_1 (after hostOps2 Va))

/-- After the host operations between the third and the fourth region. -/
abbrev pre3 (Va : Valuation τ sig (Elt Ideal)) : Valuation τ sig (Elt Ideal) :=
  after hostOps3_2 (after hostOps3_1 (after hostOps3 Va))

end Cert.KernelIdeal.KHost

end
-- ==== Proof.KHost0a.lean ====
/-
  Before the first region: the first two layers' weights and biases as signs, and the input array untouched.
-/
import proofs.«137791_j65661460021769_2_alg».proof.Proof.Gen.KernelIdeal.Frame
import proofs.«137791_j65661460021769_2_alg».proof.Proof.Spec
import proofs.«137791_j65661460021769_2_alg».proof.Proof.Consts
import Idealize.ShloMosaic.Lib.StableHlo.Run
import Idealize.ShloMosaic.Lib.ValueLayout
import proofs.«137791_j65661460021769_2_alg».proof.Proof.KHostDefs

set_option maxRecDepth 16384

noncomputable section

namespace Cert.KernelIdeal.KHost

open Cert.KernelIdeal Cert.KernelIdeal.Gen
open Idealize.ShloMosaic Idealize.ShloMosaic.TcCoe Idealize.ShloMosaic.StableHlo Idealize.ShloMosaic.ValueIdx

open Cert.BinNet
variable (V0 : Valuation τ sig (Elt Ideal))

set_option maxHeartbeats 2000000 in
/-- The weight matrix as the region finds it holds the signs of the argument's entries. -/
theorem W1b_at (j : Fin 2048) (k : Fin 3072) :
    (pre0 V0 (Proc.devRef .tc main_v3) : (⟨S2048x3072, .bf16⟩ : BufTy).Contents (Elt Ideal)) (ix2 j k)
      = sg ((V0 (Proc.devRef .tc main_arg1) : (⟨S2048x3072, .f32⟩ : BufTy).Contents (Elt Ideal)) (ix2 j k)) := by
  unfold pre0
  after_results_simp
  exact Cert.Consts.select_sg _

set_option maxHeartbeats 2000000 in
/-- The bias row as the region finds it holds the signs of the argument's entries. -/
theorem b1b_at (j : Fin 2048) :
    (pre0 V0 (Proc.devRef .tc main_v7) : (⟨S1x2048, .f32⟩ : BufTy).Contents (Elt Ideal)) (ix2 0 j)
      = sg ((V0 (Proc.devRef .tc main_arg2) : (⟨S2048, .f32⟩ : BufTy).Contents (Elt Ideal)) (ix1 j)) := by
  unfold pre0
  after_results_simp
  refine (shapeCast_a_1a_apply _ _ 0 j).trans ?_
  exact Cert.Consts.select_sg _

set_option maxHeartbeats 2000000 in
/-- The weight matrix as the region finds it holds the signs of the argument's entries. -/
theorem W2b_at (j : Fin 2048) (k : Fin 2048) :
    (pre0 V0 (Proc.devRef .tc main_v11) : (⟨S2048x2048, .bf16⟩ : BufTy).Contents (Elt Ideal)) (ix2 j k)
      = sg ((V0 (Proc.devRef .tc main_arg5) : (⟨S2048x2048, .f32⟩ : BufTy).Contents (Elt Ideal)) (ix2 j k)) := by
  unfold pre0
  after_results_simp
  exact Cert.Consts.select_sg _

set_option maxHeartbeats 2000000 in
/-- The bias row as the region finds it holds the signs of the argument's entries. -/
theorem b2b_at (j : Fin 2048) :
    (pre0 V0 (Proc.devRef .tc main_v15) : (⟨S1x2048, .f32⟩ : BufTy).Contents (Elt Ideal)) (ix2 0 j)
      = sg ((V0 (Proc.devRef .tc main_arg6) : (⟨S2048, .f32⟩ : BufTy).Contents (Elt Ideal)) (ix1 j)) := by
  unfold pre0
  after_results_simp
  refine (shapeCast_a_1a_apply _ _ 0 j).trans ?_
  exact Cert.Consts.select_sg _

set_option maxHeartbeats 2000000 in
/-- No host operation before the first region writes this argument. -/
theorem x_kept : pre0 V0 (Proc.devRef .tc main_arg0) = V0 (Proc.devRef .tc main_arg0) := by
  unfold pre0
  after_results_simp

end Cert.KernelIdeal.KHost

end
-- ==== Proof.KHost0b.lean ====
/-
  Before the first region: the last two layers' weights and biases as signs.
-/
import proofs.«137791_j65661460021769_2_alg».proof.Proof.Gen.KernelIdeal.Frame
import proofs.«137791_j65661460021769_2_alg».proof.Proof.Spec
import proofs.«137791_j65661460021769_2_alg».proof.Proof.Consts
import Idealize.ShloMosaic.Lib.StableHlo.Run
import Idealize.ShloMosaic.Lib.ValueLayout
import proofs.«137791_j65661460021769_2_alg».proof.Proof.KHostDefs

set_option maxRecDepth 16384

noncomputable section

namespace Cert.KernelIdeal.KHost

open Cert.KernelIdeal Cert.KernelIdeal.Gen
open Idealize.ShloMosaic Idealize.ShloMosaic.TcCoe Idealize.ShloMosaic.StableHlo Idealize.ShloMosaic.ValueIdx

open Cert.BinNet
variable (V0 : Valuation τ sig (Elt Ideal))

set_option maxHeartbeats 2000000 in
/-- The weight matrix as the region finds it holds the signs of the argument's entries. -/
theorem W3b_at (j : Fin 1024) (k : Fin 2048) :
    (pre0 V0 (Proc.devRef .tc main_v19) : (⟨S1024x2048, .bf16⟩ : BufTy).Contents (Elt Ideal)) (ix2 j k)
      = sg ((V0 (Proc.devRef .tc main_arg9) : (⟨S1024x2048, .f32⟩ : BufTy).Contents (Elt Ideal)) (ix2 j k)) := by
  unfold pre0
  after_results_simp
  exact Cert.Consts.select_sg _

set_option maxHeartbeats 2000000 in
/-- The bias row as the region finds it holds the signs of the argument's entries. -/
theorem b3b_at (j : Fin 1024) :
    (pre0 V0 (Proc.devRef .tc main_v23) : (⟨S1x1024, .f32⟩ : BufTy).Contents (Elt Ideal)) (ix2 0 j)
      = sg ((V0 (Proc.devRef .tc main_arg10) : (⟨S1024, .f32⟩ : BufTy).Contents (Elt Ideal)) (ix1 j)) := by
  unfold pre0
  after_results_simp
  refine (shapeCast_a_1a_apply _ _ 0 j).trans ?_
  exact Cert.Consts.select_sg _

set_option maxHeartbeats 2000000 in
/-- The weight matrix as the region finds it holds the signs of the argument's entries. -/
theorem W4b_at (j : Fin 512) (k : Fin 1024) :
    (pre0 V0 (Proc.devRef .tc main_v27) : (⟨S512x1024, .bf16⟩ : BufTy).Contents (Elt Ideal)) (ix2 j k)
      = sg ((V0 (Proc.devRef .tc main_arg13) : (⟨S512x1024, .f32⟩ : BufTy).Contents (Elt Ideal)) (ix2 j k)) := by
  unfold pre0
  after_results_simp
  exact Cert.Consts.select_sg _

set_option maxHeartbeats 2000000 in
/-- The bias row as the region finds it holds the signs of the argument's entries. -/
theorem b4b_at (j : Fin 512) :
    (pre0 V0 (Proc.devRef .tc main_v31) : (⟨S1x512, .f32⟩ : BufTy).Contents (Elt Ideal)) (ix2 0 j)
      = sg ((V0 (Proc.devRef .tc main_arg14) : (⟨S512, .f32⟩ : BufTy).Contents (Elt Ideal)) (ix1 j)) := by
  unfold pre0
  after_results_simp
  refine (shapeCast_a_1a_apply _ _ 0 j).trans ?_
  exact Cert.Consts.select_sg _

end Cert.KernelIdeal.KHost

end
-- ==== Proof.KHost0c.lean ====
/-
  Before the first region: the scale and shift vectors of the three normalisations are untouched.
-/
import proofs.«137791_j65661460021769_2_alg».proof.Proof.Gen.KernelIdeal.Frame
import proofs.«137791_j65661460021769_2_alg».proof.Proof.Spec
import proofs.«137791_j65661460021769_2_alg».proof.Proof.Consts
import Idealize.ShloMosaic.Lib.StableHlo.Run
import Idealize.ShloMosaic.Lib.ValueLayout
import proofs.«137791_j65661460021769_2_alg».proof.Proof.KHostDefs

set_option maxRecDepth 16384

noncomputable section

namespace Cert.KernelIdeal.KHost

open Cert.KernelIdeal Cert.KernelIdeal.Gen
open Idealize.ShloMosaic Idealize.ShloMosaic.TcCoe Idealize.ShloMosaic.StableHlo Idealize.ShloMosaic.ValueIdx

open Cert.BinNet
variable (V0 : Valuation τ sig (Elt Ideal))

set_option maxHeartbeats 2000000 in
/-- No host operation before the first region writes this argument. -/
theorem g1_kept : pre0 V0 (Proc.devRef .tc main_arg3) = V0 (Proc.devRef .tc main_arg3) := by
  unfold pre0
  after_results_simp

set_option maxHeartbeats 2000000 in
/-- No host operation before the first region writes this argument. -/
theorem be1_kept : pre0 V0 (Proc.devRef .tc main_arg4) = V0 (Proc.devRef .tc main_arg4) := by
  unfold pre0
  after_results_simp

set_option maxHeartbeats 2000000 in
/-- No host operation before the first region writes this argument. -/
theorem g2_kept : pre0 V0 (Proc.devRef .tc main_arg7) = V0 (Proc.devRef .tc main_arg7) := by
  unfold pre0
  after_results_simp

set_option maxHeartbeats 2000000 in
/-- No host operation before the first region writes this argument. -/
theorem be2_kept : pre0 V0 (Proc.devRef .tc main_arg8) = V0 (Proc.devRef .tc main_arg8) := by
  unfold pre0
  after_results_simp

set_option maxHeartbeats 2000000 in
/-- No host operation before the first region writes this argument. -/
theorem g3_kept : pre0 V0 (Proc.devRef .tc main_arg11) = V0 (Proc.devRef .tc main_arg11) := by
  unfold pre0
  after_results_simp

set_option maxHeartbeats 2000000 in
/-- No host operation before the first region writes this argument. -/
theorem be3_kept : pre0 V0 (Proc.devRef .tc main_arg12) = V0 (Proc.devRef .tc main_arg12) := by
  unfold pre0
  after_results_simp

end Cert.KernelIdeal.KHost

end
-- ==== Proof.LibHostRows.lean ====
/-
  The host's layout operations around a column statistic, read at coordinates.

  A batch statistic of a `[M, N]` array is a sum over the rows of each column, carried as an `[N]` vector, turned into a
  `[1, N]` row and broadcast back over the `M` rows.  Read at coordinates: a scalar broadcast to any shape is the scalar
  everywhere; an `[N]` vector placed along the columns of a `[1, N]` row is the vector entry of that column; a `[1, N]`
  row broadcast over `[M, N]` is the row entry of that column; and the host's sum over the row axis, at column `j`, is
  the initial value plus `Σ_p x (p, j)`.  General: nothing here mentions a program; the extents stay variables.
-/
import Idealize.ShloMosaic.PureOps.Ideal.Laws
import Idealize.ShloMosaic.Lib.ValueIdx
import Idealize.ShloMosaic.Lib.Pipeline.Value

noncomputable section

namespace Cert.LibHostRows

open Idealize.ShloMosaic Idealize.ShloMosaic.ValueIdx

/-- A scalar broadcast to any shape reads the scalar at every index. -/
theorem bcast_scalar_at {α : Type} {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  congrArg x (funext fun a => a.elim0)

/-- A vector laid along the columns of a one-row array: entry `(u, j)` is the vector's entry `j`. -/
theorem bcast_vec_row {α : Type} {N : ℕ} (dims : Fin (⟨1, ![N]⟩ : Shape).rank → Fin (⟨2, ![1, N]⟩ : Shape).rank)
    (h : (⟨1, ![N]⟩ : Shape).BroadcastsInDim ⟨2, ![1, N]⟩ dims) (hd : dims 0 = 1)
    (v : (⟨1, ![N]⟩ : Shape).Idx → α) (u : Fin 1) (j : Fin N) :
    broadcastInDim ⟨2, ![1, N]⟩ dims h v (ix2 u j) = v (ix1 j) := by
  refine broadcastInDim_apply dims h v (ix2 u j) (ix1 j) fun a => ?_
  match a with
  | ⟨0, _⟩ =>
    show j.val = if N = 1 then 0 else (ix2 u j (dims 0)).val
    rw [hd]
    split
    · next h1 => have := j.isLt; omega
    · rfl

/-- A one-row array broadcast over the rows: entry `(p, j)` is the row's entry `j`. -/
theorem bcast_row_mat {α : Type} {M N : ℕ} (dims : Fin (⟨2, ![1, N]⟩ : Shape).rank → Fin (⟨2, ![M, N]⟩ : Shape).rank)
    (h : (⟨2, ![1, N]⟩ : Shape).BroadcastsInDim ⟨2, ![M, N]⟩ dims) (hd0 : dims 0 = 0) (hd1 : dims 1 = 1)
    (r : (⟨2, ![1, N]⟩ : Shape).Idx → α) (p : Fin M) (j : Fin N) :
    broadcastInDim ⟨2, ![M, N]⟩ dims h r (ix2 p j) = r (ix2 0 j) := by
  refine broadcastInDim_apply dims h r (ix2 p j) (ix2 0 j) fun a => ?_
  match a with
  | ⟨0, _⟩ =>
    show (0 : ℕ) = if (1 : ℕ) = 1 then 0 else _
    rw [if_pos rfl]
  | ⟨1, _⟩ =>
    show j.val = if N = 1 then 0 else (ix2 p j (dims 1)).val
    rw [hd1]
    split
    · next h1 => have := j.isLt; omega
    · rfl

/-- The host's sum over the row axis of an `[M, N]` array, at column `j`: the initial value plus `Σ_p x (p, j)`. -/
theorem reduce_rows_at {M N : ℕ} {φ : FTy} (x : FVec Ideal ⟨2, ![M, N]⟩ φ) (init : (⟨0, ![]⟩ : Shape).Idx → Ideal φ)
    (h' : (⟨2, ![M, N]⟩ : Shape).ReducesTo [0] ⟨1, ![N]⟩) (h : (⟨2, ![M, N]⟩ : Shape).Reduces [0] ⟨1, ![N]⟩)
    (hu : 0 < (⟨0, ![]⟩ : Shape).numel) (j : Fin N) :
    Host.reduceAdd x init h' hu (ix1 j) = init ix0 + ∑ p : Fin M, x (ix2 p j) := by
  show Ideal.hostReduceAdd h' x (init (Shape.Idx.first hu)) (ix1 j) = _
  rw [Ideal.hostReduceAdd_single h' h, eq_ix0 (Shape.Idx.first hu)]
  refine congrArg (init ix0 + ·) (Finset.sum_congr rfl fun p _ => congrArg x (funext fun c => Fin.ext ?_))
  rw [Shape.Reduces.lift_val]
  match c with
  | ⟨0, _⟩ => rfl
  | ⟨1, _⟩ => rfl

end Cert.LibHostRows

end
-- ==== Proof.LibBatchStats.lean ====
/-
  The batch statistics of a `[M, N]` array as the host computes them with kept dimensions, read at a column.

  The mean row is the column sums, laid out as a `[1, N]` row, divided by the row count; the variance row subtracts the
  mean row (broadcast back over the rows) from the array, squares, sums the columns again, divides by the row count less
  the degrees of freedom and, where that divisor is not positive, answers the filler instead; the reciprocal standard
  deviation adds the epsilon and takes the reciprocal square root.  At column `j` these are `mean`, `var` and `istd` of
  the specification, for any array, any extents and whatever witnesses of the shape facts the program carries.
-/
import proofs.«137791_j65661460021769_2_alg».proof.Proof.Spec
import proofs.«137791_j65661460021769_2_alg».proof.Proof.LibHostRows

noncomputable section

namespace Cert.LibBatchStats

open Idealize.ShloMosaic Idealize.ShloMosaic.ValueIdx Cert.BinNet Cert.LibHostRows

variable {M N : ℕ}

/-- The shapes: the array, a one-row array, a vector, a scalar. -/
abbrev Smn (M N : ℕ) : Shape := ⟨2, ![M, N]⟩
abbrev S1n (N : ℕ) : Shape := ⟨2, ![1, N]⟩
abbrev Sn (N : ℕ) : Shape := ⟨1, ![N]⟩
abbrev S0 : Shape := ⟨0, ![]⟩

/-- The column sums as a row, over the row count: the mean row as an array. -/
def meanRow (h : FVec Ideal (Smn M N) .f32) (d1 : Fin (Sn N).rank → Fin (S1n N).rank) (hb1 : (Sn N).BroadcastsInDim (S1n N) d1)
    (d0 : Fin S0.rank → Fin (S1n N).rank) (hb0 : S0.BroadcastsInDim (S1n N) d0)
    (hr : (Smn M N).ReducesTo [0] (Sn N)) (hu : 0 < S0.numel) : FVec Ideal (S1n N) .f32 :=
  Host.divf (broadcastInDim (S1n N) d1 hb1 (Host.reduceAdd h (constant (F := Ideal) S0 .f32 0x00000000#32) hr hu))
    (broadcastInDim (S1n N) d0 hb0 (constant (F := Ideal) S0 .f32 0x46800000#32))

theorem meanRow_at (h : FVec Ideal (Smn M N) .f32) (d1 : Fin (Sn N).rank → Fin (S1n N).rank) (hb1 : (Sn N).BroadcastsInDim (S1n N) d1)
    (hd1 : d1 0 = 1) (d0 : Fin S0.rank → Fin (S1n N).rank) (hb0 : S0.BroadcastsInDim (S1n N) d0)
    (hr : (Smn M N).ReducesTo [0] (Sn N)) (hR : (Smn M N).Reduces [0] (Sn N)) (hu : 0 < S0.numel) (u : Fin 1) (j : Fin N) :
    meanRow h d1 hb1 d0 hb0 hr hu (ix2 u j) = mean (m2 h) j := by
  unfold meanRow mean
  show Ideal.div (broadcastInDim (S1n N) d1 hb1 _ (ix2 u j)) (broadcastInDim (S1n N) d0 hb0 _ (ix2 u j)) = _
  rw [bcast_vec_row d1 hb1 hd1, bcast_scalar_at, reduce_rows_at _ _ hr hR hu]
  show Ideal.div (Ideal.ofBits .f32 0x00000000#32 + _) (Ideal.ofBits .f32 0x46800000#32) = _
  rw [Ideal.ofBits_zero_f32, zero_add]
  rfl

/-- The variance row as an array, from the array and its (own) mean row. -/
def varRow (h : FVec Ideal (Smn M N) .f32) (mu : FVec Ideal (S1n N) .f32)
    (d1 : Fin (Sn N).rank → Fin (S1n N).rank) (hb1 : (Sn N).BroadcastsInDim (S1n N) d1)
    (d0 : Fin S0.rank → Fin (S1n N).rank) (hb0 : S0.BroadcastsInDim (S1n N) d0)
    (dm : Fin (S1n N).rank → Fin (Smn M N).rank) (hbm : (S1n N).BroadcastsInDim (Smn M N) dm)
    (hr : (Smn M N).ReducesTo [0] (Sn N)) (hu : 0 < S0.numel) : FVec Ideal (S1n N) .f32 :=
  select
    (broadcastInDim (S1n N) d0 hb0
      (cmpf .ogt (subf (constant (F := Ideal) S0 .f32 0x46800000#32) (sitofp .f32 (constantI S0 32 0#32)))
        (constant (F := Ideal) S0 .f32 0x00000000#32)))
    (Host.divf
      (broadcastInDim (S1n N) d1 hb1
        (Host.reduceAdd (mulf (subf h (broadcastInDim (Smn M N) dm hbm mu)) (subf h (broadcastInDim (Smn M N) dm hbm mu)))
          (constant (F := Ideal) S0 .f32 0x00000000#32) hr hu))
      (broadcastInDim (S1n N) d0 hb0
        (subf (constant (F := Ideal) S0 .f32 0x46800000#32) (sitofp .f32 (constantI S0 32 0#32)))))
    (broadcastInDim (S1n N) d0 hb0 (id (constant (F := Ideal) S0 .f32 0x7FC00000#32)))

theorem varRow_at (h : FVec Ideal (Smn M N) .f32) (mu : FVec Ideal (S1n N) .f32)
    (d1 : Fin (Sn N).rank → Fin (S1n N).rank) (hb1 : (Sn N).BroadcastsInDim (S1n N) d1) (hd1 : d1 0 = 1)
    (d0 : Fin S0.rank → Fin (S1n N).rank) (hb0 : S0.BroadcastsInDim (S1n N) d0)
    (dm : Fin (S1n N).rank → Fin (Smn M N).rank) (hbm : (S1n N).BroadcastsInDim (Smn M N) dm) (hdm0 : dm 0 = 0) (hdm1 : dm 1 = 1)
    (hr : (Smn M N).ReducesTo [0] (Sn N)) (hR : (Smn M N).Reduces [0] (Sn N)) (hu : 0 < S0.numel)
    (hmu : ∀ j : Fin N, mu (ix2 0 j) = mean (m2 h) j) (u : Fin 1) (j : Fin N) :
    varRow h mu d1 hb1 d0 hb0 dm hbm hr hu (ix2 u j) = var (m2 h) j := by
  unfold varRow var
  rw [select_apply, bcast_scalar_at, bcast_scalar_at]
  show Scalar.select _ (Ideal.div (broadcastInDim (S1n N) d1 hb1 _ (ix2 u j)) (broadcastInDim (S1n N) d0 hb0 _ (ix2 u j))) _ = _
  rw [bcast_vec_row d1 hb1 hd1, bcast_scalar_at, reduce_rows_at _ _ hr hR hu]
  have hs : ∀ p : Fin M,
      mulf (subf h (broadcastInDim (Smn M N) dm hbm mu)) (subf h (broadcastInDim (Smn M N) dm hbm mu)) (ix2 p j)
        = (m2 h p j - mean (m2 h) j) * (m2 h p j - mean (m2 h) j) := fun p => by
    show (h (ix2 p j) - broadcastInDim (Smn M N) dm hbm mu (ix2 p j)) * (h (ix2 p j) - broadcastInDim (Smn M N) dm hbm mu (ix2 p j)) = _
    rw [bcast_row_mat dm hbm hdm0 hdm1, hmu]
  rw [Finset.sum_congr rfl fun p _ => hs p]
  show Scalar.select (Ideal.cmp .ogt dof (Ideal.ofBits .f32 0x00000000#32))
    (Ideal.div (Ideal.ofBits .f32 0x00000000#32 + _) dof) filler = _
  rw [Ideal.ofBits_zero_f32, zero_add]

/-- The reciprocal standard deviation row as an array, from the variance row. -/
def istdRow (v : FVec Ideal (S1n N) .f32) (d0 : Fin S0.rank → Fin (S1n N).rank) (hb0 : S0.BroadcastsInDim (S1n N) d0) :
    FVec Ideal (S1n N) .f32 :=
  Host.rsqrt (addf v (broadcastInDim (S1n N) d0 hb0 (constant (F := Ideal) S0 .f32 0x3727C5AC#32)))

theorem istdRow_at (h : FVec Ideal (Smn M N) .f32) (v : FVec Ideal (S1n N) .f32) (d0 : Fin S0.rank → Fin (S1n N).rank)
    (hb0 : S0.BroadcastsInDim (S1n N) d0) (u : Fin 1) (j : Fin N) (hv : v (ix2 u j) = var (m2 h) j) :
    istdRow v d0 hb0 (ix2 u j) = istd (m2 h) j := by
  unfold istdRow istd
  show Ideal.rsqrt (v (ix2 u j) + broadcastInDim (S1n N) d0 hb0 _ (ix2 u j)) = _
  rw [bcast_scalar_at, hv]
  rfl

end Cert.LibBatchStats

end
-- ==== Proof.KHost1.lean ====
/-
  Between the first and the second region: the first layer's batch statistics as rows, the scale and shift vectors as rows;
  the first region's output and the second layer's signs are left as they were.
-/
import proofs.«137791_j65661460021769_2_alg».proof.Proof.Gen.KernelIdeal.Frame
import proofs.«137791_j65661460021769_2_alg».proof.Proof.Spec
import proofs.«137791_j65661460021769_2_alg».proof.Proof.Consts
import Idealize.ShloMosaic.Lib.StableHlo.Run
import Idealize.ShloMosaic.Lib.ValueLayout
import proofs.«137791_j65661460021769_2_alg».proof.Proof.KHostDefs
import proofs.«137791_j65661460021769_2_alg».proof.Proof.LibBatchStats

set_option maxRecDepth 16384

noncomputable section

namespace Cert.KernelIdeal.KHost

open Cert.KernelIdeal Cert.KernelIdeal.Gen
open Idealize.ShloMosaic Idealize.ShloMosaic.TcCoe Idealize.ShloMosaic.StableHlo Idealize.ShloMosaic.ValueIdx

open Cert.BinNet Cert.LibBatchStats
variable (Va : Valuation τ sig (Elt Ideal))

set_option maxHeartbeats 2000000 in
/-- The previous region's output array is not written by this group. -/
theorem h_kept1 : pre1 Va (Proc.devRef .tc main_v32) = Va (Proc.devRef .tc main_v32) := by
  unfold pre1
  after_results_simp

set_option maxHeartbeats 2000000 in
/-- The next layer's sign matrix is not written by this group. -/
theorem W_kept1 : pre1 Va (Proc.devRef .tc main_v11) = Va (Proc.devRef .tc main_v11) := by
  unfold pre1
  after_results_simp

set_option maxHeartbeats 2000000 in
/-- The next layer's sign bias row is not written by this group. -/
theorem b_kept1 : pre1 Va (Proc.devRef .tc main_v15) = Va (Proc.devRef .tc main_v15) := by
  unfold pre1
  after_results_simp

set_option maxHeartbeats 4000000 in
/-- The mean row: at column `j` the mean of the previous output's column `j`. -/
theorem mean1_at (j : Fin 2048) :
    (pre1 Va (Proc.devRef .tc main_v36) : (⟨S1x2048, .f32⟩ : BufTy).Contents (Elt Ideal)) (ix2 0 j)
      = mean (m2 (Va (Proc.devRef .tc main_v32) : (⟨S16384x2048, .f32⟩ : BufTy).Contents (Elt Ideal))) j := by
  unfold pre1
  after_results_simp
  exact meanRow_at (M := 16384) (N := 2048) _ ![1] bcast_S2048_S1x2048_1 rfl ![] bcast_S_S1x2048 reducesTo_S16384x2048_S2048_d0 (by decide) h_S_ 0 j

set_option maxHeartbeats 8000000 in
/-- The reciprocal standard deviation row: at column `j` that of the previous output's column `j`. -/
theorem istd1_at (j : Fin 2048) :
    (pre1 Va (Proc.devRef .tc main_v40) : (⟨S1x2048, .f32⟩ : BufTy).Contents (Elt Ideal)) (ix2 0 j)
      = istd (m2 (Va (Proc.devRef .tc main_v32) : (⟨S16384x2048, .f32⟩ : BufTy).Contents (Elt Ideal))) j := by
  unfold pre1
  after_results_simp
  refine istdRow_at (M := 16384) (N := 2048) (Va (Proc.devRef .tc main_v32)) _ ![] bcast_S_S1x2048 0 j ?_
  exact varRow_at (M := 16384) (N := 2048) (Va (Proc.devRef .tc main_v32)) _ ![1] bcast_S2048_S1x2048_1 rfl ![] bcast_S_S1x2048
    ![0, 1] bcast_S1x2048_S16384x2048_0_1 rfl rfl reducesTo_S16384x2048_S2048_d0 (by decide) h_S_
    (fun j' => meanRow_at (M := 16384) (N := 2048) _ ![1] bcast_S2048_S1x2048_1 rfl ![] bcast_S_S1x2048 reducesTo_S16384x2048_S2048_d0 (by decide) h_S_ 0 j') 0 j

set_option maxHeartbeats 2000000 in
/-- The scale vector laid out as a row. -/
theorem g1_at (j : Fin 2048) :
    (pre1 Va (Proc.devRef .tc main_v41) : (⟨S1x2048, .f32⟩ : BufTy).Contents (Elt Ideal)) (ix2 0 j)
      = (Va (Proc.devRef .tc main_arg3) : (⟨S2048, .f32⟩ : BufTy).Contents (Elt Ideal)) (ix1 j) := by
  unfold pre1
  after_results_simp
  exact shapeCast_a_1a_apply _ _ 0 j

set_option maxHeartbeats 2000000 in
/-- The shift vector laid out as a row. -/
theorem be1_at (j : Fin 2048) :
    (pre1 Va (Proc.devRef .tc main_v42) : (⟨S1x2048, .f32⟩ : BufTy).Contents (Elt Ideal)) (ix2 0 j)
      = (Va (Proc.devRef .tc main_arg4) : (⟨S2048, .f32⟩ : BufTy).Contents (Elt Ideal)) (ix1 j) := by
  unfold pre1
  after_results_simp
  exact shapeCast_a_1a_apply _ _ 0 j

end Cert.KernelIdeal.KHost

end
-- ==== Proof.KHost1k.lean ====
/-
  Buffers the host group before region 2 leaves alone: later layers' signs and later normalisations' scale and shift vectors.
-/
import proofs.«137791_j65661460021769_2_alg».proof.Proof.Gen.KernelIdeal.Frame
import proofs.«137791_j65661460021769_2_alg».proof.Proof.Spec
import proofs.«137791_j65661460021769_2_alg».proof.Proof.Consts
import Idealize.ShloMosaic.Lib.StableHlo.Run
import Idealize.ShloMosaic.Lib.ValueLayout
import proofs.«137791_j65661460021769_2_alg».proof.Proof.KHostDefs

set_option maxRecDepth 16384

noncomputable section

namespace Cert.KernelIdeal.KHost

open Cert.KernelIdeal Cert.KernelIdeal.Gen
open Idealize.ShloMosaic Idealize.ShloMosaic.TcCoe Idealize.ShloMosaic.StableHlo Idealize.ShloMosaic.ValueIdx

variable (Va : Valuation τ sig (Elt Ideal))

set_option maxHeartbeats 2000000 in
/-- Not written by this group. -/
theorem pre1_kept_main_arg7 : pre1 Va (Proc.devRef .tc main_arg7) = Va (Proc.devRef .tc main_arg7) := by
  unfold pre1
  after_results_simp

set_option maxHeartbeats 2000000 in
/-- Not written by this group. -/
theorem pre1_kept_main_arg8 : pre1 Va (Proc.devRef .tc main_arg8) = Va (Proc.devRef .tc main_arg8) := by
  unfold pre1
  after_results_simp

set_option maxHeartbeats 2000000 in
/-- Not written by this group. -/
theorem pre1_kept_main_arg11 : pre1 Va (Proc.devRef .tc main_arg11) = Va (Proc.devRef .tc main_arg11) := by
  unfold pre1
  after_results_simp

set_option maxHeartbeats 2000000 in
/-- Not written by this group. -/
theorem pre1_kept_main_arg12 : pre1 Va (Proc.devRef .tc main_arg12) = Va (Proc.devRef .tc main_arg12) := by
  unfold pre1
  after_results_simp

set_option maxHeartbeats 2000000 in
/-- Not written by this group. -/
theorem pre1_kept_main_v19 : pre1 Va (Proc.devRef .tc main_v19) = Va (Proc.devRef .tc main_v19) := by
  unfold pre1
  after_results_simp

set_option maxHeartbeats 2000000 in
/-- Not written by this group. -/
theorem pre1_kept_main_v23 : pre1 Va (Proc.devRef .tc main_v23) = Va (Proc.devRef .tc main_v23) := by
  unfold pre1
  after_results_simp

set_option maxHeartbeats 2000000 in
/-- Not written by this group. -/
theorem pre1_kept_main_v27 : pre1 Va (Proc.devRef .tc main_v27) = Va (Proc.devRef .tc main_v27) := by
  unfold pre1
  after_results_simp

set_option maxHeartbeats 2000000 in
/-- Not written by this group. -/
theorem pre1_kept_main_v31 : pre1 Va (Proc.devRef .tc main_v31) = Va (Proc.devRef .tc main_v31) := by
  unfold pre1
  after_results_simp

end Cert.KernelIdeal.KHost

end
-- ==== Proof.KHost2.lean ====
/-
  Between the second and the third region: the second layer's batch statistics as rows, the scale and shift vectors as rows;
  the second region's output and the third layer's signs are left as they were.
-/
import proofs.«137791_j65661460021769_2_alg».proof.Proof.Gen.KernelIdeal.Frame
import proofs.«137791_j65661460021769_2_alg».proof.Proof.Spec
import proofs.«137791_j65661460021769_2_alg».proof.Proof.Consts
import Idealize.ShloMosaic.Lib.StableHlo.Run
import Idealize.ShloMosaic.Lib.ValueLayout
import proofs.«137791_j65661460021769_2_alg».proof.Proof.KHostDefs
import proofs.«137791_j65661460021769_2_alg».proof.Proof.LibBatchStats

set_option maxRecDepth 16384

noncomputable section

namespace Cert.KernelIdeal.KHost

open Cert.KernelIdeal Cert.KernelIdeal.Gen
open Idealize.ShloMosaic Idealize.ShloMosaic.TcCoe Idealize.ShloMosaic.StableHlo Idealize.ShloMosaic.ValueIdx

open Cert.BinNet Cert.LibBatchStats
variable (Va : Valuation τ sig (Elt Ideal))

set_option maxHeartbeats 2000000 in
/-- The previous region's output array is not written by this group. -/
theorem h_kept2 : pre2 Va (Proc.devRef .tc main_v43) = Va (Proc.devRef .tc main_v43) := by
  unfold pre2
  after_results_simp

set_option maxHeartbeats 2000000 in
/-- The next layer's sign matrix is not written by this group. -/
theorem W_kept2 : pre2 Va (Proc.devRef .tc main_v19) = Va (Proc.devRef .tc main_v19) := by
  unfold pre2
  after_results_simp

set_option maxHeartbeats 2000000 in
/-- The next layer's sign bias row is not written by this group. -/
theorem b_kept2 : pre2 Va (Proc.devRef .tc main_v23) = Va (Proc.devRef .tc main_v23) := by
  unfold pre2
  after_results_simp

set_option maxHeartbeats 4000000 in
/-- The mean row: at column `j` the mean of the previous output's column `j`. -/
theorem mean2_at (j : Fin 2048) :
    (pre2 Va (Proc.devRef .tc main_v47) : (⟨S1x2048, .f32⟩ : BufTy).Contents (Elt Ideal)) (ix2 0 j)
      = mean (m2 (Va (Proc.devRef .tc main_v43) : (⟨S16384x2048, .f32⟩ : BufTy).Contents (Elt Ideal))) j := by
  unfold pre2
  after_results_simp
  exact meanRow_at (M := 16384) (N := 2048) _ ![1] bcast_S2048_S1x2048_1 rfl ![] bcast_S_S1x2048 reducesTo_S16384x2048_S2048_d0 (by decide) h_S_ 0 j

set_option maxHeartbeats 8000000 in
/-- The reciprocal standard deviation row: at column `j` that of the previous output's column `j`. -/
theorem istd2_at (j : Fin 2048) :
    (pre2 Va (Proc.devRef .tc main_v51) : (⟨S1x2048, .f32⟩ : BufTy).Contents (Elt Ideal)) (ix2 0 j)
      = istd (m2 (Va (Proc.devRef .tc main_v43) : (⟨S16384x2048, .f32⟩ : BufTy).Contents (Elt Ideal))) j := by
  unfold pre2
  after_results_simp
  refine istdRow_at (M := 16384) (N := 2048) (Va (Proc.devRef .tc main_v43)) _ ![] bcast_S_S1x2048 0 j ?_
  exact varRow_at (M := 16384) (N := 2048) (Va (Proc.devRef .tc main_v43)) _ ![1] bcast_S2048_S1x2048_1 rfl ![] bcast_S_S1x2048
    ![0, 1] bcast_S1x2048_S16384x2048_0_1 rfl rfl reducesTo_S16384x2048_S2048_d0 (by decide) h_S_
    (fun j' => meanRow_at (M := 16384) (N := 2048) _ ![1] bcast_S2048_S1x2048_1 rfl ![] bcast_S_S1x2048 reducesTo_S16384x2048_S2048_d0 (by decide) h_S_ 0 j') 0 j

set_option maxHeartbeats 2000000 in
/-- The scale vector laid out as a row. -/
theorem g2_at (j : Fin 2048) :
    (pre2 Va (Proc.devRef .tc main_v52) : (⟨S1x2048, .f32⟩ : BufTy).Contents (Elt Ideal)) (ix2 0 j)
      = (Va (Proc.devRef .tc main_arg7) : (⟨S2048, .f32⟩ : BufTy).Contents (Elt Ideal)) (ix1 j) := by
  unfold pre2
  after_results_simp
  exact shapeCast_a_1a_apply _ _ 0 j

set_option maxHeartbeats 2000000 in
/-- The shift vector laid out as a row. -/
theorem be2_at (j : Fin 2048) :
    (pre2 Va (Proc.devRef .tc main_v53) : (⟨S1x2048, .f32⟩ : BufTy).Contents (Elt Ideal)) (ix2 0 j)
      = (Va (Proc.devRef .tc main_arg8) : (⟨S2048, .f32⟩ : BufTy).Contents (Elt Ideal)) (ix1 j) := by
  unfold pre2
  after_results_simp
  exact shapeCast_a_1a_apply _ _ 0 j

end Cert.KernelIdeal.KHost

end
-- ==== Proof.KHost2k.lean ====
/-
  Buffers the host group before region 3 leaves alone: later layers' signs and later normalisations' scale and shift vectors.
-/
import proofs.«137791_j65661460021769_2_alg».proof.Proof.Gen.KernelIdeal.Frame
import proofs.«137791_j65661460021769_2_alg».proof.Proof.Spec
import proofs.«137791_j65661460021769_2_alg».proof.Proof.Consts
import Idealize.ShloMosaic.Lib.StableHlo.Run
import Idealize.ShloMosaic.Lib.ValueLayout
import proofs.«137791_j65661460021769_2_alg».proof.Proof.KHostDefs

set_option maxRecDepth 16384

noncomputable section

namespace Cert.KernelIdeal.KHost

open Cert.KernelIdeal Cert.KernelIdeal.Gen
open Idealize.ShloMosaic Idealize.ShloMosaic.TcCoe Idealize.ShloMosaic.StableHlo Idealize.ShloMosaic.ValueIdx

variable (Va : Valuation τ sig (Elt Ideal))

set_option maxHeartbeats 2000000 in
/-- Not written by this group. -/
theorem pre2_kept_main_arg11 : pre2 Va (Proc.devRef .tc main_arg11) = Va (Proc.devRef .tc main_arg11) := by
  unfold pre2
  after_results_simp

set_option maxHeartbeats 2000000 in
/-- Not written by this group. -/
theorem pre2_kept_main_arg12 : pre2 Va (Proc.devRef .tc main_arg12) = Va (Proc.devRef .tc main_arg12) := by
  unfold pre2
  after_results_simp

set_option maxHeartbeats 2000000 in
/-- Not written by this group. -/
theorem pre2_kept_main_v27 : pre2 Va (Proc.devRef .tc main_v27) = Va (Proc.devRef .tc main_v27) := by
  unfold pre2
  after_results_simp

set_option maxHeartbeats 2000000 in
/-- Not written by this group. -/
theorem pre2_kept_main_v31 : pre2 Va (Proc.devRef .tc main_v31) = Va (Proc.devRef .tc main_v31) := by
  unfold pre2
  after_results_simp

end Cert.KernelIdeal.KHost

end
-- ==== Proof.KHost3.lean ====
/-
  Between the third and the fourth region: the third layer's batch statistics as rows, the scale and shift vectors as rows;
  the third region's output and the fourth layer's signs are left as they were.
-/
import proofs.«137791_j65661460021769_2_alg».proof.Proof.Gen.KernelIdeal.Frame
import proofs.«137791_j65661460021769_2_alg».proof.Proof.Spec
import proofs.«137791_j65661460021769_2_alg».proof.Proof.Consts
import Idealize.ShloMosaic.Lib.StableHlo.Run
import Idealize.ShloMosaic.Lib.ValueLayout
import proofs.«137791_j65661460021769_2_alg».proof.Proof.KHostDefs
import proofs.«137791_j65661460021769_2_alg».proof.Proof.LibBatchStats

set_option maxRecDepth 16384

noncomputable section

namespace Cert.KernelIdeal.KHost

open Cert.KernelIdeal Cert.KernelIdeal.Gen
open Idealize.ShloMosaic Idealize.ShloMosaic.TcCoe Idealize.ShloMosaic.StableHlo Idealize.ShloMosaic.ValueIdx

open Cert.BinNet Cert.LibBatchStats
variable (Va : Valuation τ sig (Elt Ideal))

set_option maxHeartbeats 2000000 in
/-- The previous region's output array is not written by this group. -/
theorem h_kept3 : pre3 Va (Proc.devRef .tc main_v54) = Va (Proc.devRef .tc main_v54) := by
  unfold pre3
  after_results_simp

set_option maxHeartbeats 2000000 in
/-- The next layer's sign matrix is not written by this group. -/
theorem W_kept3 : pre3 Va (Proc.devRef .tc main_v27) = Va (Proc.devRef .tc main_v27) := by
  unfold pre3
  after_results_simp

set_option maxHeartbeats 2000000 in
/-- The next layer's sign bias row is not written by this group. -/
theorem b_kept3 : pre3 Va (Proc.devRef .tc main_v31) = Va (Proc.devRef .tc main_v31) := by
  unfold pre3
  after_results_simp

set_option maxHeartbeats 4000000 in
/-- The mean row: at column `j` the mean of the previous output's column `j`. -/
theorem mean3_at (j : Fin 1024) :
    (pre3 Va (Proc.devRef .tc main_v58) : (⟨S1x1024, .f32⟩ : BufTy).Contents (Elt Ideal)) (ix2 0 j)
      = mean (m2 (Va (Proc.devRef .tc main_v54) : (⟨S16384x1024, .f32⟩ : BufTy).Contents (Elt Ideal))) j := by
  unfold pre3
  after_results_simp
  exact meanRow_at (M := 16384) (N := 1024) _ ![1] bcast_S1024_S1x1024_1 rfl ![] bcast_S_S1x1024 reducesTo_S16384x1024_S1024_d0 (by decide) h_S_ 0 j

set_option maxHeartbeats 8000000 in
/-- The reciprocal standard deviation row: at column `j` that of the previous output's column `j`. -/
theorem istd3_at (j : Fin 1024) :
    (pre3 Va (Proc.devRef .tc main_v62) : (⟨S1x1024, .f32⟩ : BufTy).Contents (Elt Ideal)) (ix2 0 j)
      = istd (m2 (Va (Proc.devRef .tc main_v54) : (⟨S16384x1024, .f32⟩ : BufTy).Contents (Elt Ideal))) j := by
  unfold pre3
  after_results_simp
  refine istdRow_at (M := 16384) (N := 1024) (Va (Proc.devRef .tc main_v54)) _ ![] bcast_S_S1x1024 0 j ?_
  exact varRow_at (M := 16384) (N := 1024) (Va (Proc.devRef .tc main_v54)) _ ![1] bcast_S1024_S1x1024_1 rfl ![] bcast_S_S1x1024
    ![0, 1] bcast_S1x1024_S16384x1024_0_1 rfl rfl reducesTo_S16384x1024_S1024_d0 (by decide) h_S_
    (fun j' => meanRow_at (M := 16384) (N := 1024) _ ![1] bcast_S1024_S1x1024_1 rfl ![] bcast_S_S1x1024 reducesTo_S16384x1024_S1024_d0 (by decide) h_S_ 0 j') 0 j

set_option maxHeartbeats 2000000 in
/-- The scale vector laid out as a row. -/
theorem g3_at (j : Fin 1024) :
    (pre3 Va (Proc.devRef .tc main_v63) : (⟨S1x1024, .f32⟩ : BufTy).Contents (Elt Ideal)) (ix2 0 j)
      = (Va (Proc.devRef .tc main_arg11) : (⟨S1024, .f32⟩ : BufTy).Contents (Elt Ideal)) (ix1 j) := by
  unfold pre3
  after_results_simp
  exact shapeCast_a_1a_apply _ _ 0 j

set_option maxHeartbeats 2000000 in
/-- The shift vector laid out as a row. -/
theorem be3_at (j : Fin 1024) :
    (pre3 Va (Proc.devRef .tc main_v64) : (⟨S1x1024, .f32⟩ : BufTy).Contents (Elt Ideal)) (ix2 0 j)
      = (Va (Proc.devRef .tc main_arg12) : (⟨S1024, .f32⟩ : BufTy).Contents (Elt Ideal)) (ix1 j) := by
  unfold pre3
  after_results_simp
  exact shapeCast_a_1a_apply _ _ 0 j

end Cert.KernelIdeal.KHost

end
-- ==== Proof.KChain.lean ====
/-
  The idealized kernel program's result array, region by region.

  Each region's output array is a binarized linear layer of what the region finds in its windows.  The first region finds
  the input array and the first layer's signs; each later region finds the previous region's output, that output's column
  means and reciprocal standard deviations as rows, the scale and shift rows, and its own layer's signs.  Walking the
  buffer contents from the launch through the host groups and the regions, the four outputs are the four layers of the
  specification applied to the fifteen argument arrays.
-/
import proofs.«137791_j65661460021769_2_alg».proof.Proof.Gen.KernelIdeal.Frame
import proofs.«137791_j65661460021769_2_alg».proof.Proof.Spec
import proofs.«137791_j65661460021769_2_alg».proof.Proof.Consts
import Idealize.ShloMosaic.Lib.StableHlo.Run
import Idealize.ShloMosaic.Lib.ValueLayout
import proofs.«137791_j65661460021769_2_alg».proof.Proof.KHostDefs
import proofs.«137791_j65661460021769_2_alg».proof.Proof.KHost0a
import proofs.«137791_j65661460021769_2_alg».proof.Proof.KHost0b
import proofs.«137791_j65661460021769_2_alg».proof.Proof.KHost0c
import proofs.«137791_j65661460021769_2_alg».proof.Proof.KHost1
import proofs.«137791_j65661460021769_2_alg».proof.Proof.KHost1k
import proofs.«137791_j65661460021769_2_alg».proof.Proof.KHost2
import proofs.«137791_j65661460021769_2_alg».proof.Proof.KHost2k
import proofs.«137791_j65661460021769_2_alg».proof.Proof.KHost3

set_option maxRecDepth 16384

noncomputable section

namespace Cert.KernelIdeal.KChain

open Cert.KernelIdeal Cert.KernelIdeal.Gen
open Idealize.ShloMosaic Idealize.ShloMosaic.TcCoe Idealize.ShloMosaic.StableHlo Idealize.ShloMosaic.ValueIdx

open Cert.BinNet Cert.KernelIdeal.KHost

variable (m : (ℓ : Loc nD τ sig) → Buf (Elt Ideal) ℓ) (ρ : Dev nD → PrngReg) (c : Dev nD)

/-- The argument arrays as launched, at their array types. -/
abbrev a0 : FVec Ideal S16384x3072 .f32 := m ((c : Thread nD τ).loc main_arg0)
abbrev a1 : FVec Ideal S2048x3072 .f32 := m ((c : Thread nD τ).loc main_arg1)
abbrev a2 : FVec Ideal S2048 .f32 := m ((c : Thread nD τ).loc main_arg2)
abbrev a3 : FVec Ideal S2048 .f32 := m ((c : Thread nD τ).loc main_arg3)
abbrev a4 : FVec Ideal S2048 .f32 := m ((c : Thread nD τ).loc main_arg4)
abbrev a5 : FVec Ideal S2048x2048 .f32 := m ((c : Thread nD τ).loc main_arg5)
abbrev a6 : FVec Ideal S2048 .f32 := m ((c : Thread nD τ).loc main_arg6)
abbrev a7 : FVec Ideal S2048 .f32 := m ((c : Thread nD τ).loc main_arg7)
abbrev a8 : FVec Ideal S2048 .f32 := m ((c : Thread nD τ).loc main_arg8)
abbrev a9 : FVec Ideal S1024x2048 .f32 := m ((c : Thread nD τ).loc main_arg9)
abbrev a10 : FVec Ideal S1024 .f32 := m ((c : Thread nD τ).loc main_arg10)
abbrev a11 : FVec Ideal S1024 .f32 := m ((c : Thread nD τ).loc main_arg11)
abbrev a12 : FVec Ideal S1024 .f32 := m ((c : Thread nD τ).loc main_arg12)
abbrev a13 : FVec Ideal S512x1024 .f32 := m ((c : Thread nD τ).loc main_arg13)
abbrev a14 : FVec Ideal S512 .f32 := m ((c : Thread nD τ).loc main_arg14)

/-- The four layers' pre-activations of the specification, at the argument arrays. -/
def h1 : Fin 16384 → Fin 2048 → EReal := lin (m2 (a0 m c)) (m2 (a1 m c)) (v1 (a2 m c))
def h2 : Fin 16384 → Fin 2048 → EReal := lin (bnz (h1 m c) (v1 (a3 m c)) (v1 (a4 m c))) (m2 (a5 m c)) (v1 (a6 m c))
def h3 : Fin 16384 → Fin 1024 → EReal := lin (bnz (h2 m c) (v1 (a7 m c)) (v1 (a8 m c))) (m2 (a9 m c)) (v1 (a10 m c))
def h4 : Fin 16384 → Fin 512 → EReal := lin (bnz (h3 m c) (v1 (a11 m c)) (v1 (a12 m c))) (m2 (a13 m c)) (v1 (a14 m c))

theorem h4_eq : arr2 (h4 m c) = Cert.BinNet.out (a0 m c) (a1 m c) (a2 m c) (a3 m c) (a4 m c) (a5 m c) (a6 m c) (a7 m c)
    (a8 m c) (a9 m c) (a10 m c) (a11 m c) (a12 m c) (a13 m c) (a14 m c) := rfl

/-- The launch contents read at a buffer are the memory's. -/
theorem W0_arg (b : Ref sig .tc) : W0 m ρ c (Proc.devRef .tc b) = m ((c : Thread nD τ).loc b) := rfl

/-- What the four regions are assumed to compute of the contents they find (proved region by region elsewhere). -/
structure Regions : Prop where
  rv0 : ∀ (V : (c : Dev nD) → (b : Ref sig .tc) → Buf (Elt Ideal) ((c : Thread nD τ).loc b)) (c : Dev nD),
    (dat0 V c).arrAt 3 cfg0.N = arr2 (linB (m2 (a := 16384) (b := 3072) (V c main_arg0)) (m2 (a := 2048) (b := 3072) (V c main_v3)) (r1 (a := 2048) (V c main_v7)))
  rv1 : ∀ (V : (c : Dev nD) → (b : Ref sig .tc) → Buf (Elt Ideal) ((c : Thread nD τ).loc b)) (c : Dev nD),
    (dat1 V c).arrAt 7 cfg1.N = arr2 (linB (zrow (m2 (a := 16384) (b := 2048) (V c main_v32)) (r1 (a := 2048) (V c main_v36)) (r1 (a := 2048) (V c main_v40)) (r1 (a := 2048) (V c main_v41)) (r1 (a := 2048) (V c main_v42)))
      (m2 (a := 2048) (b := 2048) (V c main_v11)) (r1 (a := 2048) (V c main_v15)))
  rv2 : ∀ (V : (c : Dev nD) → (b : Ref sig .tc) → Buf (Elt Ideal) ((c : Thread nD τ).loc b)) (c : Dev nD),
    (dat2 V c).arrAt 7 cfg2.N = arr2 (linB (zrow (m2 (a := 16384) (b := 2048) (V c main_v43)) (r1 (a := 2048) (V c main_v47)) (r1 (a := 2048) (V c main_v51)) (r1 (a := 2048) (V c main_v52)) (r1 (a := 2048) (V c main_v53)))
      (m2 (a := 1024) (b := 2048) (V c main_v19)) (r1 (a := 1024) (V c main_v23)))
  rv3 : ∀ (V : (c : Dev nD) → (b : Ref sig .tc) → Buf (Elt Ideal) ((c : Thread nD τ).loc b)) (c : Dev nD),
    (dat3 V c).arrAt 7 cfg3.N = arr2 (linB (zrow (m2 (a := 16384) (b := 1024) (V c main_v54)) (r1 (a := 1024) (V c main_v58)) (r1 (a := 1024) (V c main_v62)) (r1 (a := 1024) (V c main_v63)) (r1 (a := 1024) (V c main_v64)))
      (m2 (a := 512) (b := 1024) (V c main_v27)) (r1 (a := 512) (V c main_v31)))

/-- Buffers that neither the first two regions nor the host groups between write: back to what the first host group left. -/
theorem walk2_main_arg7 : W22 m ρ c (Proc.devRef .tc main_arg7) = pre0 (W0 m ρ c) (Proc.devRef .tc main_arg7) :=
  (W22_of_ne m ρ c main_arg7 (by decide)).trans ((pre1_kept_main_arg7 (W18 m ρ c)).trans (W18_of_ne m ρ c main_arg7 (by decide)))
theorem walk2_main_arg8 : W22 m ρ c (Proc.devRef .tc main_arg8) = pre0 (W0 m ρ c) (Proc.devRef .tc main_arg8) :=
  (W22_of_ne m ρ c main_arg8 (by decide)).trans ((pre1_kept_main_arg8 (W18 m ρ c)).trans (W18_of_ne m ρ c main_arg8 (by decide)))
theorem walk2_main_arg11 : W22 m ρ c (Proc.devRef .tc main_arg11) = pre0 (W0 m ρ c) (Proc.devRef .tc main_arg11) :=
  (W22_of_ne m ρ c main_arg11 (by decide)).trans ((pre1_kept_main_arg11 (W18 m ρ c)).trans (W18_of_ne m ρ c main_arg11 (by decide)))
theorem walk2_main_arg12 : W22 m ρ c (Proc.devRef .tc main_arg12) = pre0 (W0 m ρ c) (Proc.devRef .tc main_arg12) :=
  (W22_of_ne m ρ c main_arg12 (by decide)).trans ((pre1_kept_main_arg12 (W18 m ρ c)).trans (W18_of_ne m ρ c main_arg12 (by decide)))
theorem walk2_main_v19 : W22 m ρ c (Proc.devRef .tc main_v19) = pre0 (W0 m ρ c) (Proc.devRef .tc main_v19) :=
  (W22_of_ne m ρ c main_v19 (by decide)).trans ((pre1_kept_main_v19 (W18 m ρ c)).trans (W18_of_ne m ρ c main_v19 (by decide)))
theorem walk2_main_v23 : W22 m ρ c (Proc.devRef .tc main_v23) = pre0 (W0 m ρ c) (Proc.devRef .tc main_v23) :=
  (W22_of_ne m ρ c main_v23 (by decide)).trans ((pre1_kept_main_v23 (W18 m ρ c)).trans (W18_of_ne m ρ c main_v23 (by decide)))
theorem walk2_main_v27 : W22 m ρ c (Proc.devRef .tc main_v27) = pre0 (W0 m ρ c) (Proc.devRef .tc main_v27) :=
  (W22_of_ne m ρ c main_v27 (by decide)).trans ((pre1_kept_main_v27 (W18 m ρ c)).trans (W18_of_ne m ρ c main_v27 (by decide)))
theorem walk2_main_v31 : W22 m ρ c (Proc.devRef .tc main_v31) = pre0 (W0 m ρ c) (Proc.devRef .tc main_v31) :=
  (W22_of_ne m ρ c main_v31 (by decide)).trans ((pre1_kept_main_v31 (W18 m ρ c)).trans (W18_of_ne m ρ c main_v31 (by decide)))
theorem walk3_main_arg11 : W26 m ρ c (Proc.devRef .tc main_arg11) = pre0 (W0 m ρ c) (Proc.devRef .tc main_arg11) :=
  (W26_of_ne m ρ c main_arg11 (by decide)).trans ((pre2_kept_main_arg11 (W22 m ρ c)).trans (walk2_main_arg11 m ρ c))
theorem walk3_main_arg12 : W26 m ρ c (Proc.devRef .tc main_arg12) = pre0 (W0 m ρ c) (Proc.devRef .tc main_arg12) :=
  (W26_of_ne m ρ c main_arg12 (by decide)).trans ((pre2_kept_main_arg12 (W22 m ρ c)).trans (walk2_main_arg12 m ρ c))
theorem walk3_main_v27 : W26 m ρ c (Proc.devRef .tc main_v27) = pre0 (W0 m ρ c) (Proc.devRef .tc main_v27) :=
  (W26_of_ne m ρ c main_v27 (by decide)).trans ((pre2_kept_main_v27 (W22 m ρ c)).trans (walk2_main_v27 m ρ c))
theorem walk3_main_v31 : W26 m ρ c (Proc.devRef .tc main_v31) = pre0 (W0 m ρ c) (Proc.devRef .tc main_v31) :=
  (W26_of_ne m ρ c main_v31 (by decide)).trans ((pre2_kept_main_v31 (W22 m ρ c)).trans (walk2_main_v31 m ρ c))

variable (hR : Regions)
include hR

/-- After the first region its output array holds the first layer. -/
theorem out1 : W18 m ρ c (Proc.devRef .tc main_v32) = arr2 (h1 m c) := by
  refine (W18_arr m ρ c 3).trans ((hR.rv0 (V17 m ρ) c).trans (congrArg arr2 ?_))
  have e0 : m2 (a := 16384) (b := 3072) (V17 m ρ c main_arg0) = m2 (a0 m c) :=
    congrArg (m2 (a := 16384) (b := 3072)) (x_kept (W0 m ρ c))
  have e1 : m2 (a := 2048) (b := 3072) (V17 m ρ c main_v3) = fun j k => sg (m2 (a1 m c) j k) :=
    funext fun j => funext fun k => W1b_at (W0 m ρ c) j k
  have e2 : r1 (a := 2048) (V17 m ρ c main_v7) = fun j => sg (v1 (a2 m c) j) :=
    funext fun j => b1b_at (W0 m ρ c) j
  rw [e0, e1, e2]
  rfl

/-- After region 1 its output array holds layer 2 of the specification. -/
theorem out2 : W22 m ρ c (Proc.devRef .tc main_v43) = arr2 (h2 m c) := by
  refine (W22_arr m ρ c 7).trans ((hR.rv1 (V21 m ρ) c).trans (congrArg arr2 ?_))
  have eh : m2 (a := 16384) (b := 2048) (V21 m ρ c main_v32) = h1 m c := by
    have e : V21 m ρ c main_v32 = arr2 (h1 m c) := (h_kept1 (W18 m ρ c)).trans (out1 m ρ c hR)
    rw [e]
  have em : r1 (a := 2048) (V21 m ρ c main_v36) = mean (h1 m c) := funext fun j => by
    have e := mean1_at (W18 m ρ c) j
    rw [out1 m ρ c hR] at e
    exact e
  have ei : r1 (a := 2048) (V21 m ρ c main_v40) = istd (h1 m c) := funext fun j => by
    have e := istd1_at (W18 m ρ c) j
    rw [out1 m ρ c hR] at e
    exact e
  have eg : r1 (a := 2048) (V21 m ρ c main_v41) = v1 (a3 m c) := funext fun j =>
    (g1_at (W18 m ρ c) j).trans (congrFun ((W18_of_ne m ρ c main_arg3 (by decide)).trans (g1_kept (W0 m ρ c))) (ix1 j))
  have eb : r1 (a := 2048) (V21 m ρ c main_v42) = v1 (a4 m c) := funext fun j =>
    (be1_at (W18 m ρ c) j).trans (congrFun ((W18_of_ne m ρ c main_arg4 (by decide)).trans (be1_kept (W0 m ρ c))) (ix1 j))
  have eW : m2 (a := 2048) (b := 2048) (V21 m ρ c main_v11) = fun j k => sg (m2 (a5 m c) j k) :=
    funext fun j => funext fun k =>
      (congrFun ((W_kept1 (W18 m ρ c)).trans (W18_of_ne m ρ c main_v11 (by decide))) (ix2 j k)).trans (W2b_at (W0 m ρ c) j k)
  have ebb : r1 (a := 2048) (V21 m ρ c main_v15) = fun j => sg (v1 (a6 m c) j) :=
    funext fun j =>
      (congrFun ((b_kept1 (W18 m ρ c)).trans (W18_of_ne m ρ c main_v15 (by decide))) (ix2 0 j)).trans (b2b_at (W0 m ρ c) j)
  rw [eh, em, ei, eg, eb, eW, ebb]
  rfl

/-- After region 2 its output array holds layer 3 of the specification. -/
theorem out3 : W26 m ρ c (Proc.devRef .tc main_v54) = arr2 (h3 m c) := by
  refine (W26_arr m ρ c 7).trans ((hR.rv2 (V25 m ρ) c).trans (congrArg arr2 ?_))
  have eh : m2 (a := 16384) (b := 2048) (V25 m ρ c main_v43) = h2 m c := by
    have e : V25 m ρ c main_v43 = arr2 (h2 m c) := (h_kept2 (W22 m ρ c)).trans (out2 m ρ c hR)
    rw [e]
  have em : r1 (a := 2048) (V25 m ρ c main_v47) = mean (h2 m c) := funext fun j => by
    have e := mean2_at (W22 m ρ c) j
    rw [out2 m ρ c hR] at e
    exact e
  have ei : r1 (a := 2048) (V25 m ρ c main_v51) = istd (h2 m c) := funext fun j => by
    have e := istd2_at (W22 m ρ c) j
    rw [out2 m ρ c hR] at e
    exact e
  have eg : r1 (a := 2048) (V25 m ρ c main_v52) = v1 (a7 m c) := funext fun j =>
    (g2_at (W22 m ρ c) j).trans (congrFun ((walk2_main_arg7 m ρ c).trans (g2_kept (W0 m ρ c))) (ix1 j))
  have eb : r1 (a := 2048) (V25 m ρ c main_v53) = v1 (a8 m c) := funext fun j =>
    (be2_at (W22 m ρ c) j).trans (congrFun ((walk2_main_arg8 m ρ c).trans (be2_kept (W0 m ρ c))) (ix1 j))
  have eW : m2 (a := 1024) (b := 2048) (V25 m ρ c main_v19) = fun j k => sg (m2 (a9 m c) j k) :=
    funext fun j => funext fun k =>
      (congrFun ((W_kept2 (W22 m ρ c)).trans (walk2_main_v19 m ρ c)) (ix2 j k)).trans (W3b_at (W0 m ρ c) j k)
  have ebb : r1 (a := 1024) (V25 m ρ c main_v23) = fun j => sg (v1 (a10 m c) j) :=
    funext fun j =>
      (congrFun ((b_kept2 (W22 m ρ c)).trans (walk2_main_v23 m ρ c)) (ix2 0 j)).trans (b3b_at (W0 m ρ c) j)
  rw [eh, em, ei, eg, eb, eW, ebb]
  rfl

/-- After region 3 its output array holds layer 4 of the specification. -/
theorem out4 : W30 m ρ c (Proc.devRef .tc main_v65) = arr2 (h4 m c) := by
  refine (W30_arr m ρ c 7).trans ((hR.rv3 (V29 m ρ) c).trans (congrArg arr2 ?_))
  have eh : m2 (a := 16384) (b := 1024) (V29 m ρ c main_v54) = h3 m c := by
    have e : V29 m ρ c main_v54 = arr2 (h3 m c) := (h_kept3 (W26 m ρ c)).trans (out3 m ρ c hR)
    rw [e]
  have em : r1 (a := 1024) (V29 m ρ c main_v58) = mean (h3 m c) := funext fun j => by
    have e := mean3_at (W26 m ρ c) j
    rw [out3 m ρ c hR] at e
    exact e
  have ei : r1 (a := 1024) (V29 m ρ c main_v62) = istd (h3 m c) := funext fun j => by
    have e := istd3_at (W26 m ρ c) j
    rw [out3 m ρ c hR] at e
    exact e
  have eg : r1 (a := 1024) (V29 m ρ c main_v63) = v1 (a11 m c) := funext fun j =>
    (g3_at (W26 m ρ c) j).trans (congrFun ((walk3_main_arg11 m ρ c).trans (g3_kept (W0 m ρ c))) (ix1 j))
  have eb : r1 (a := 1024) (V29 m ρ c main_v64) = v1 (a12 m c) := funext fun j =>
    (be3_at (W26 m ρ c) j).trans (congrFun ((walk3_main_arg12 m ρ c).trans (be3_kept (W0 m ρ c))) (ix1 j))
  have eW : m2 (a := 512) (b := 1024) (V29 m ρ c main_v27) = fun j k => sg (m2 (a13 m c) j k) :=
    funext fun j => funext fun k =>
      (congrFun ((W_kept3 (W26 m ρ c)).trans (walk3_main_v27 m ρ c)) (ix2 j k)).trans (W4b_at (W0 m ρ c) j k)
  have ebb : r1 (a := 512) (V29 m ρ c main_v31) = fun j => sg (v1 (a14 m c) j) :=
    funext fun j =>
      (congrFun ((b_kept3 (W26 m ρ c)).trans (walk3_main_v31 m ρ c)) (ix2 0 j)).trans (b4b_at (W0 m ρ c) j)
  rw [eh, em, ei, eg, eb, eW, ebb]
  rfl

/-- The program's result buffer ends at the specification's result of the fifteen argument arrays. -/
theorem result : W30 m ρ c (Proc.devRef .tc main_v65) = Cert.BinNet.out (a0 m c) (a1 m c) (a2 m c) (a3 m c) (a4 m c) (a5 m c)
    (a6 m c) (a7 m c) (a8 m c) (a9 m c) (a10 m c) (a11 m c) (a12 m c) (a13 m c) (a14 m c) :=
  (out4 m ρ c hR).trans (h4_eq m c)

end Cert.KernelIdeal.KChain

end
-- ==== Proof.PayLib.lean ====
/-
  The pieces every layer's body shares, entry by entry, for any block sizes.

  The normalisation subtracts the first one-row array from the block, multiplies by the second and the third and adds
  the fourth, each row read at the entry's column.  The sign compares with the zero word and chooses between the words
  of `1` and `-1`; the change of format that follows is the identity on extended reals.
-/
import proofs.«137791_j65661460021769_2_alg».proof.Proof.Spec
import proofs.«137791_j65661460021769_2_alg».proof.Proof.Consts
import Idealize.ShloMosaic.Lib.Pipeline.Value
import Idealize.ShloMosaic.Lib.ValueLayout
import Idealize.ShloMosaic.Lib.ValueIdx

noncomputable section

namespace Cert.KernelIdeal.RegionValue

open Idealize.ShloMosaic Idealize.ShloMosaic.ValueIdx
open Cert.BinNet

/-- Two zero offsets, however they are spelt. -/
theorem hz : (![0, 0] : Fin 2 → Nat) = fun _ => 0 := funext fun a => by fin_cases a <;> rfl

/-- The normalised entry: the block less the first row, times the second and the third, plus the fourth, each row
    read at the entry's column. -/
theorem znorm_at {a b : ℕ} (x0 : FVec Ideal ⟨2, ![a, b]⟩ .f32) (x1 x2 x3 x4 : FVec Ideal ⟨2, ![1, b]⟩ .f32)
    (h : (⟨2, ![1, b]⟩ : Shape).Broadcasts ⟨2, ![a, b]⟩) (p : Fin a) (k : Fin b) :
    addf (mulf (mulf (subf x0 (broadcastTo ⟨2, ![a, b]⟩ x1 h)) (broadcastTo ⟨2, ![a, b]⟩ x2 h))
        (broadcastTo ⟨2, ![a, b]⟩ x3 h)) (broadcastTo ⟨2, ![a, b]⟩ x4 h) (ix2 p k)
      = zrow (m2 x0) (r1 x1) (r1 x2) (r1 x3) (r1 x4) p k := by
  show (x0 (ix2 p k) - broadcastTo ⟨2, ![a, b]⟩ x1 h (ix2 p k)) * broadcastTo ⟨2, ![a, b]⟩ x2 h (ix2 p k)
      * broadcastTo ⟨2, ![a, b]⟩ x3 h (ix2 p k) + broadcastTo ⟨2, ![a, b]⟩ x4 h (ix2 p k) = _
  rw [broadcastTo_1b_ab_apply x1 h p k, broadcastTo_1b_ab_apply x2 h p k, broadcastTo_1b_ab_apply x3 h p k,
    broadcastTo_1b_ab_apply x4 h p k]
  rfl

/-- The sign of a block, entry by entry: compare with the zero word, choose between the words of `1` and `-1`, and
    change the format (the identity on extended reals). -/
theorem sign_at {s : Shape} (z : FVec Ideal s .f32) (hb : FTy.bits .bf16 < FTy.bits .f32) (i : s.Idx) :
    (truncf .bf16 (select (cmpf .oge z (broadcast s (Scalar.ofBits (F := Ideal) .f32 0x00000000#32)))
        (broadcast s (Scalar.ofBits (F := Ideal) .f32 0x3F800000#32))
        (broadcast s (Scalar.ofBits (F := Ideal) .f32 0xBF800000#32))) hb : FVec Ideal s .bf16) i = sg (z i) :=
  Cert.Consts.select_sg (z i)

end Cert.KernelIdeal.RegionValue

end
-- ==== Proof.LibDotRows.lean ====
/-
  A product of two matrices stored row by row, read at an index written by coordinates.

  For dimension numbers that contract the LAST axis of both operands — no batch axis, `[M, K] · [N, K] → [M, N]`, the
  product of the left matrix with the transpose of the right one — the product reads, at `(p, j)`,
  `Σ_k lhs (p, k) · rhs (j, k)` over the `K` values of the contracted coordinate.  This holds for the device's
  product accumulated into the zero splat (the accumulator contributes `0`) and for the host's `dot_general` alike, so
  the two agree entry by entry.  The dimension numbers enter only through four facts about where they send an output
  index and a contraction index (`hl0 … hr1`), which hold by unfolding for any record of this form.  General: nothing
  here mentions a program.
-/
import Idealize.ShloMosaic.PureOps.Ideal.Laws
import Idealize.ShloMosaic.Lib.ValueIdx

noncomputable section

namespace Cert.LibDotRows

open Idealize.ShloMosaic Idealize.ShloMosaic.ValueIdx

/-- The operand indices of the contraction, re-indexed by the contracted coordinate. -/
theorem sum_rows {M K N : ℕ} (D : DotDims ⟨2, ![M, K]⟩ ⟨2, ![N, K]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (lhs : (⟨2, ![M, K]⟩ : Shape).Idx → EReal) (rhs : (⟨2, ![N, K]⟩ : Shape).Idx → EReal) (p : Fin M) (j : Fin N) :
    (∑ q : D.contr.Idx, lhs (D.lhsIdx (ix2 p j) q) * rhs (D.rhsIdx (ix2 p j) q))
      = ∑ k : Fin K, lhs (ix2 p k) * rhs (ix2 j k) := by
  rw [← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 j k := funext fun a => Fin.ext (by
    match a with
    | ⟨0, _⟩ => exact hr0 _ _
    | ⟨1, _⟩ => exact (hr1 _ _).trans hk)
  rw [el, er]

/-- `[M, K] · [N, K]` on the device into the zero splat, at `(p, j)`, is `Σ_k lhs (p, k) · rhs (j, k)`. -/
theorem matmul_zero_at {M K N : ℕ} {φ₁ φ₂ : FTy}
    (D : DotDims ⟨2, ![M, K]⟩ ⟨2, ![N, K]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (lhs : FVec Ideal ⟨2, ![M, K]⟩ φ₁) (rhs : FVec Ideal ⟨2, ![N, K]⟩ φ₂) (p : Fin M) (j : Fin N) :
    FloatOps.matmul D prec lhs rhs (constant ⟨2, ![M, N]⟩ .f32 0x00000000#32) (ix2 p j)
      = ∑ k : Fin K, lhs (ix2 p k) * rhs (ix2 j k) := by
  rw [Ideal.matmul_constant_zero_apply]
  exact sum_rows D hr hs hl0 hl1 hr0 hr1 lhs rhs p j

/-- The host's `[M, K] · [N, K]`, at `(p, j)`, is `Σ_k lhs (p, k) · rhs (j, k)`. -/
theorem dotGeneral_at {M K N : ℕ} {φ₁ φ₂ : FTy}
    (D : DotDims ⟨2, ![M, K]⟩ ⟨2, ![N, K]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (lhs : FVec Ideal ⟨2, ![M, K]⟩ φ₁) (rhs : FVec Ideal ⟨2, ![N, K]⟩ φ₂) (p : Fin M) (j : Fin N) :
    Host.dotGeneral D prec lhs rhs (ix2 p j) = ∑ k : Fin K, lhs (ix2 p k) * rhs (ix2 j k) := by
  show FloatOps.dotGeneral D prec .single lhs rhs (ix2 p j) = _
  rw [Ideal.dotGeneral_apply]
  exact sum_rows D hr hs hl0 hl1 hr0 hr1 lhs rhs p j

end Cert.LibDotRows

end
-- ==== Proof.Pay0.lean ====
/-
  What the first layer's body stores, entry by entry.

  The body takes the sign of each entry of its block of inputs, multiplies the block of signs with the transposed weight
  block (contracting the last axis of both) into a zero accumulator, and adds the bias row.  At row `p` and column `j`
  that is `Σ_k sgn (x p k) · W j k + b j`.
-/
import proofs.«137791_j65661460021769_2_alg».proof.Proof.Gen.KernelIdeal.Skeleton
import proofs.«137791_j65661460021769_2_alg».proof.Proof.PayLib
import proofs.«137791_j65661460021769_2_alg».proof.Proof.LibDotRows

noncomputable section

namespace Cert.KernelIdeal.RegionValue

open Idealize.ShloMosaic Idealize.ShloMosaic.ValueIdx
open Cert.KernelIdeal Cert.KernelIdeal.Gen Cert.BinNet

/-- The first layer's payload at row `p`, column `j`. -/
theorem pay0_at (x0 : Vec Ideal S256x3072 .f32) (x1 : Vec Ideal S2048x3072 .bf16) (x2 : Vec Ideal S1x2048 .f32)
    (p : Fin 256) (j : Fin 2048) :
    k0_pay1 x0 x1 x2 (ix2 p j) = linB (m2 x0) (m2 x1) (r1 x2) p j := by
  unfold k0_pay1
  simp only [shapeCast_self]
  unfold linB
  refine congrArg₂ (· + ·) ?_ (broadcastTo_1b_ab_apply x2 broadcasts_S1x2048_S256x2048 p j)
  refine (Cert.LibDotRows.matmul_zero_at (φ₁ := .bf16) (φ₂ := .bf16)
    dot_S256x3072_S2048x3072_S256x2048_1_1_0_0_n_n none rfl rfl
    (fun _ _ => rfl) (fun _ _ => rfl) (fun _ _ => rfl) (fun _ _ => rfl) _ x1 p j).trans ?_
  refine Finset.sum_congr rfl fun k _ => ?_
  exact congrArg (· * x1 (ix2 j k)) (sign_at x0 _ (ix2 p k))

end Cert.KernelIdeal.RegionValue

end
-- ==== Proof.LinCongr.lean ====
/-
  Two entries of layers agree when the data they depend on agree.

  An entry `(p, j)` of a layer depends only on row `p` of its input, on row `j` of its weights and on entry `j` of
  its bias; a normalised entry `(p, k)` only on the entry `(p, k)` of the input and on entry `k` of each of the four
  statistics rows.  So a layer computed on a block of rows cut from a larger array agrees, entry by entry, with the
  layer computed on the whole array.
-/
import proofs.«137791_j65661460021769_2_alg».proof.Proof.Spec

noncomputable section

namespace Cert.LinCongr

open Cert.BinNet

/-- A normalised entry depends on its input entry and on the four statistics at its column. -/
theorem zrow_congr {B R K : ℕ} (h : Fin B → Fin K → EReal) (h' : Fin R → Fin K → EReal)
    (mu iv g be mu' iv' g' be' : Fin K → EReal) (p : Fin B) (r : Fin R) (k : Fin K)
    (e0 : h p k = h' r k) (e1 : mu k = mu' k) (e2 : iv k = iv' k) (e3 : g k = g' k) (e4 : be k = be' k) :
    zrow h mu iv g be p k = zrow h' mu' iv' g' be' r k := by
  unfold zrow
  rw [e0, e1, e2, e3, e4]

/-- A layer's entry depends on one row of the input, one row of the weights and one entry of the bias. -/
theorem linB_congr {B R K N : ℕ} (X : Fin B → Fin K → EReal) (X' : Fin R → Fin K → EReal)
    (W W' : Fin N → Fin K → EReal) (bb bb' : Fin N → EReal) (p : Fin B) (r : Fin R) (j : Fin N)
    (hX : ∀ k, X p k = X' r k) (hW : ∀ k, W j k = W' j k) (hb : bb j = bb' j) :
    linB X W bb p j = linB X' W' bb' r j := by
  unfold linB
  rw [hb]
  exact congrArg (· + bb' j) (Finset.sum_congr rfl fun k _ => by rw [hX k, hW k])

end Cert.LinCongr

end
-- ==== Proof.RegionValue0.lean ====
/-
  The first layer's output array after its region has run, as one function of the arrays the region finds.

  The region visits 64 points; at point `t` its body sees rows `256 t … 256 t + 255` of the input, the weights and
  the bias whole, and stores the layer's entries for those rows, which the point writes back to the same rows of the
  output.  An entry of a layer depends on one row of the input only, so what a point writes back is the block of the
  layer computed on the whole arrays; the 64 blocks tile the output (row `r` is in the block of point `r / 256`),
  so the output ends holding the layer of the whole arrays.
-/
import proofs.«137791_j65661460021769_2_alg».proof.Proof.Gen.KernelIdeal.Frame
import proofs.«137791_j65661460021769_2_alg».proof.Proof.Pay0
import proofs.«137791_j65661460021769_2_alg».proof.Proof.LinCongr
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.RegionValue

open Cert.KernelIdeal Cert.KernelIdeal.Gen Cert.BinNet

variable (V : (c : Dev nD) → (b : Ref sig .tc) → Buf (Elt Ideal) ((c : Thread nD τ).loc b))

/-- The layer's result as one function of the arrays the region finds. -/
abbrev G0 (c : Dev nD) : S16384x2048.Idx → EReal :=
  arr2 (linB (m2 (V c main_arg0 : S16384x3072.Idx → EReal)) (m2 (V c main_v3 : S2048x3072.Idx → EReal))
    (r1 (V c main_v7 : S1x2048.Idx → EReal)))

/-- The windows' block indices at every point: the input and the output move with the point along the rows, the
    weights and the bias stay at block `(0, 0)`. -/
theorem idx_facts0 : ∀ t : Fin cfg0.N,
    win0_0.index t (0 : Fin 2) = t.val ∧ win0_0.index t (1 : Fin 2) = 0
    ∧ win0_3.index t (0 : Fin 2) = t.val ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The input's block at point `t` is rows `256 t … 256 t + 255` of the array. -/
theorem iblk0_0_at (c : Dev nD) (t : Fin cfg0.N) (p : Fin 256) (k : Fin 3072) (r : Fin 16384)
    (hr : r.val = t.val * 256 + p.val) :
    (iblk0 V c 0 t : S256x3072.Idx → EReal) (ix2 p k) = (V c main_arg0 : S16384x3072.Idx → EReal) (ix2 r k) := by
  obtain ⟨e0, e1, -⟩ := idx_facts0 t
  unfold iblk0
  rw [View.read_apply]
  show (V c main_arg0 : S16384x3072.Idx → EReal) _ = _
  refine congrArg _ (funext fun a => Fin.ext ?_)
  match a with
  | ⟨0, _⟩ => show win0_0.index t 0 * 256 + 1 * p.val = r.val; rw [e0, hr]; omega
  | ⟨1, _⟩ => show win0_0.index t 1 * 3072 + 1 * k.val = k.val; rw [e1]; omega

/-- The weights' block is the whole array at every point. -/
theorem iblk0_1_at (c : Dev nD) (t : Fin cfg0.N) (j : Fin 2048) (k : Fin 3072) :
    (iblk0 V c 1 t : S2048x3072.Idx → EReal) (ix2 j k) = (V c main_v3 : S2048x3072.Idx → EReal) (ix2 j k) := by
  have e := idx_facts0 t
  unfold iblk0
  rw [View.read_apply]
  show (V c main_v3 : S2048x3072.Idx → EReal) _ = _
  refine congrArg _ (funext fun a => Fin.ext ?_)
  match a with
  | ⟨0, _⟩ => show win0_1.index t 0 * 2048 + 1 * j.val = j.val; omega
  | ⟨1, _⟩ => show win0_1.index t 1 * 3072 + 1 * k.val = k.val; omega

/-- The bias's block is the whole array at every point. -/
theorem iblk0_2_at (c : Dev nD) (t : Fin cfg0.N) (k : Fin 2048) :
    (iblk0 V c 2 t : S1x2048.Idx → EReal) (ix2 0 k) = (V c main_v7 : S1x2048.Idx → EReal) (ix2 0 k) := by
  have e := idx_facts0 t
  unfold iblk0
  rw [View.read_apply]
  show (V c main_v7 : S1x2048.Idx → EReal) _ = _
  refine congrArg _ (funext fun a => Fin.ext ?_)
  match a with
  | ⟨0, _⟩ => show win0_2.index t 0 * 1 + 1 * 0 = 0; omega
  | ⟨1, _⟩ => show win0_2.index t 1 * 2048 + 1 * k.val = k.val; omega

/-- What point `t` writes back is block `t` of the layer's result. -/
theorem flushed0_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero hz]
  simp only [View.ld_unit_zero (S := S256x3072) hz, View.ld_unit_zero (S := S2048x3072) hz, View.ld_unit_zero (S := S1x2048) hz]
  funext y
  obtain ⟨-, -, e30, e31, -⟩ := idx_facts0 t
  have hy0 : (y 0).val < 256 := (y 0).isLt
  have hy1 : (y 1).val < 2048 := (y 1).isLt
  have ht : t.val < 64 := lt_of_lt_of_eq t.isLt N_0
  have hx : (cfg0.win 3).xinj (grid0.coords t) y = ix2 (⟨(y 0).val, hy0⟩ : Fin 256) (⟨(y 1).val, hy1⟩ : Fin 2048) :=
    funext fun a => Fin.ext (by match a with | ⟨0, _⟩ => rfl | ⟨1, _⟩ => rfl)
  have hr : ((cfg0.win 3).blk t).view.emb y
      = ix2 (⟨t.val * 256 + (y 0).val, by omega⟩ : Fin 16384) (⟨(y 1).val, hy1⟩ : Fin 2048) :=
    funext fun a => Fin.ext (by
      match a with
      | ⟨0, _⟩ => show win0_3.index t 0 * 256 + 1 * (y 0).val = t.val * 256 + (y 0).val; rw [e30]; omega
      | ⟨1, _⟩ => show win0_3.index t 1 * 2048 + 1 * (y 1).val = (y 1).val; rw [e31]; omega)
  show k0_pay1 (iblk0 V c 0 t) (iblk0 V c 1 t) (iblk0 V c 2 t) ((cfg0.win 3).xinj (grid0.coords t) y)
    = G0 V c (((cfg0.win 3).blk t).view.emb y)
  rw [hx, hr]
  refine (pay0_at (iblk0 V c 0 t) (iblk0 V c 1 t) (iblk0 V c 2 t) ⟨(y 0).val, hy0⟩ ⟨(y 1).val, hy1⟩).trans ?_
  refine Cert.LinCongr.linB_congr _ _ _ _ _ _ _ ⟨t.val * 256 + (y 0).val, by omega⟩ _ (fun k => ?_) (fun k => ?_) ?_
  · exact iblk0_0_at V c t ⟨(y 0).val, hy0⟩ k ⟨t.val * 256 + (y 0).val, by omega⟩ rfl
  · exact iblk0_1_at V c t ⟨(y 1).val, hy1⟩ k
  · exact iblk0_2_at V c t ⟨(y 1).val, hy1⟩

/-- An index of the array is in point `t`'s block iff each coordinate is in the block's range on its axis. -/
theorem mem_blk0 (t : Fin cfg0.N) (i : S16384x2048.Idx) :
    i ∈ ((cfg0.win 3).blk t).view.set ↔ ∀ a : Fin 2, win0_3.index t a * S256x2048.size a ≤ (i a).val ∧ (i a).val < win0_3.index t a * S256x2048.size a + S256x2048.size a := by
  show i ∈ ((View.whole main_v32).slice (win0_3.rect t)).set ↔ _
  rw [View.set_slice_whole, Rect.mem_set_unit]
  exact Iff.rfl

/-- Every row is in the block of the point its number divided by 256 names. -/
theorem cover0 (i : S16384x2048.Idx) :
    ∃ t : Fin cfg0.N, (cfg0.win 3).flush t = true ∧ i ∈ ((cfg0.win 3).blk t).view.set := by
  have hi0 : (i 0).val < 16384 := (i 0).isLt
  have hi1 : (i 1).val < 2048 := (i 1).isLt
  have hN : cfg0.N = 64 := N_0
  refine ⟨⟨(i 0).val / 256, by rw [hN]; omega⟩, flush0_3 _, ?_⟩
  rw [mem_blk0]
  obtain ⟨-, -, e30, e31, -⟩ := idx_facts0 ⟨(i 0).val / 256, by rw [hN]; omega⟩
  intro a
  match a with
  | ⟨0, _⟩ =>
    show win0_3.index _ (0 : Fin 2) * 256 ≤ (i 0).val ∧ (i 0).val < win0_3.index _ (0 : Fin 2) * 256 + 256
    rw [e30]; show (i 0).val / 256 * 256 ≤ (i 0).val ∧ (i 0).val < (i 0).val / 256 * 256 + 256; omega
  | ⟨1, _⟩ =>
    show win0_3.index _ (1 : Fin 2) * 2048 ≤ (i 1).val ∧ (i 1).val < win0_3.index _ (1 : Fin 2) * 2048 + 2048
    rw [e31]; omega

/-- The first layer's output array after its region has run. -/
theorem region0 (c : Dev nD) :
    (dat0 V c).arrAt 3 cfg0.N = arr2 (linB (m2 (V c main_arg0)) (m2 (V c main_v3)) (r1 (V c main_v7))) :=
  (dat0 V c).arrAt_eq_of_cover 3 (G0 V c) (fun t _ => flushed0_eq V c t) cover0

end Cert.KernelIdeal.RegionValue

end
-- ==== Proof.Pay1.lean ====
/-
  What the second layer's body stores, entry by entry.

  The body normalises its block of activations with the four one-row arrays (subtract the first, multiply by the second
  and the third, add the fourth), takes the sign of each entry, multiplies the block of signs with the transposed
  weight block (contracting the last axis of both) into a zero accumulator, and adds the bias row.  At row `p` and
  column `j` that is `Σ_k sgn (z p k) · W j k + b j`, with `z` the normalised block.
-/
import proofs.«137791_j65661460021769_2_alg».proof.Proof.Gen.KernelIdeal.Skeleton
import proofs.«137791_j65661460021769_2_alg».proof.Proof.PayLib
import proofs.«137791_j65661460021769_2_alg».proof.Proof.LibDotRows

noncomputable section

namespace Cert.KernelIdeal.RegionValue

open Idealize.ShloMosaic Idealize.ShloMosaic.ValueIdx
open Cert.KernelIdeal Cert.KernelIdeal.Gen Cert.BinNet

/-- The second layer's payload at row `p`, column `j`. -/
theorem pay1_at (x0 : Vec Ideal S256x2048 .f32) (x1 x2 x3 x4 : Vec Ideal S1x2048 .f32)
    (x5 : Vec Ideal S2048x2048 .bf16) (x6 : Vec Ideal S1x2048 .f32) (p : Fin 256) (j : Fin 2048) :
    k1_pay1 x0 x1 x2 x3 x4 x5 x6 (ix2 p j)
      = linB (zrow (m2 x0) (r1 x1) (r1 x2) (r1 x3) (r1 x4)) (m2 x5) (r1 x6) p j := by
  unfold k1_pay1
  simp only [shapeCast_self]
  unfold linB
  refine congrArg₂ (· + ·) ?_ (broadcastTo_1b_ab_apply x6 broadcasts_S1x2048_S256x2048 p j)
  refine (Cert.LibDotRows.matmul_zero_at (φ₁ := .bf16) (φ₂ := .bf16)
    dot_S256x2048_S2048x2048_S256x2048_1_1_0_0_n_n none rfl rfl
    (fun _ _ => rfl) (fun _ _ => rfl) (fun _ _ => rfl) (fun _ _ => rfl) _ x5 p j).trans ?_
  refine Finset.sum_congr rfl fun k _ => ?_
  refine congrArg (· * x5 (ix2 j k)) ?_
  refine (sign_at _ _ (ix2 p k)).trans ?_
  exact congrArg sg (znorm_at x0 x1 x2 x3 x4 broadcasts_S1x2048_S256x2048 p k)

end Cert.KernelIdeal.RegionValue

end
-- ==== Proof.RegionValue1.lean ====
/-
  The second layer's output array after its region has run, as one function of the arrays the region finds.

  The region visits 64 points; at point `t` its body sees rows `256 t … 256 t + 255` of the activations, the four
  statistics rows, the weights and the bias whole, and stores the layer's entries for those rows, which the point
  writes back to the same rows of the output.  An entry of a layer depends on one row of the activations only, so
  what a point writes back is the block of the layer computed on the whole arrays; the 64 blocks tile the output (row
  `r` is in the block of point `r / 256`), so the output ends holding the layer of the whole arrays.
-/
import proofs.«137791_j65661460021769_2_alg».proof.Proof.Gen.KernelIdeal.Frame
import proofs.«137791_j65661460021769_2_alg».proof.Proof.Pay1
import proofs.«137791_j65661460021769_2_alg».proof.Proof.LinCongr
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.RegionValue

open Cert.KernelIdeal Cert.KernelIdeal.Gen Cert.BinNet

variable (V : (c : Dev nD) → (b : Ref sig .tc) → Buf (Elt Ideal) ((c : Thread nD τ).loc b))

/-- The layer's result as one function of the arrays the region finds. -/
abbrev G1 (c : Dev nD) : S16384x2048.Idx → EReal :=
  arr2 (linB (zrow (m2 (V c main_v32 : S16384x2048.Idx → EReal)) (r1 (V c main_v36 : S1x2048.Idx → EReal))
      (r1 (V c main_v40 : S1x2048.Idx → EReal)) (r1 (V c main_v41 : S1x2048.Idx → EReal))
      (r1 (V c main_v42 : S1x2048.Idx → EReal)))
    (m2 (V c main_v11 : S2048x2048.Idx → EReal)) (r1 (V c main_v15 : S1x2048.Idx → EReal)))

/-- The windows' block indices at every point: the activations and the output move with the point along the rows,
    every other window stays at block `(0, 0)`. -/
theorem idx_facts1 : ∀ t : Fin cfg1.N,
    win1_0.index t (0 : Fin 2) = t.val ∧ win1_0.index t (1 : Fin 2) = 0
    ∧ win1_7.index t (0 : Fin 2) = t.val ∧ win1_7.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- The activations' block at point `t` is rows `256 t … 256 t + 255` of the array. -/
theorem iblk1_0_at (c : Dev nD) (t : Fin cfg1.N) (p : Fin 256) (k : Fin 2048) (r : Fin 16384)
    (hr : r.val = t.val * 256 + p.val) :
    (iblk1 V c 0 t : S256x2048.Idx → EReal) (ix2 p k) = (V c main_v32 : S16384x2048.Idx → EReal) (ix2 r k) := by
  obtain ⟨e0, e1, -⟩ := idx_facts1 t
  unfold iblk1
  rw [View.read_apply]
  show (V c main_v32 : S16384x2048.Idx → EReal) _ = _
  refine congrArg _ (funext fun a => Fin.ext ?_)
  match a with
  | ⟨0, _⟩ => show win1_0.index t 0 * 256 + 1 * p.val = r.val; rw [e0, hr]; omega
  | ⟨1, _⟩ => show win1_0.index t 1 * 2048 + 1 * k.val = k.val; rw [e1]; omega

/-- A one-row window's block is its whole array at every point. -/
theorem iblk1_1_at (c : Dev nD) (t : Fin cfg1.N) (k : Fin 2048) :
    (iblk1 V c 1 t : S1x2048.Idx → EReal) (ix2 0 k) = (V c main_v36 : S1x2048.Idx → EReal) (ix2 0 k) := by
  have e := idx_facts1 t
  unfold iblk1
  rw [View.read_apply]
  show (V c main_v36 : S1x2048.Idx → EReal) _ = _
  refine congrArg _ (funext fun a => Fin.ext ?_)
  match a with
  | ⟨0, _⟩ => show win1_1.index t 0 * 1 + 1 * 0 = 0; omega
  | ⟨1, _⟩ => show win1_1.index t 1 * 2048 + 1 * k.val = k.val; omega

/-- A one-row window's block is its whole array at every point. -/
theorem iblk1_2_at (c : Dev nD) (t : Fin cfg1.N) (k : Fin 2048) :
    (iblk1 V c 2 t : S1x2048.Idx → EReal) (ix2 0 k) = (V c main_v40 : S1x2048.Idx → EReal) (ix2 0 k) := by
  have e := idx_facts1 t
  unfold iblk1
  rw [View.read_apply]
  show (V c main_v40 : S1x2048.Idx → EReal) _ = _
  refine congrArg _ (funext fun a => Fin.ext ?_)
  match a with
  | ⟨0, _⟩ => show win1_2.index t 0 * 1 + 1 * 0 = 0; omega
  | ⟨1, _⟩ => show win1_2.index t 1 * 2048 + 1 * k.val = k.val; omega

/-- A one-row window's block is its whole array at every point. -/
theorem iblk1_3_at (c : Dev nD) (t : Fin cfg1.N) (k : Fin 2048) :
    (iblk1 V c 3 t : S1x2048.Idx → EReal) (ix2 0 k) = (V c main_v41 : S1x2048.Idx → EReal) (ix2 0 k) := by
  have e := idx_facts1 t
  unfold iblk1
  rw [View.read_apply]
  show (V c main_v41 : S1x2048.Idx → EReal) _ = _
  refine congrArg _ (funext fun a => Fin.ext ?_)
  match a with
  | ⟨0, _⟩ => show win1_3.index t 0 * 1 + 1 * 0 = 0; omega
  | ⟨1, _⟩ => show win1_3.index t 1 * 2048 + 1 * k.val = k.val; omega

/-- A one-row window's block is its whole array at every point. -/
theorem iblk1_4_at (c : Dev nD) (t : Fin cfg1.N) (k : Fin 2048) :
    (iblk1 V c 4 t : S1x2048.Idx → EReal) (ix2 0 k) = (V c main_v42 : S1x2048.Idx → EReal) (ix2 0 k) := by
  have e := idx_facts1 t
  unfold iblk1
  rw [View.read_apply]
  show (V c main_v42 : S1x2048.Idx → EReal) _ = _
  refine congrArg _ (funext fun a => Fin.ext ?_)
  match a with
  | ⟨0, _⟩ => show win1_4.index t 0 * 1 + 1 * 0 = 0; omega
  | ⟨1, _⟩ => show win1_4.index t 1 * 2048 + 1 * k.val = k.val; omega

/-- A one-row window's block is its whole array at every point. -/
theorem iblk1_6_at (c : Dev nD) (t : Fin cfg1.N) (k : Fin 2048) :
    (iblk1 V c 6 t : S1x2048.Idx → EReal) (ix2 0 k) = (V c main_v15 : S1x2048.Idx → EReal) (ix2 0 k) := by
  have e := idx_facts1 t
  unfold iblk1
  rw [View.read_apply]
  show (V c main_v15 : S1x2048.Idx → EReal) _ = _
  refine congrArg _ (funext fun a => Fin.ext ?_)
  match a with
  | ⟨0, _⟩ => show win1_6.index t 0 * 1 + 1 * 0 = 0; omega
  | ⟨1, _⟩ => show win1_6.index t 1 * 2048 + 1 * k.val = k.val; omega

/-- The weights' block is the whole array at every point. -/
theorem iblk1_5_at (c : Dev nD) (t : Fin cfg1.N) (j : Fin 2048) (k : Fin 2048) :
    (iblk1 V c 5 t : S2048x2048.Idx → EReal) (ix2 j k) = (V c main_v11 : S2048x2048.Idx → EReal) (ix2 j k) := by
  have e := idx_facts1 t
  unfold iblk1
  rw [View.read_apply]
  show (V c main_v11 : S2048x2048.Idx → EReal) _ = _
  refine congrArg _ (funext fun a => Fin.ext ?_)
  match a with
  | ⟨0, _⟩ => show win1_5.index t 0 * 2048 + 1 * j.val = j.val; omega
  | ⟨1, _⟩ => show win1_5.index t 1 * 2048 + 1 * k.val = k.val; omega

/-- What point `t` writes back is block `t` of the layer's result. -/
theorem flushed1_eq (c : Dev nD) (t : Fin cfg1.N) :
    (dat1 V c).flushed 7 t = ((cfg1.win 7).blk t).view.read (Elt Ideal) (G1 V c) := by
  show (cfg1.win 7).cut (grid1.coords t) ((dat1 V c).after 7 t) = _
  rw [after1_7]
  unfold out1_7
  rw [View.canon_unit_zero hz]
  simp only [View.ld_unit_zero (S := S256x2048) hz, View.ld_unit_zero (S := S1x2048) hz, View.ld_unit_zero (S := S2048x2048) hz]
  funext y
  obtain ⟨-, -, e70, e71, -⟩ := idx_facts1 t
  have hy0 : (y 0).val < 256 := (y 0).isLt
  have hy1 : (y 1).val < 2048 := (y 1).isLt
  have ht : t.val < 64 := lt_of_lt_of_eq t.isLt N_1
  have hx : (cfg1.win 7).xinj (grid1.coords t) y = ix2 (⟨(y 0).val, hy0⟩ : Fin 256) (⟨(y 1).val, hy1⟩ : Fin 2048) :=
    funext fun a => Fin.ext (by match a with | ⟨0, _⟩ => rfl | ⟨1, _⟩ => rfl)
  have hr : ((cfg1.win 7).blk t).view.emb y
      = ix2 (⟨t.val * 256 + (y 0).val, by omega⟩ : Fin 16384) (⟨(y 1).val, hy1⟩ : Fin 2048) :=
    funext fun a => Fin.ext (by
      match a with
      | ⟨0, _⟩ => show win1_7.index t 0 * 256 + 1 * (y 0).val = t.val * 256 + (y 0).val; rw [e70]; omega
      | ⟨1, _⟩ => show win1_7.index t 1 * 2048 + 1 * (y 1).val = (y 1).val; rw [e71]; omega)
  show k1_pay1 (iblk1 V c 0 t) (iblk1 V c 1 t) (iblk1 V c 2 t) (iblk1 V c 3 t) (iblk1 V c 4 t) (iblk1 V c 5 t)
      (iblk1 V c 6 t) ((cfg1.win 7).xinj (grid1.coords t) y) = G1 V c (((cfg1.win 7).blk t).view.emb y)
  rw [hx, hr]
  refine (pay1_at (iblk1 V c 0 t) (iblk1 V c 1 t) (iblk1 V c 2 t) (iblk1 V c 3 t) (iblk1 V c 4 t) (iblk1 V c 5 t)
    (iblk1 V c 6 t) ⟨(y 0).val, hy0⟩ ⟨(y 1).val, hy1⟩).trans ?_
  refine Cert.LinCongr.linB_congr _ _ _ _ _ _ _ ⟨t.val * 256 + (y 0).val, by omega⟩ _ (fun k => ?_) (fun k => ?_) ?_
  · exact Cert.LinCongr.zrow_congr _ _ _ _ _ _ _ _ _ _ _ _ _
      (iblk1_0_at V c t ⟨(y 0).val, hy0⟩ k ⟨t.val * 256 + (y 0).val, by omega⟩ rfl)
      (iblk1_1_at V c t k) (iblk1_2_at V c t k) (iblk1_3_at V c t k) (iblk1_4_at V c t k)
  · exact iblk1_5_at V c t ⟨(y 1).val, hy1⟩ k
  · exact iblk1_6_at V c t ⟨(y 1).val, hy1⟩

/-- An index of the array is in point `t`'s block iff each coordinate is in the block's range on its axis. -/
theorem mem_blk1 (t : Fin cfg1.N) (i : S16384x2048.Idx) :
    i ∈ ((cfg1.win 7).blk t).view.set ↔ ∀ a : Fin 2, win1_7.index t a * S256x2048.size a ≤ (i a).val ∧ (i a).val < win1_7.index t a * S256x2048.size a + S256x2048.size a := by
  show i ∈ ((View.whole main_v43).slice (win1_7.rect t)).set ↔ _
  rw [View.set_slice_whole, Rect.mem_set_unit]
  exact Iff.rfl

/-- Every row is in the block of the point its number divided by 256 names. -/
theorem cover1 (i : S16384x2048.Idx) :
    ∃ t : Fin cfg1.N, (cfg1.win 7).flush t = true ∧ i ∈ ((cfg1.win 7).blk t).view.set := by
  have hi0 : (i 0).val < 16384 := (i 0).isLt
  have hi1 : (i 1).val < 2048 := (i 1).isLt
  have hN : cfg1.N = 64 := N_1
  refine ⟨⟨(i 0).val / 256, by rw [hN]; omega⟩, flush1_7 _, ?_⟩
  rw [mem_blk1]
  obtain ⟨-, -, e70, e71, -⟩ := idx_facts1 ⟨(i 0).val / 256, by rw [hN]; omega⟩
  intro a
  match a with
  | ⟨0, _⟩ =>
    show win1_7.index _ (0 : Fin 2) * 256 ≤ (i 0).val ∧ (i 0).val < win1_7.index _ (0 : Fin 2) * 256 + 256
    rw [e70]; show (i 0).val / 256 * 256 ≤ (i 0).val ∧ (i 0).val < (i 0).val / 256 * 256 + 256; omega
  | ⟨1, _⟩ =>
    show win1_7.index _ (1 : Fin 2) * 2048 ≤ (i 1).val ∧ (i 1).val < win1_7.index _ (1 : Fin 2) * 2048 + 2048
    rw [e71]; omega

/-- The second layer's output array after its region has run. -/
theorem region1 (c : Dev nD) :
    (dat1 V c).arrAt 7 cfg1.N = arr2 (linB (zrow (m2 (V c main_v32)) (r1 (V c main_v36)) (r1 (V c main_v40))
      (r1 (V c main_v41)) (r1 (V c main_v42))) (m2 (V c main_v11)) (r1 (V c main_v15))) :=
  (dat1 V c).arrAt_eq_of_cover 7 (G1 V c) (fun t _ => flushed1_eq V c t) cover1

end Cert.KernelIdeal.RegionValue

end
-- ==== Proof.Pay2.lean ====
/-
  What the third layer's body stores, entry by entry.

  The body normalises its block of activations with the four one-row arrays (subtract the first, multiply by the second
  and the third, add the fourth), takes the sign of each entry, multiplies the block of signs with the transposed
  weight block (contracting the last axis of both) into a zero accumulator, and adds the bias row.  At row `p` and
  column `j` that is `Σ_k sgn (z p k) · W j k + b j`, with `z` the normalised block.
-/
import proofs.«137791_j65661460021769_2_alg».proof.Proof.Gen.KernelIdeal.Skeleton
import proofs.«137791_j65661460021769_2_alg».proof.Proof.PayLib
import proofs.«137791_j65661460021769_2_alg».proof.Proof.LibDotRows

noncomputable section

namespace Cert.KernelIdeal.RegionValue

open Idealize.ShloMosaic Idealize.ShloMosaic.ValueIdx
open Cert.KernelIdeal Cert.KernelIdeal.Gen Cert.BinNet

/-- The third layer's payload at row `p`, column `j`. -/
theorem pay2_at (x0 : Vec Ideal S256x2048 .f32) (x1 x2 x3 x4 : Vec Ideal S1x2048 .f32)
    (x5 : Vec Ideal S1024x2048 .bf16) (x6 : Vec Ideal S1x1024 .f32) (p : Fin 256) (j : Fin 1024) :
    k2_pay1 x0 x1 x2 x3 x4 x5 x6 (ix2 p j)
      = linB (zrow (m2 x0) (r1 x1) (r1 x2) (r1 x3) (r1 x4)) (m2 x5) (r1 x6) p j := by
  unfold k2_pay1
  simp only [shapeCast_self]
  unfold linB
  refine congrArg₂ (· + ·) ?_ (broadcastTo_1b_ab_apply x6 broadcasts_S1x1024_S256x1024 p j)
  refine (Cert.LibDotRows.matmul_zero_at (φ₁ := .bf16) (φ₂ := .bf16)
    dot_S256x2048_S1024x2048_S256x1024_1_1_0_0_n_n none rfl rfl
    (fun _ _ => rfl) (fun _ _ => rfl) (fun _ _ => rfl) (fun _ _ => rfl) _ x5 p j).trans ?_
  refine Finset.sum_congr rfl fun k _ => ?_
  refine congrArg (· * x5 (ix2 j k)) ?_
  refine (sign_at _ _ (ix2 p k)).trans ?_
  exact congrArg sg (znorm_at x0 x1 x2 x3 x4 broadcasts_S1x2048_S256x2048 p k)

end Cert.KernelIdeal.RegionValue

end
-- ==== Proof.RegionValue2.lean ====
/-
  The third layer's output array after its region has run, as one function of the arrays the region finds.

  The region visits 64 points; at point `t` its body sees rows `256 t … 256 t + 255` of the activations, the four
  statistics rows, the weights and the bias whole, and stores the layer's entries for those rows, which the point
  writes back to the same rows of the output.  An entry of a layer depends on one row of the activations only, so
  what a point writes back is the block of the layer computed on the whole arrays; the 64 blocks tile the output (row
  `r` is in the block of point `r / 256`), so the output ends holding the layer of the whole arrays.
-/
import proofs.«137791_j65661460021769_2_alg».proof.Proof.Gen.KernelIdeal.Frame
import proofs.«137791_j65661460021769_2_alg».proof.Proof.Pay2
import proofs.«137791_j65661460021769_2_alg».proof.Proof.LinCongr
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.RegionValue

open Cert.KernelIdeal Cert.KernelIdeal.Gen Cert.BinNet

variable (V : (c : Dev nD) → (b : Ref sig .tc) → Buf (Elt Ideal) ((c : Thread nD τ).loc b))

/-- The layer's result as one function of the arrays the region finds. -/
abbrev G2 (c : Dev nD) : S16384x1024.Idx → EReal :=
  arr2 (linB (zrow (m2 (V c main_v43 : S16384x2048.Idx → EReal)) (r1 (V c main_v47 : S1x2048.Idx → EReal))
      (r1 (V c main_v51 : S1x2048.Idx → EReal)) (r1 (V c main_v52 : S1x2048.Idx → EReal))
      (r1 (V c main_v53 : S1x2048.Idx → EReal)))
    (m2 (V c main_v19 : S1024x2048.Idx → EReal)) (r1 (V c main_v23 : S1x1024.Idx → EReal)))

/-- The windows' block indices at every point: the activations and the output move with the point along the rows,
    every other window stays at block `(0, 0)`. -/
theorem idx_facts2 : ∀ t : Fin cfg2.N,
    win2_0.index t (0 : Fin 2) = t.val ∧ win2_0.index t (1 : Fin 2) = 0
    ∧ win2_7.index t (0 : Fin 2) = t.val ∧ win2_7.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- The activations' block at point `t` is rows `256 t … 256 t + 255` of the array. -/
theorem iblk2_0_at (c : Dev nD) (t : Fin cfg2.N) (p : Fin 256) (k : Fin 2048) (r : Fin 16384)
    (hr : r.val = t.val * 256 + p.val) :
    (iblk2 V c 0 t : S256x2048.Idx → EReal) (ix2 p k) = (V c main_v43 : S16384x2048.Idx → EReal) (ix2 r k) := by
  obtain ⟨e0, e1, -⟩ := idx_facts2 t
  unfold iblk2
  rw [View.read_apply]
  show (V c main_v43 : S16384x2048.Idx → EReal) _ = _
  refine congrArg _ (funext fun a => Fin.ext ?_)
  match a with
  | ⟨0, _⟩ => show win2_0.index t 0 * 256 + 1 * p.val = r.val; rw [e0, hr]; omega
  | ⟨1, _⟩ => show win2_0.index t 1 * 2048 + 1 * k.val = k.val; rw [e1]; omega

/-- A one-row window's block is its whole array at every point. -/
theorem iblk2_1_at (c : Dev nD) (t : Fin cfg2.N) (k : Fin 2048) :
    (iblk2 V c 1 t : S1x2048.Idx → EReal) (ix2 0 k) = (V c main_v47 : S1x2048.Idx → EReal) (ix2 0 k) := by
  have e := idx_facts2 t
  unfold iblk2
  rw [View.read_apply]
  show (V c main_v47 : S1x2048.Idx → EReal) _ = _
  refine congrArg _ (funext fun a => Fin.ext ?_)
  match a with
  | ⟨0, _⟩ => show win2_1.index t 0 * 1 + 1 * 0 = 0; omega
  | ⟨1, _⟩ => show win2_1.index t 1 * 2048 + 1 * k.val = k.val; omega

/-- A one-row window's block is its whole array at every point. -/
theorem iblk2_2_at (c : Dev nD) (t : Fin cfg2.N) (k : Fin 2048) :
    (iblk2 V c 2 t : S1x2048.Idx → EReal) (ix2 0 k) = (V c main_v51 : S1x2048.Idx → EReal) (ix2 0 k) := by
  have e := idx_facts2 t
  unfold iblk2
  rw [View.read_apply]
  show (V c main_v51 : S1x2048.Idx → EReal) _ = _
  refine congrArg _ (funext fun a => Fin.ext ?_)
  match a with
  | ⟨0, _⟩ => show win2_2.index t 0 * 1 + 1 * 0 = 0; omega
  | ⟨1, _⟩ => show win2_2.index t 1 * 2048 + 1 * k.val = k.val; omega

/-- A one-row window's block is its whole array at every point. -/
theorem iblk2_3_at (c : Dev nD) (t : Fin cfg2.N) (k : Fin 2048) :
    (iblk2 V c 3 t : S1x2048.Idx → EReal) (ix2 0 k) = (V c main_v52 : S1x2048.Idx → EReal) (ix2 0 k) := by
  have e := idx_facts2 t
  unfold iblk2
  rw [View.read_apply]
  show (V c main_v52 : S1x2048.Idx → EReal) _ = _
  refine congrArg _ (funext fun a => Fin.ext ?_)
  match a with
  | ⟨0, _⟩ => show win2_3.index t 0 * 1 + 1 * 0 = 0; omega
  | ⟨1, _⟩ => show win2_3.index t 1 * 2048 + 1 * k.val = k.val; omega

/-- A one-row window's block is its whole array at every point. -/
theorem iblk2_4_at (c : Dev nD) (t : Fin cfg2.N) (k : Fin 2048) :
    (iblk2 V c 4 t : S1x2048.Idx → EReal) (ix2 0 k) = (V c main_v53 : S1x2048.Idx → EReal) (ix2 0 k) := by
  have e := idx_facts2 t
  unfold iblk2
  rw [View.read_apply]
  show (V c main_v53 : S1x2048.Idx → EReal) _ = _
  refine congrArg _ (funext fun a => Fin.ext ?_)
  match a with
  | ⟨0, _⟩ => show win2_4.index t 0 * 1 + 1 * 0 = 0; omega
  | ⟨1, _⟩ => show win2_4.index t 1 * 2048 + 1 * k.val = k.val; omega

/-- A one-row window's block is its whole array at every point. -/
theorem iblk2_6_at (c : Dev nD) (t : Fin cfg2.N) (k : Fin 1024) :
    (iblk2 V c 6 t : S1x1024.Idx → EReal) (ix2 0 k) = (V c main_v23 : S1x1024.Idx → EReal) (ix2 0 k) := by
  have e := idx_facts2 t
  unfold iblk2
  rw [View.read_apply]
  show (V c main_v23 : S1x1024.Idx → EReal) _ = _
  refine congrArg _ (funext fun a => Fin.ext ?_)
  match a with
  | ⟨0, _⟩ => show win2_6.index t 0 * 1 + 1 * 0 = 0; omega
  | ⟨1, _⟩ => show win2_6.index t 1 * 1024 + 1 * k.val = k.val; omega

/-- The weights' block is the whole array at every point. -/
theorem iblk2_5_at (c : Dev nD) (t : Fin cfg2.N) (j : Fin 1024) (k : Fin 2048) :
    (iblk2 V c 5 t : S1024x2048.Idx → EReal) (ix2 j k) = (V c main_v19 : S1024x2048.Idx → EReal) (ix2 j k) := by
  have e := idx_facts2 t
  unfold iblk2
  rw [View.read_apply]
  show (V c main_v19 : S1024x2048.Idx → EReal) _ = _
  refine congrArg _ (funext fun a => Fin.ext ?_)
  match a with
  | ⟨0, _⟩ => show win2_5.index t 0 * 1024 + 1 * j.val = j.val; omega
  | ⟨1, _⟩ => show win2_5.index t 1 * 2048 + 1 * k.val = k.val; omega

/-- What point `t` writes back is block `t` of the layer's result. -/
theorem flushed2_eq (c : Dev nD) (t : Fin cfg2.N) :
    (dat2 V c).flushed 7 t = ((cfg2.win 7).blk t).view.read (Elt Ideal) (G2 V c) := by
  show (cfg2.win 7).cut (grid2.coords t) ((dat2 V c).after 7 t) = _
  rw [after2_7]
  unfold out2_7
  rw [View.canon_unit_zero hz]
  simp only [View.ld_unit_zero (S := S256x2048) hz, View.ld_unit_zero (S := S1x2048) hz, View.ld_unit_zero (S := S1024x2048) hz, View.ld_unit_zero (S := S1x1024) hz]
  funext y
  obtain ⟨-, -, e70, e71, -⟩ := idx_facts2 t
  have hy0 : (y 0).val < 256 := (y 0).isLt
  have hy1 : (y 1).val < 1024 := (y 1).isLt
  have ht : t.val < 64 := lt_of_lt_of_eq t.isLt N_2
  have hx : (cfg2.win 7).xinj (grid2.coords t) y = ix2 (⟨(y 0).val, hy0⟩ : Fin 256) (⟨(y 1).val, hy1⟩ : Fin 1024) :=
    funext fun a => Fin.ext (by match a with | ⟨0, _⟩ => rfl | ⟨1, _⟩ => rfl)
  have hr : ((cfg2.win 7).blk t).view.emb y
      = ix2 (⟨t.val * 256 + (y 0).val, by omega⟩ : Fin 16384) (⟨(y 1).val, hy1⟩ : Fin 1024) :=
    funext fun a => Fin.ext (by
      match a with
      | ⟨0, _⟩ => show win2_7.index t 0 * 256 + 1 * (y 0).val = t.val * 256 + (y 0).val; rw [e70]; omega
      | ⟨1, _⟩ => show win2_7.index t 1 * 1024 + 1 * (y 1).val = (y 1).val; rw [e71]; omega)
  show k2_pay1 (iblk2 V c 0 t) (iblk2 V c 1 t) (iblk2 V c 2 t) (iblk2 V c 3 t) (iblk2 V c 4 t) (iblk2 V c 5 t)
      (iblk2 V c 6 t) ((cfg2.win 7).xinj (grid2.coords t) y) = G2 V c (((cfg2.win 7).blk t).view.emb y)
  rw [hx, hr]
  refine (pay2_at (iblk2 V c 0 t) (iblk2 V c 1 t) (iblk2 V c 2 t) (iblk2 V c 3 t) (iblk2 V c 4 t) (iblk2 V c 5 t)
    (iblk2 V c 6 t) ⟨(y 0).val, hy0⟩ ⟨(y 1).val, hy1⟩).trans ?_
  refine Cert.LinCongr.linB_congr _ _ _ _ _ _ _ ⟨t.val * 256 + (y 0).val, by omega⟩ _ (fun k => ?_) (fun k => ?_) ?_
  · exact Cert.LinCongr.zrow_congr _ _ _ _ _ _ _ _ _ _ _ _ _
      (iblk2_0_at V c t ⟨(y 0).val, hy0⟩ k ⟨t.val * 256 + (y 0).val, by omega⟩ rfl)
      (iblk2_1_at V c t k) (iblk2_2_at V c t k) (iblk2_3_at V c t k) (iblk2_4_at V c t k)
  · exact iblk2_5_at V c t ⟨(y 1).val, hy1⟩ k
  · exact iblk2_6_at V c t ⟨(y 1).val, hy1⟩

/-- An index of the array is in point `t`'s block iff each coordinate is in the block's range on its axis. -/
theorem mem_blk2 (t : Fin cfg2.N) (i : S16384x1024.Idx) :
    i ∈ ((cfg2.win 7).blk t).view.set ↔ ∀ a : Fin 2, win2_7.index t a * S256x1024.size a ≤ (i a).val ∧ (i a).val < win2_7.index t a * S256x1024.size a + S256x1024.size a := by
  show i ∈ ((View.whole main_v54).slice (win2_7.rect t)).set ↔ _
  rw [View.set_slice_whole, Rect.mem_set_unit]
  exact Iff.rfl

/-- Every row is in the block of the point its number divided by 256 names. -/
theorem cover2 (i : S16384x1024.Idx) :
    ∃ t : Fin cfg2.N, (cfg2.win 7).flush t = true ∧ i ∈ ((cfg2.win 7).blk t).view.set := by
  have hi0 : (i 0).val < 16384 := (i 0).isLt
  have hi1 : (i 1).val < 1024 := (i 1).isLt
  have hN : cfg2.N = 64 := N_2
  refine ⟨⟨(i 0).val / 256, by rw [hN]; omega⟩, flush2_7 _, ?_⟩
  rw [mem_blk2]
  obtain ⟨-, -, e70, e71, -⟩ := idx_facts2 ⟨(i 0).val / 256, by rw [hN]; omega⟩
  intro a
  match a with
  | ⟨0, _⟩ =>
    show win2_7.index _ (0 : Fin 2) * 256 ≤ (i 0).val ∧ (i 0).val < win2_7.index _ (0 : Fin 2) * 256 + 256
    rw [e70]; show (i 0).val / 256 * 256 ≤ (i 0).val ∧ (i 0).val < (i 0).val / 256 * 256 + 256; omega
  | ⟨1, _⟩ =>
    show win2_7.index _ (1 : Fin 2) * 1024 ≤ (i 1).val ∧ (i 1).val < win2_7.index _ (1 : Fin 2) * 1024 + 1024
    rw [e71]; omega

/-- The third layer's output array after its region has run. -/
theorem region2 (c : Dev nD) :
    (dat2 V c).arrAt 7 cfg2.N = arr2 (linB (zrow (m2 (V c main_v43)) (r1 (V c main_v47)) (r1 (V c main_v51))
      (r1 (V c main_v52)) (r1 (V c main_v53))) (m2 (V c main_v19)) (r1 (V c main_v23))) :=
  (dat2 V c).arrAt_eq_of_cover 7 (G2 V c) (fun t _ => flushed2_eq V c t) cover2

end Cert.KernelIdeal.RegionValue

end
-- ==== Proof.Pay3.lean ====
/-
  What the fourth layer's body stores, entry by entry.

  The body normalises its block of activations with the four one-row arrays (subtract the first, multiply by the second
  and the third, add the fourth), takes the sign of each entry, multiplies the block of signs with the transposed
  weight block (contracting the last axis of both) into a zero accumulator, and adds the bias row.  At row `p` and
  column `j` that is `Σ_k sgn (z p k) · W j k + b j`, with `z` the normalised block.
-/
import proofs.«137791_j65661460021769_2_alg».proof.Proof.Gen.KernelIdeal.Skeleton
import proofs.«137791_j65661460021769_2_alg».proof.Proof.PayLib
import proofs.«137791_j65661460021769_2_alg».proof.Proof.LibDotRows

noncomputable section

namespace Cert.KernelIdeal.RegionValue

open Idealize.ShloMosaic Idealize.ShloMosaic.ValueIdx
open Cert.KernelIdeal Cert.KernelIdeal.Gen Cert.BinNet

/-- The fourth layer's payload at row `p`, column `j`. -/
theorem pay3_at (x0 : Vec Ideal S256x1024 .f32) (x1 x2 x3 x4 : Vec Ideal S1x1024 .f32)
    (x5 : Vec Ideal S512x1024 .bf16) (x6 : Vec Ideal S1x512 .f32) (p : Fin 256) (j : Fin 512) :
    k3_pay1 x0 x1 x2 x3 x4 x5 x6 (ix2 p j)
      = linB (zrow (m2 x0) (r1 x1) (r1 x2) (r1 x3) (r1 x4)) (m2 x5) (r1 x6) p j := by
  unfold k3_pay1
  simp only [shapeCast_self]
  unfold linB
  refine congrArg₂ (· + ·) ?_ (broadcastTo_1b_ab_apply x6 broadcasts_S1x512_S256x512 p j)
  refine (Cert.LibDotRows.matmul_zero_at (φ₁ := .bf16) (φ₂ := .bf16)
    dot_S256x1024_S512x1024_S256x512_1_1_0_0_n_n none rfl rfl
    (fun _ _ => rfl) (fun _ _ => rfl) (fun _ _ => rfl) (fun _ _ => rfl) _ x5 p j).trans ?_
  refine Finset.sum_congr rfl fun k _ => ?_
  refine congrArg (· * x5 (ix2 j k)) ?_
  refine (sign_at _ _ (ix2 p k)).trans ?_
  exact congrArg sg (znorm_at x0 x1 x2 x3 x4 broadcasts_S1x1024_S256x1024 p k)

end Cert.KernelIdeal.RegionValue

end
-- ==== Proof.RegionValue3.lean ====
/-
  The fourth layer's output array after its region has run, as one function of the arrays the region finds.

  The region visits 64 points; at point `t` its body sees rows `256 t … 256 t + 255` of the activations, the four
  statistics rows, the weights and the bias whole, and stores the layer's entries for those rows, which the point
  writes back to the same rows of the output.  An entry of a layer depends on one row of the activations only, so
  what a point writes back is the block of the layer computed on the whole arrays; the 64 blocks tile the output (row
  `r` is in the block of point `r / 256`), so the output ends holding the layer of the whole arrays.
-/
import proofs.«137791_j65661460021769_2_alg».proof.Proof.Gen.KernelIdeal.Frame
import proofs.«137791_j65661460021769_2_alg».proof.Proof.Pay3
import proofs.«137791_j65661460021769_2_alg».proof.Proof.LinCongr
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.RegionValue

open Cert.KernelIdeal Cert.KernelIdeal.Gen Cert.BinNet

variable (V : (c : Dev nD) → (b : Ref sig .tc) → Buf (Elt Ideal) ((c : Thread nD τ).loc b))

/-- The layer's result as one function of the arrays the region finds. -/
abbrev G3 (c : Dev nD) : S16384x512.Idx → EReal :=
  arr2 (linB (zrow (m2 (V c main_v54 : S16384x1024.Idx → EReal)) (r1 (V c main_v58 : S1x1024.Idx → EReal))
      (r1 (V c main_v62 : S1x1024.Idx → EReal)) (r1 (V c main_v63 : S1x1024.Idx → EReal))
      (r1 (V c main_v64 : S1x1024.Idx → EReal)))
    (m2 (V c main_v27 : S512x1024.Idx → EReal)) (r1 (V c main_v31 : S1x512.Idx → EReal)))

/-- The windows' block indices at every point: the activations and the output move with the point along the rows,
    every other window stays at block `(0, 0)`. -/
theorem idx_facts3 : ∀ t : Fin cfg3.N,
    win3_0.index t (0 : Fin 2) = t.val ∧ win3_0.index t (1 : Fin 2) = 0
    ∧ win3_7.index t (0 : Fin 2) = t.val ∧ win3_7.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-- The activations' block at point `t` is rows `256 t … 256 t + 255` of the array. -/
theorem iblk3_0_at (c : Dev nD) (t : Fin cfg3.N) (p : Fin 256) (k : Fin 1024) (r : Fin 16384)
    (hr : r.val = t.val * 256 + p.val) :
    (iblk3 V c 0 t : S256x1024.Idx → EReal) (ix2 p k) = (V c main_v54 : S16384x1024.Idx → EReal) (ix2 r k) := by
  obtain ⟨e0, e1, -⟩ := idx_facts3 t
  unfold iblk3
  rw [View.read_apply]
  show (V c main_v54 : S16384x1024.Idx → EReal) _ = _
  refine congrArg _ (funext fun a => Fin.ext ?_)
  match a with
  | ⟨0, _⟩ => show win3_0.index t 0 * 256 + 1 * p.val = r.val; rw [e0, hr]; omega
  | ⟨1, _⟩ => show win3_0.index t 1 * 1024 + 1 * k.val = k.val; rw [e1]; omega

/-- A one-row window's block is its whole array at every point. -/
theorem iblk3_1_at (c : Dev nD) (t : Fin cfg3.N) (k : Fin 1024) :
    (iblk3 V c 1 t : S1x1024.Idx → EReal) (ix2 0 k) = (V c main_v58 : S1x1024.Idx → EReal) (ix2 0 k) := by
  have e := idx_facts3 t
  unfold iblk3
  rw [View.read_apply]
  show (V c main_v58 : S1x1024.Idx → EReal) _ = _
  refine congrArg _ (funext fun a => Fin.ext ?_)
  match a with
  | ⟨0, _⟩ => show win3_1.index t 0 * 1 + 1 * 0 = 0; omega
  | ⟨1, _⟩ => show win3_1.index t 1 * 1024 + 1 * k.val = k.val; omega

/-- A one-row window's block is its whole array at every point. -/
theorem iblk3_2_at (c : Dev nD) (t : Fin cfg3.N) (k : Fin 1024) :
    (iblk3 V c 2 t : S1x1024.Idx → EReal) (ix2 0 k) = (V c main_v62 : S1x1024.Idx → EReal) (ix2 0 k) := by
  have e := idx_facts3 t
  unfold iblk3
  rw [View.read_apply]
  show (V c main_v62 : S1x1024.Idx → EReal) _ = _
  refine congrArg _ (funext fun a => Fin.ext ?_)
  match a with
  | ⟨0, _⟩ => show win3_2.index t 0 * 1 + 1 * 0 = 0; omega
  | ⟨1, _⟩ => show win3_2.index t 1 * 1024 + 1 * k.val = k.val; omega

/-- A one-row window's block is its whole array at every point. -/
theorem iblk3_3_at (c : Dev nD) (t : Fin cfg3.N) (k : Fin 1024) :
    (iblk3 V c 3 t : S1x1024.Idx → EReal) (ix2 0 k) = (V c main_v63 : S1x1024.Idx → EReal) (ix2 0 k) := by
  have e := idx_facts3 t
  unfold iblk3
  rw [View.read_apply]
  show (V c main_v63 : S1x1024.Idx → EReal) _ = _
  refine congrArg _ (funext fun a => Fin.ext ?_)
  match a with
  | ⟨0, _⟩ => show win3_3.index t 0 * 1 + 1 * 0 = 0; omega
  | ⟨1, _⟩ => show win3_3.index t 1 * 1024 + 1 * k.val = k.val; omega

/-- A one-row window's block is its whole array at every point. -/
theorem iblk3_4_at (c : Dev nD) (t : Fin cfg3.N) (k : Fin 1024) :
    (iblk3 V c 4 t : S1x1024.Idx → EReal) (ix2 0 k) = (V c main_v64 : S1x1024.Idx → EReal) (ix2 0 k) := by
  have e := idx_facts3 t
  unfold iblk3
  rw [View.read_apply]
  show (V c main_v64 : S1x1024.Idx → EReal) _ = _
  refine congrArg _ (funext fun a => Fin.ext ?_)
  match a with
  | ⟨0, _⟩ => show win3_4.index t 0 * 1 + 1 * 0 = 0; omega
  | ⟨1, _⟩ => show win3_4.index t 1 * 1024 + 1 * k.val = k.val; omega

/-- A one-row window's block is its whole array at every point. -/
theorem iblk3_6_at (c : Dev nD) (t : Fin cfg3.N) (k : Fin 512) :
    (iblk3 V c 6 t : S1x512.Idx → EReal) (ix2 0 k) = (V c main_v31 : S1x512.Idx → EReal) (ix2 0 k) := by
  have e := idx_facts3 t
  unfold iblk3
  rw [View.read_apply]
  show (V c main_v31 : S1x512.Idx → EReal) _ = _
  refine congrArg _ (funext fun a => Fin.ext ?_)
  match a with
  | ⟨0, _⟩ => show win3_6.index t 0 * 1 + 1 * 0 = 0; omega
  | ⟨1, _⟩ => show win3_6.index t 1 * 512 + 1 * k.val = k.val; omega

/-- The weights' block is the whole array at every point. -/
theorem iblk3_5_at (c : Dev nD) (t : Fin cfg3.N) (j : Fin 512) (k : Fin 1024) :
    (iblk3 V c 5 t : S512x1024.Idx → EReal) (ix2 j k) = (V c main_v27 : S512x1024.Idx → EReal) (ix2 j k) := by
  have e := idx_facts3 t
  unfold iblk3
  rw [View.read_apply]
  show (V c main_v27 : S512x1024.Idx → EReal) _ = _
  refine congrArg _ (funext fun a => Fin.ext ?_)
  match a with
  | ⟨0, _⟩ => show win3_5.index t 0 * 512 + 1 * j.val = j.val; omega
  | ⟨1, _⟩ => show win3_5.index t 1 * 1024 + 1 * k.val = k.val; omega

/-- What point `t` writes back is block `t` of the layer's result. -/
theorem flushed3_eq (c : Dev nD) (t : Fin cfg3.N) :
    (dat3 V c).flushed 7 t = ((cfg3.win 7).blk t).view.read (Elt Ideal) (G3 V c) := by
  show (cfg3.win 7).cut (grid3.coords t) ((dat3 V c).after 7 t) = _
  rw [after3_7]
  unfold out3_7
  rw [View.canon_unit_zero hz]
  simp only [View.ld_unit_zero (S := S256x1024) hz, View.ld_unit_zero (S := S1x1024) hz, View.ld_unit_zero (S := S512x1024) hz, View.ld_unit_zero (S := S1x512) hz]
  funext y
  obtain ⟨-, -, e70, e71, -⟩ := idx_facts3 t
  have hy0 : (y 0).val < 256 := (y 0).isLt
  have hy1 : (y 1).val < 512 := (y 1).isLt
  have ht : t.val < 64 := lt_of_lt_of_eq t.isLt N_3
  have hx : (cfg3.win 7).xinj (grid3.coords t) y = ix2 (⟨(y 0).val, hy0⟩ : Fin 256) (⟨(y 1).val, hy1⟩ : Fin 512) :=
    funext fun a => Fin.ext (by match a with | ⟨0, _⟩ => rfl | ⟨1, _⟩ => rfl)
  have hr : ((cfg3.win 7).blk t).view.emb y
      = ix2 (⟨t.val * 256 + (y 0).val, by omega⟩ : Fin 16384) (⟨(y 1).val, hy1⟩ : Fin 512) :=
    funext fun a => Fin.ext (by
      match a with
      | ⟨0, _⟩ => show win3_7.index t 0 * 256 + 1 * (y 0).val = t.val * 256 + (y 0).val; rw [e70]; omega
      | ⟨1, _⟩ => show win3_7.index t 1 * 512 + 1 * (y 1).val = (y 1).val; rw [e71]; omega)
  show k3_pay1 (iblk3 V c 0 t) (iblk3 V c 1 t) (iblk3 V c 2 t) (iblk3 V c 3 t) (iblk3 V c 4 t) (iblk3 V c 5 t)
      (iblk3 V c 6 t) ((cfg3.win 7).xinj (grid3.coords t) y) = G3 V c (((cfg3.win 7).blk t).view.emb y)
  rw [hx, hr]
  refine (pay3_at (iblk3 V c 0 t) (iblk3 V c 1 t) (iblk3 V c 2 t) (iblk3 V c 3 t) (iblk3 V c 4 t) (iblk3 V c 5 t)
    (iblk3 V c 6 t) ⟨(y 0).val, hy0⟩ ⟨(y 1).val, hy1⟩).trans ?_
  refine Cert.LinCongr.linB_congr _ _ _ _ _ _ _ ⟨t.val * 256 + (y 0).val, by omega⟩ _ (fun k => ?_) (fun k => ?_) ?_
  · exact Cert.LinCongr.zrow_congr _ _ _ _ _ _ _ _ _ _ _ _ _
      (iblk3_0_at V c t ⟨(y 0).val, hy0⟩ k ⟨t.val * 256 + (y 0).val, by omega⟩ rfl)
      (iblk3_1_at V c t k) (iblk3_2_at V c t k) (iblk3_3_at V c t k) (iblk3_4_at V c t k)
  · exact iblk3_5_at V c t ⟨(y 1).val, hy1⟩ k
  · exact iblk3_6_at V c t ⟨(y 1).val, hy1⟩

/-- An index of the array is in point `t`'s block iff each coordinate is in the block's range on its axis. -/
theorem mem_blk3 (t : Fin cfg3.N) (i : S16384x512.Idx) :
    i ∈ ((cfg3.win 7).blk t).view.set ↔ ∀ a : Fin 2, win3_7.index t a * S256x512.size a ≤ (i a).val ∧ (i a).val < win3_7.index t a * S256x512.size a + S256x512.size a := by
  show i ∈ ((View.whole main_v65).slice (win3_7.rect t)).set ↔ _
  rw [View.set_slice_whole, Rect.mem_set_unit]
  exact Iff.rfl

/-- Every row is in the block of the point its number divided by 256 names. -/
theorem cover3 (i : S16384x512.Idx) :
    ∃ t : Fin cfg3.N, (cfg3.win 7).flush t = true ∧ i ∈ ((cfg3.win 7).blk t).view.set := by
  have hi0 : (i 0).val < 16384 := (i 0).isLt
  have hi1 : (i 1).val < 512 := (i 1).isLt
  have hN : cfg3.N = 64 := N_3
  refine ⟨⟨(i 0).val / 256, by rw [hN]; omega⟩, flush3_7 _, ?_⟩
  rw [mem_blk3]
  obtain ⟨-, -, e70, e71, -⟩ := idx_facts3 ⟨(i 0).val / 256, by rw [hN]; omega⟩
  intro a
  match a with
  | ⟨0, _⟩ =>
    show win3_7.index _ (0 : Fin 2) * 256 ≤ (i 0).val ∧ (i 0).val < win3_7.index _ (0 : Fin 2) * 256 + 256
    rw [e70]; show (i 0).val / 256 * 256 ≤ (i 0).val ∧ (i 0).val < (i 0).val / 256 * 256 + 256; omega
  | ⟨1, _⟩ =>
    show win3_7.index _ (1 : Fin 2) * 512 ≤ (i 1).val ∧ (i 1).val < win3_7.index _ (1 : Fin 2) * 512 + 512
    rw [e71]; omega

/-- The fourth layer's output array after its region has run. -/
theorem region3 (c : Dev nD) :
    (dat3 V c).arrAt 7 cfg3.N = arr2 (linB (zrow (m2 (V c main_v54)) (r1 (V c main_v58)) (r1 (V c main_v62))
      (r1 (V c main_v63)) (r1 (V c main_v64))) (m2 (V c main_v27)) (r1 (V c main_v31))) :=
  (dat3 V c).arrAt_eq_of_cover 7 (G3 V c) (fun t _ => flushed3_eq V c t) cover3

end Cert.KernelIdeal.RegionValue

end
-- ==== Proof.RefOps.lean ====
/- The reference program's @main as the list of its host operations in program order, every call of an outlined
   function replaced by the callee's operations over the call's own buffers; the list is cut into consecutive
   stretches (one per stage of a layer), and each printed window of @main is the concatenation of its stretches.
   For every stretch: the buffers its operations touch are TensorCore buffers, none of its operations leaves a
   result undetermined, and the list of the buffers it writes (so that any other buffer keeps its contents). -/
import proofs.«137791_j65661460021769_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Stretch P1: 31 operations. -/
abbrev opsP1 : List (HloOp τ sig (Elt F)) :=
  [ StableHlo.nullary main_cst (constant S_ .f32 0x00000000#32),
    StableHlo.unary main_cst main_v0 (broadcastInDim S16384x3072 ![] bcast_S_S16384x3072 : (⟨S_, .f32⟩ : BufTy).Contents (Elt F) → (⟨S16384x3072, .f32⟩ : BufTy).Contents (Elt F)),
    StableHlo.binary main_arg0 main_v0 main_v1 (cmpf .oge : (⟨S16384x3072, .f32⟩ : BufTy).Contents (Elt F) → (⟨S16384x3072, .f32⟩ : BufTy).Contents (Elt F) → (⟨S16384x3072, .i1⟩ : BufTy).Contents (Elt F)),
    StableHlo.nullary main_cst_0 (constant S_ .f32 0x3F800000#32),
    StableHlo.unary main_cst_0 main_v2 (broadcastInDim S16384x3072 ![] bcast_S_S16384x3072 : (⟨S_, .f32⟩ : BufTy).Contents (Elt F) → (⟨S16384x3072, .f32⟩ : BufTy).Contents (Elt F)),
    StableHlo.nullary main_cst_1 (constant S_ .f32 0x3F800000#32),
    StableHlo.unary main_cst_1 main_v3 (broadcastInDim S16384x3072 ![] bcast_S_S16384x3072 : (⟨S_, .f32⟩ : BufTy).Contents (Elt F) → (⟨S16384x3072, .f32⟩ : BufTy).Contents (Elt F)),
    StableHlo.unary main_v3 main_v4 (Host.negf : (⟨S16384x3072, .f32⟩ : BufTy).Contents (Elt F) → (⟨S16384x3072, .f32⟩ : BufTy).Contents (Elt F)),
    StableHlo.TRef.ternary (.of main_v1 : StableHlo.TRef sig ⟨S16384x3072, .i1⟩) (.of main_v2 : StableHlo.TRef sig ⟨S16384x3072, .f32⟩) (.of main_v4 : StableHlo.TRef sig ⟨S16384x3072, .f32⟩) main_call0.v0 select,
    StableHlo.nullary main_cst_2 (constant S_ .f32 0x00000000#32),
    StableHlo.unary main_cst_2 main_v6 (broadcastInDim S2048x3072 ![] bcast_S_S2048x3072 : (⟨S_, .f32⟩ : BufTy).Contents (Elt F) → (⟨S2048x3072, .f32⟩ : BufTy).Contents (Elt F)),
    StableHlo.binary main_arg1 main_v6 main_v7 (cmpf .oge : (⟨S2048x3072, .f32⟩ : BufTy).Contents (Elt F) → (⟨S2048x3072, .f32⟩ : BufTy).Contents (Elt F) → (⟨S2048x3072, .i1⟩ : BufTy).Contents (Elt F)),
    StableHlo.nullary main_cst_3 (constant S_ .f32 0x3F800000#32),
    StableHlo.unary main_cst_3 main_v8 (broadcastInDim S2048x3072 ![] bcast_S_S2048x3072 : (⟨S_, .f32⟩ : BufTy).Contents (Elt F) → (⟨S2048x3072, .f32⟩ : BufTy).Contents (Elt F)),
    StableHlo.nullary main_cst_4 (constant S_ .f32 0x3F800000#32),
    StableHlo.unary main_cst_4 main_v9 (broadcastInDim S2048x3072 ![] bcast_S_S2048x3072 : (⟨S_, .f32⟩ : BufTy).Contents (Elt F) → (⟨S2048x3072, .f32⟩ : BufTy).Contents (Elt F)),
    StableHlo.unary main_v9 main_v10 (Host.negf : (⟨S2048x3072, .f32⟩ : BufTy).Contents (Elt F) → (⟨S2048x3072, .f32⟩ : BufTy).Contents (Elt F)),
    StableHlo.TRef.ternary (.of main_v7 : StableHlo.TRef sig ⟨S2048x3072, .i1⟩) (.of main_v8 : StableHlo.TRef sig ⟨S2048x3072, .f32⟩) (.of main_v10 : StableHlo.TRef sig ⟨S2048x3072, .f32⟩) main_call1.v0 select,
    StableHlo.binary main_v5 main_v11 main_v12 ((fun l r => Host.dotGeneral dot_S16384x3072_S2048x3072_S16384x2048_1_1_0_0_n_n none l r) : (⟨S16384x3072, .f32⟩ : BufTy).Contents (Elt F) → (⟨S2048x3072, .f32⟩ : BufTy).Contents (Elt F) → (⟨S16384x2048, .f32⟩ : BufTy).Contents (Elt F)),
    StableHlo.nullary main_cst_5 (constant S_ .f32 0x00000000#32),
    StableHlo.unary main_cst_5 main_v13 (broadcastInDim S2048 ![] bcast_S_S2048 : (⟨S_, .f32⟩ : BufTy).Contents (Elt F) → (⟨S2048, .f32⟩ : BufTy).Contents (Elt F)),
    StableHlo.binary main_arg2 main_v13 main_v14 (cmpf .oge : (⟨S2048, .f32⟩ : BufTy).Contents (Elt F) → (⟨S2048, .f32⟩ : BufTy).Contents (Elt F) → (⟨S2048, .i1⟩ : BufTy).Contents (Elt F)),
    StableHlo.nullary main_cst_6 (constant S_ .f32 0x3F800000#32),
    StableHlo.unary main_cst_6 main_v15 (broadcastInDim S2048 ![] bcast_S_S2048 : (⟨S_, .f32⟩ : BufTy).Contents (Elt F) → (⟨S2048, .f32⟩ : BufTy).Contents (Elt F)),
    StableHlo.nullary main_cst_7 (constant S_ .f32 0x3F800000#32),
    StableHlo.unary main_cst_7 main_v16 (broadcastInDim S2048 ![] bcast_S_S2048 : (⟨S_, .f32⟩ : BufTy).Contents (Elt F) → (⟨S2048, .f32⟩ : BufTy).Contents (Elt F)),
    StableHlo.unary main_v16 main_v17 (Host.negf : (⟨S2048, .f32⟩ : BufTy).Contents (Elt F) → (⟨S2048, .f32⟩ : BufTy).Contents (Elt F)),
    StableHlo.TRef.ternary (.of main_v14 : StableHlo.TRef sig ⟨S2048, .i1⟩) (.of main_v15 : StableHlo.TRef sig ⟨S2048, .f32⟩) (.of main_v17 : StableHlo.TRef sig ⟨S2048, .f32⟩) main_call2.v0 select,
    StableHlo.unary main_v18 main_v19 (broadcastInDim S1x2048 ![1] bcast_S2048_S1x2048_1 : (⟨S2048, .f32⟩ : BufTy).Contents (Elt F) → (⟨S1x2048, .f32⟩ : BufTy).Contents (Elt F)),
    StableHlo.unary main_v19 main_v20 (broadcastInDim S16384x2048 ![0, 1] bcast_S1x2048_S16384x2048_0_1 : (⟨S1x2048, .f32⟩ : BufTy).Contents (Elt F) → (⟨S16384x2048, .f32⟩ : BufTy).Contents (Elt F)),
    StableHlo.binary main_v12 main_v20 main_v21 (addf : (⟨S16384x2048, .f32⟩ : BufTy).Contents (Elt F) → (⟨S16384x2048, .f32⟩ : BufTy).Contents (Elt F) → (⟨S16384x2048, .f32⟩ : BufTy).Contents (Elt F)) ]

theorem opsP1_sub : (opsP1 : List (HloOp τ sig (Elt F))).Forall fun op => op.bufs ⊆ tcRefs τ sig :=
  ⟨nullary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., nullary_bufs_sub .., unary_bufs_sub .., unary_bufs_sub .., ternary_bufs_sub .., binary_bufs_sub .., nullary_bufs_sub .., unary_bufs_sub .., binary_bufs_sub .., nullary_bufs_sub .., unary_bufs_sub .., nullary_bufs_sub .., unary_bufs_sub .., unary_bufs_sub .., ternary_bufs_sub .., unary_bufs_sub .., unary_bufs_sub .., binary_bufs_sub ..⟩

theorem opsP1_fresh : (opsP1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers stretch P1 writes. -/
abbrev opsP1_W : List (Ref sig .tc) := [main_cst, main_v0, main_v1, main_cst_0, main_v2, main_cst_1, main_v3, main_v4, main_call0.v0.ref, main_cst_2, main_v6, main_v7, main_cst_3, main_v8, main_cst_4, main_v9, main_v10, main_call1.v0.ref, main_v12, main_cst_5, main_v13, main_v14, main_cst_6, main_v15, main_cst_7, main_v16, main_v17, main_call2.v0.ref, main_v19, main_v20, main_v21]

theorem opsP1_writes : (opsP1 : List (HloOp τ sig (Elt F))).Forall fun op => op.writes ⊆ (opsP1_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- Stretch P1 leaves every buffer it does not write as it was. -/
theorem opsP1_keep (V : Valuation τ sig (Elt F)) (r : Ref sig .tc) (h : r ∉ opsP1_W) :
    after opsP1 V (no_index (Proc.devRef .tc r)) = V (Proc.devRef .tc r) :=
  after_of_writes_sub opsP1 V opsP1_writes h

/-- Stretch Q1: 28 operations. -/
abbrev opsQ1 : List (HloOp τ sig (Elt F)) :=
  [ StableHlo.nullary main_cst_8 (constant S_ .f32 0x00000000#32),
    StableHlo.binary main_v21 main_cst_8 main_v22 ((fun x v => Host.reduceAdd x v reducesTo_S16384x2048_S2048_d0 h_S_) : (⟨S16384x2048, .f32⟩ : BufTy).Contents (Elt F) → (⟨S_, .f32⟩ : BufTy).Contents (Elt F) → (⟨S2048, .f32⟩ : BufTy).Contents (Elt F)),
    StableHlo.nullary main_cst_9 (constant S_ .f32 0x46800000#32),
    StableHlo.unary main_cst_9 main_v23 (broadcastInDim S2048 ![] bcast_S_S2048 : (⟨S_, .f32⟩ : BufTy).Contents (Elt F) → (⟨S2048, .f32⟩ : BufTy).Contents (Elt F)),
    StableHlo.binary main_v22 main_v23 main_v24 (Host.divf : (⟨S2048, .f32⟩ : BufTy).Contents (Elt F) → (⟨S2048, .f32⟩ : BufTy).Contents (Elt F) → (⟨S2048, .f32⟩ : BufTy).Contents (Elt F)),
    StableHlo.nullary main_c (constantI S_ 32 0#32),
    StableHlo.TRef.nullary main_call3.cst (constant S_ .f32 0x00000000#32),
    StableHlo.TRef.binary (.of main_v21 : StableHlo.TRef sig ⟨S16384x2048, .f32⟩) main_call3.cst main_call3.v0 (fun x v => Host.reduceAdd x v reducesTo_S16384x2048_S2048_d0 h_S_),
    StableHlo.TRef.unary main_call3.v0 main_call3.v1 (broadcastInDim S1x2048 ![1] bcast_S2048_S1x2048_1),
    StableHlo.TRef.nullary main_call3.cst_0 (constant S_ .f32 0x46800000#32),
    StableHlo.TRef.unary main_call3.cst_0 main_call3.v2 (broadcastInDim S1x2048 ![] bcast_S_S1x2048),
    StableHlo.TRef.binary main_call3.v1 main_call3.v2 main_call3.v3 Host.divf,
    StableHlo.TRef.unary main_call3.v3 main_call3.v4 (broadcastInDim S16384x2048 ![0, 1] bcast_S1x2048_S16384x2048_0_1),
    StableHlo.TRef.binary (.of main_v21 : StableHlo.TRef sig ⟨S16384x2048, .f32⟩) main_call3.v4 main_call3.v5 subf,
    StableHlo.TRef.binary main_call3.v5 main_call3.v5 main_call3.v6 mulf,
    StableHlo.TRef.unary (.of main_c : StableHlo.TRef sig ⟨S_, .i32⟩) main_call3.v7 (sitofp .f32),
    StableHlo.TRef.nullary main_call3.cst_1 (constant S_ .f32 0x46800000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S16384x2048_S2048_d0 h_S_),
    StableHlo.TRef.unary main_call3.v8 main_call3.v10 (broadcastInDim S2048 ![] bcast_S_S2048),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S2048 ![] bcast_S_S2048),
    StableHlo.TRef.ternary main_call3.v12 main_call3.v11 main_call3.call0.v1 main_call3.call0.v2 (fun p a b => select (broadcastInDim S2048 ![] bcast_S_S2048 p) a b) ]

theorem opsQ1_sub : (opsQ1 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem opsQ1_fresh : (opsQ1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

/-- The buffers stretch Q1 writes. -/
abbrev opsQ1_W : List (Ref sig .tc) := [main_cst_8, main_v22, main_cst_9, main_v23, main_v24, main_c, main_call3.cst.ref, main_call3.v0.ref, main_call3.v1.ref, main_call3.cst_0.ref, main_call3.v2.ref, main_call3.v3.ref, main_call3.v4.ref, main_call3.v5.ref, main_call3.v6.ref, main_call3.v7.ref, main_call3.cst_1.ref, main_call3.v8.ref, main_call3.cst_2.ref, main_call3.v9.ref, main_call3.v10.ref, main_call3.v11.ref, main_call3.cst_3.ref, main_call3.v12.ref, main_call3.cst_4.ref, main_call3.call0.v0.ref, main_call3.call0.v1.ref, main_call3.call0.v2.ref]

theorem opsQ1_writes : (opsQ1 : List (HloOp τ sig (Elt F))).Forall fun op => op.writes ⊆ (opsQ1_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- Stretch Q1 leaves every buffer it does not write as it was. -/
theorem opsQ1_keep (V : Valuation τ sig (Elt F)) (r : Ref sig .tc) (h : r ∉ opsQ1_W) :
    after opsQ1 V (no_index (Proc.devRef .tc r)) = V (Proc.devRef .tc r) :=
  after_of_writes_sub opsQ1 V opsQ1_writes h

/-- Stretch R1: 24 operations. -/
abbrev opsR1 : List (HloOp τ sig (Elt F)) :=
  [ StableHlo.unary main_v24 main_v26 (broadcastInDim S1x2048 ![1] bcast_S2048_S1x2048_1 : (⟨S2048, .f32⟩ : BufTy).Contents (Elt F) → (⟨S1x2048, .f32⟩ : BufTy).Contents (Elt F)),
    StableHlo.unary main_v26 main_v27 (broadcastInDim S16384x2048 ![0, 1] bcast_S1x2048_S16384x2048_0_1 : (⟨S1x2048, .f32⟩ : BufTy).Contents (Elt F) → (⟨S16384x2048, .f32⟩ : BufTy).Contents (Elt F)),
    StableHlo.binary main_v21 main_v27 main_v28 (subf : (⟨S16384x2048, .f32⟩ : BufTy).Contents (Elt F) → (⟨S16384x2048, .f32⟩ : BufTy).Contents (Elt F) → (⟨S16384x2048, .f32⟩ : BufTy).Contents (Elt F)),
    StableHlo.nullary main_cst_10 (constant S_ .f32 0x3727C5AC#32),
    StableHlo.unary main_cst_10 main_v29 (broadcastInDim S2048 ![] bcast_S_S2048 : (⟨S_, .f32⟩ : BufTy).Contents (Elt F) → (⟨S2048, .f32⟩ : BufTy).Contents (Elt F)),
    StableHlo.binary main_v25 main_v29 main_v30 (addf : (⟨S2048, .f32⟩ : BufTy).Contents (Elt F) → (⟨S2048, .f32⟩ : BufTy).Contents (Elt F) → (⟨S2048, .f32⟩ : BufTy).Contents (Elt F)),
    StableHlo.unary main_v30 main_v31 (Host.rsqrt : (⟨S2048, .f32⟩ : BufTy).Contents (Elt F) → (⟨S2048, .f32⟩ : BufTy).Contents (Elt F)),
    StableHlo.unary main_v31 main_v32 (broadcastInDim S1x2048 ![1] bcast_S2048_S1x2048_1 : (⟨S2048, .f32⟩ : BufTy).Contents (Elt F) → (⟨S1x2048, .f32⟩ : BufTy).Contents (Elt F)),
    StableHlo.unary main_v32 main_v33 (broadcastInDim S16384x2048 ![0, 1] bcast_S1x2048_S16384x2048_0_1 : (⟨S1x2048, .f32⟩ : BufTy).Contents (Elt F) → (⟨S16384x2048, .f32⟩ : BufTy).Contents (Elt F)),
    StableHlo.binary main_v28 main_v33 main_v34 (mulf : (⟨S16384x2048, .f32⟩ : BufTy).Contents (Elt F) → (⟨S16384x2048, .f32⟩ : BufTy).Contents (Elt F) → (⟨S16384x2048, .f32⟩ : BufTy).Contents (Elt F)),
    StableHlo.unary main_arg3 main_v35 (broadcastInDim S1x2048 ![1] bcast_S2048_S1x2048_1 : (⟨S2048, .f32⟩ : BufTy).Contents (Elt F) → (⟨S1x2048, .f32⟩ : BufTy).Contents (Elt F)),
    StableHlo.unary main_v35 main_v36 (broadcastInDim S16384x2048 ![0, 1] bcast_S1x2048_S16384x2048_0_1 : (⟨S1x2048, .f32⟩ : BufTy).Contents (Elt F) → (⟨S16384x2048, .f32⟩ : BufTy).Contents (Elt F)),
    StableHlo.binary main_v34 main_v36 main_v37 (mulf : (⟨S16384x2048, .f32⟩ : BufTy).Contents (Elt F) → (⟨S16384x2048, .f32⟩ : BufTy).Contents (Elt F) → (⟨S16384x2048, .f32⟩ : BufTy).Contents (Elt F)),
    StableHlo.unary main_arg4 main_v38 (broadcastInDim S1x2048 ![1] bcast_S2048_S1x2048_1 : (⟨S2048, .f32⟩ : BufTy).Contents (Elt F) → (⟨S1x2048, .f32⟩ : BufTy).Contents (Elt F)),
    StableHlo.unary main_v38 main_v39 (broadcastInDim S16384x2048 ![0, 1] bcast_S1x2048_S16384x2048_0_1 : (⟨S1x2048, .f32⟩ : BufTy).Contents (Elt F) → (⟨S16384x2048, .f32⟩ : BufTy).Contents (Elt F)),
    StableHlo.binary main_v37 main_v39 main_v40 (addf : (⟨S16384x2048, .f32⟩ : BufTy).Contents (Elt F) → (⟨S16384x2048, .f32⟩ : BufTy).Contents (Elt F) → (⟨S16384x2048, .f32⟩ : BufTy).Contents (Elt F)),
    StableHlo.nullary main_cst_11 (constant S_ .f32 0xBF800000#32),
    StableHlo.nullary main_cst_12 (constant S_ .f32 0x3F800000#32),
    StableHlo.TRef.unary (.of main_cst_11 : StableHlo.TRef sig ⟨S_, .f32⟩) main_call4.v0 id,
    StableHlo.TRef.unary main_call4.v0 main_call4.v1 (broadcastInDim S16384x2048 ![] bcast_S_S16384x2048),
    StableHlo.TRef.binary main_call4.v1 (.of main_v40 : StableHlo.TRef sig ⟨S16384x2048, .f32⟩) main_call4.v2 maximumf,
    StableHlo.TRef.unary (.of main_cst_12 : StableHlo.TRef sig ⟨S_, .f32⟩) main_call4.v3 id,
    StableHlo.TRef.unary main_call4.v3 main_call4.v4 (broadcastInDim S16384x2048 ![] bcast_S_S16384x2048),
    StableHlo.TRef.binary main_call4.v4 main_call4.v2 main_call4.v5 minimumf ]

theorem opsR1_sub : (opsR1 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub ..⟩

theorem opsR1_fresh : (opsR1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

/-- The buffers stretch R1 writes. -/
abbrev opsR1_W : List (Ref sig .tc) := [main_v26, main_v27, main_v28, main_cst_10, main_v29, main_v30, main_v31, main_v32, main_v33, main_v34, main_v35, main_v36, main_v37, main_v38, main_v39, main_v40, main_cst_11, main_cst_12, main_call4.v0.ref, main_call4.v1.ref, main_call4.v2.ref, main_call4.v3.ref, main_call4.v4.ref, main_call4.v5.ref]

theorem opsR1_writes : (opsR1 : List (HloOp τ sig (Elt F))).Forall fun op => op.writes ⊆ (opsR1_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- Stretch R1 leaves every buffer it does not write as it was. -/
theorem opsR1_keep (V : Valuation τ sig (Elt F)) (r : Ref sig .tc) (h : r ∉ opsR1_W) :
    after opsR1 V (no_index (Proc.devRef .tc r)) = V (Proc.devRef .tc r) :=
  after_of_writes_sub opsR1 V opsR1_writes h

/-- Stretch A2: 3 operations. -/
abbrev opsA2 : List (HloOp τ sig (Elt F)) :=
  [ StableHlo.nullary main_cst_13 (constant S_ .f32 0x00000000#32),
    StableHlo.unary main_cst_13 main_v42 (broadcastInDim S16384x2048 ![] bcast_S_S16384x2048 : (⟨S_, .f32⟩ : BufTy).Contents (Elt F) → (⟨S16384x2048, .f32⟩ : BufTy).Contents (Elt F)),
    StableHlo.binary main_v41 main_v42 main_v43 (cmpf .oge : (⟨S16384x2048, .f32⟩ : BufTy).Contents (Elt F) → (⟨S16384x2048, .f32⟩ : BufTy).Contents (Elt F) → (⟨S16384x2048, .i1⟩ : BufTy).Contents (Elt F)) ]

theorem opsA2_sub : (opsA2 : List (HloOp τ sig (Elt F))).Forall fun op => op.bufs ⊆ tcRefs τ sig :=
  ⟨nullary_bufs_sub .., unary_bufs_sub .., binary_bufs_sub ..⟩

theorem opsA2_fresh : (opsA2 : List (HloOp τ sig (Elt F))).Forall fun op => op.fresh = ∅ :=
  ⟨rfl, rfl, rfl⟩

/-- The buffers stretch A2 writes. -/
abbrev opsA2_W : List (Ref sig .tc) := [main_cst_13, main_v42, main_v43]

theorem opsA2_writes : (opsA2 : List (HloOp τ sig (Elt F))).Forall fun op => op.writes ⊆ (opsA2_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- Stretch A2 leaves every buffer it does not write as it was. -/
theorem opsA2_keep (V : Valuation τ sig (Elt F)) (r : Ref sig .tc) (h : r ∉ opsA2_W) :
    after opsA2 V (no_index (Proc.devRef .tc r)) = V (Proc.devRef .tc r) :=
  after_of_writes_sub opsA2 V opsA2_writes h

/-- @main's window 0: its stretches in order. -/
abbrev ops0 : List (HloOp τ sig (Elt F)) := opsP1 ++ (opsQ1 ++ (opsR1 ++ (opsA2)))

/-- Stretch P2: 28 operations. -/
abbrev opsP2 : List (HloOp τ sig (Elt F)) :=
  [ StableHlo.nullary main_cst_14 (constant S_ .f32 0x3F800000#32),
    StableHlo.unary main_cst_14 main_v44 (broadcastInDim S16384x2048 ![] bcast_S_S16384x2048 : (⟨S_, .f32⟩ : BufTy).Contents (Elt F) → (⟨S16384x2048, .f32⟩ : BufTy).Contents (Elt F)),
    StableHlo.nullary main_cst_15 (constant S_ .f32 0x3F800000#32),
    StableHlo.unary main_cst_15 main_v45 (broadcastInDim S16384x2048 ![] bcast_S_S16384x2048 : (⟨S_, .f32⟩ : BufTy).Contents (Elt F) → (⟨S16384x2048, .f32⟩ : BufTy).Contents (Elt F)),
    StableHlo.unary main_v45 main_v46 (Host.negf : (⟨S16384x2048, .f32⟩ : BufTy).Contents (Elt F) → (⟨S16384x2048, .f32⟩ : BufTy).Contents (Elt F)),
    StableHlo.TRef.ternary (.of main_v43 : StableHlo.TRef sig ⟨S16384x2048, .i1⟩) (.of main_v44 : StableHlo.TRef sig ⟨S16384x2048, .f32⟩) (.of main_v46 : StableHlo.TRef sig ⟨S16384x2048, .f32⟩) main_call5.v0 select,
    StableHlo.nullary main_cst_16 (constant S_ .f32 0x00000000#32),
    StableHlo.unary main_cst_16 main_v48 (broadcastInDim S2048x2048 ![] bcast_S_S2048x2048 : (⟨S_, .f32⟩ : BufTy).Contents (Elt F) → (⟨S2048x2048, .f32⟩ : BufTy).Contents (Elt F)),
    StableHlo.binary main_arg5 main_v48 main_v49 (cmpf .oge : (⟨S2048x2048, .f32⟩ : BufTy).Contents (Elt F) → (⟨S2048x2048, .f32⟩ : BufTy).Contents (Elt F) → (⟨S2048x2048, .i1⟩ : BufTy).Contents (Elt F)),
    StableHlo.nullary main_cst_17 (constant S_ .f32 0x3F800000#32),
    StableHlo.unary main_cst_17 main_v50 (broadcastInDim S2048x2048 ![] bcast_S_S2048x2048 : (⟨S_, .f32⟩ : BufTy).Contents (Elt F) → (⟨S2048x2048, .f32⟩ : BufTy).Contents (Elt F)),
    StableHlo.nullary main_cst_18 (constant S_ .f32 0x3F800000#32),
    StableHlo.unary main_cst_18 main_v51 (broadcastInDim S2048x2048 ![] bcast_S_S2048x2048 : (⟨S_, .f32⟩ : BufTy).Contents (Elt F) → (⟨S2048x2048, .f32⟩ : BufTy).Contents (Elt F)),
    StableHlo.unary main_v51 main_v52 (Host.negf : (⟨S2048x2048, .f32⟩ : BufTy).Contents (Elt F) → (⟨S2048x2048, .f32⟩ : BufTy).Contents (Elt F)),
    StableHlo.TRef.ternary (.of main_v49 : StableHlo.TRef sig ⟨S2048x2048, .i1⟩) (.of main_v50 : StableHlo.TRef sig ⟨S2048x2048, .f32⟩) (.of main_v52 : StableHlo.TRef sig ⟨S2048x2048, .f32⟩) main_call6.v0 select,
    StableHlo.binary main_v47 main_v53 main_v54 ((fun l r => Host.dotGeneral dot_S16384x2048_S2048x2048_S16384x2048_1_1_0_0_n_n none l r) : (⟨S16384x2048, .f32⟩ : BufTy).Contents (Elt F) → (⟨S2048x2048, .f32⟩ : BufTy).Contents (Elt F) → (⟨S16384x2048, .f32⟩ : BufTy).Contents (Elt F)),
    StableHlo.nullary main_cst_19 (constant S_ .f32 0x00000000#32),
    StableHlo.unary main_cst_19 main_v55 (broadcastInDim S2048 ![] bcast_S_S2048 : (⟨S_, .f32⟩ : BufTy).Contents (Elt F) → (⟨S2048, .f32⟩ : BufTy).Contents (Elt F)),
    StableHlo.binary main_arg6 main_v55 main_v56 (cmpf .oge : (⟨S2048, .f32⟩ : BufTy).Contents (Elt F) → (⟨S2048, .f32⟩ : BufTy).Contents (Elt F) → (⟨S2048, .i1⟩ : BufTy).Contents (Elt F)),
    StableHlo.nullary main_cst_20 (constant S_ .f32 0x3F800000#32),
    StableHlo.unary main_cst_20 main_v57 (broadcastInDim S2048 ![] bcast_S_S2048 : (⟨S_, .f32⟩ : BufTy).Contents (Elt F) → (⟨S2048, .f32⟩ : BufTy).Contents (Elt F)),
    StableHlo.nullary main_cst_21 (constant S_ .f32 0x3F800000#32),
    StableHlo.unary main_cst_21 main_v58 (broadcastInDim S2048 ![] bcast_S_S2048 : (⟨S_, .f32⟩ : BufTy).Contents (Elt F) → (⟨S2048, .f32⟩ : BufTy).Contents (Elt F)),
    StableHlo.unary main_v58 main_v59 (Host.negf : (⟨S2048, .f32⟩ : BufTy).Contents (Elt F) → (⟨S2048, .f32⟩ : BufTy).Contents (Elt F)),
    StableHlo.TRef.ternary (.of main_v56 : StableHlo.TRef sig ⟨S2048, .i1⟩) (.of main_v57 : StableHlo.TRef sig ⟨S2048, .f32⟩) (.of main_v59 : StableHlo.TRef sig ⟨S2048, .f32⟩) main_call7.v0 select,
    StableHlo.unary main_v60 main_v61 (broadcastInDim S1x2048 ![1] bcast_S2048_S1x2048_1 : (⟨S2048, .f32⟩ : BufTy).Contents (Elt F) → (⟨S1x2048, .f32⟩ : BufTy).Contents (Elt F)),
    StableHlo.unary main_v61 main_v62 (broadcastInDim S16384x2048 ![0, 1] bcast_S1x2048_S16384x2048_0_1 : (⟨S1x2048, .f32⟩ : BufTy).Contents (Elt F) → (⟨S16384x2048, .f32⟩ : BufTy).Contents (Elt F)),
    StableHlo.binary main_v54 main_v62 main_v63 (addf : (⟨S16384x2048, .f32⟩ : BufTy).Contents (Elt F) → (⟨S16384x2048, .f32⟩ : BufTy).Contents (Elt F) → (⟨S16384x2048, .f32⟩ : BufTy).Contents (Elt F)) ]

theorem opsP2_sub : (opsP2 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., nullary_bufs_sub .., unary_bufs_sub .., unary_bufs_sub .., ternary_bufs_sub .., binary_bufs_sub .., nullary_bufs_sub .., unary_bufs_sub .., binary_bufs_sub .., nullary_bufs_sub .., unary_bufs_sub .., nullary_bufs_sub .., unary_bufs_sub .., unary_bufs_sub .., ternary_bufs_sub .., unary_bufs_sub .., unary_bufs_sub .., binary_bufs_sub ..⟩

theorem opsP2_fresh : (opsP2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

/-- The buffers stretch P2 writes. -/
abbrev opsP2_W : List (Ref sig .tc) := [main_cst_14, main_v44, main_cst_15, main_v45, main_v46, main_call5.v0.ref, main_cst_16, main_v48, main_v49, main_cst_17, main_v50, main_cst_18, main_v51, main_v52, main_call6.v0.ref, main_v54, main_cst_19, main_v55, main_v56, main_cst_20, main_v57, main_cst_21, main_v58, main_v59, main_call7.v0.ref, main_v61, main_v62, main_v63]

theorem opsP2_writes : (opsP2 : List (HloOp τ sig (Elt F))).Forall fun op => op.writes ⊆ (opsP2_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- Stretch P2 leaves every buffer it does not write as it was. -/
theorem opsP2_keep (V : Valuation τ sig (Elt F)) (r : Ref sig .tc) (h : r ∉ opsP2_W) :
    after opsP2 V (no_index (Proc.devRef .tc r)) = V (Proc.devRef .tc r) :=
  after_of_writes_sub opsP2 V opsP2_writes h

/-- Stretch Q2: 28 operations. -/
abbrev opsQ2 : List (HloOp τ sig (Elt F)) :=
  [ StableHlo.nullary main_cst_22 (constant S_ .f32 0x00000000#32),
    StableHlo.binary main_v63 main_cst_22 main_v64 ((fun x v => Host.reduceAdd x v reducesTo_S16384x2048_S2048_d0 h_S_) : (⟨S16384x2048, .f32⟩ : BufTy).Contents (Elt F) → (⟨S_, .f32⟩ : BufTy).Contents (Elt F) → (⟨S2048, .f32⟩ : BufTy).Contents (Elt F)),
    StableHlo.nullary main_cst_23 (constant S_ .f32 0x46800000#32),
    StableHlo.unary main_cst_23 main_v65 (broadcastInDim S2048 ![] bcast_S_S2048 : (⟨S_, .f32⟩ : BufTy).Contents (Elt F) → (⟨S2048, .f32⟩ : BufTy).Contents (Elt F)),
    StableHlo.binary main_v64 main_v65 main_v66 (Host.divf : (⟨S2048, .f32⟩ : BufTy).Contents (Elt F) → (⟨S2048, .f32⟩ : BufTy).Contents (Elt F) → (⟨S2048, .f32⟩ : BufTy).Contents (Elt F)),
    StableHlo.nullary main_c_24 (constantI S_ 32 0#32),
    StableHlo.TRef.nullary main_call8.cst (constant S_ .f32 0x00000000#32),
    StableHlo.TRef.binary (.of main_v63 : StableHlo.TRef sig ⟨S16384x2048, .f32⟩) main_call8.cst main_call8.v0 (fun x v => Host.reduceAdd x v reducesTo_S16384x2048_S2048_d0 h_S_),
    StableHlo.TRef.unary main_call8.v0 main_call8.v1 (broadcastInDim S1x2048 ![1] bcast_S2048_S1x2048_1),
    StableHlo.TRef.nullary main_call8.cst_0 (constant S_ .f32 0x46800000#32),
    StableHlo.TRef.unary main_call8.cst_0 main_call8.v2 (broadcastInDim S1x2048 ![] bcast_S_S1x2048),
    StableHlo.TRef.binary main_call8.v1 main_call8.v2 main_call8.v3 Host.divf,
    StableHlo.TRef.unary main_call8.v3 main_call8.v4 (broadcastInDim S16384x2048 ![0, 1] bcast_S1x2048_S16384x2048_0_1),
    StableHlo.TRef.binary (.of main_v63 : StableHlo.TRef sig ⟨S16384x2048, .f32⟩) main_call8.v4 main_call8.v5 subf,
    StableHlo.TRef.binary main_call8.v5 main_call8.v5 main_call8.v6 mulf,
    StableHlo.TRef.unary (.of main_c_24 : StableHlo.TRef sig ⟨S_, .i32⟩) main_call8.v7 (sitofp .f32),
    StableHlo.TRef.nullary main_call8.cst_1 (constant S_ .f32 0x46800000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S16384x2048_S2048_d0 h_S_),
    StableHlo.TRef.unary main_call8.v8 main_call8.v10 (broadcastInDim S2048 ![] bcast_S_S2048),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S2048 ![] bcast_S_S2048),
    StableHlo.TRef.ternary main_call8.v12 main_call8.v11 main_call8.call0.v1 main_call8.call0.v2 (fun p a b => select (broadcastInDim S2048 ![] bcast_S_S2048 p) a b) ]

theorem opsQ2_sub : (opsQ2 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem opsQ2_fresh : (opsQ2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

/-- The buffers stretch Q2 writes. -/
abbrev opsQ2_W : List (Ref sig .tc) := [main_cst_22, main_v64, main_cst_23, main_v65, main_v66, main_c_24, main_call8.cst.ref, main_call8.v0.ref, main_call8.v1.ref, main_call8.cst_0.ref, main_call8.v2.ref, main_call8.v3.ref, main_call8.v4.ref, main_call8.v5.ref, main_call8.v6.ref, main_call8.v7.ref, main_call8.cst_1.ref, main_call8.v8.ref, main_call8.cst_2.ref, main_call8.v9.ref, main_call8.v10.ref, main_call8.v11.ref, main_call8.cst_3.ref, main_call8.v12.ref, main_call8.cst_4.ref, main_call8.call0.v0.ref, main_call8.call0.v1.ref, main_call8.call0.v2.ref]

theorem opsQ2_writes : (opsQ2 : List (HloOp τ sig (Elt F))).Forall fun op => op.writes ⊆ (opsQ2_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- Stretch Q2 leaves every buffer it does not write as it was. -/
theorem opsQ2_keep (V : Valuation τ sig (Elt F)) (r : Ref sig .tc) (h : r ∉ opsQ2_W) :
    after opsQ2 V (no_index (Proc.devRef .tc r)) = V (Proc.devRef .tc r) :=
  after_of_writes_sub opsQ2 V opsQ2_writes h

/-- Stretch R2: 24 operations. -/
abbrev opsR2 : List (HloOp τ sig (Elt F)) :=
  [ StableHlo.unary main_v66 main_v68 (broadcastInDim S1x2048 ![1] bcast_S2048_S1x2048_1 : (⟨S2048, .f32⟩ : BufTy).Contents (Elt F) → (⟨S1x2048, .f32⟩ : BufTy).Contents (Elt F)),
    StableHlo.unary main_v68 main_v69 (broadcastInDim S16384x2048 ![0, 1] bcast_S1x2048_S16384x2048_0_1 : (⟨S1x2048, .f32⟩ : BufTy).Contents (Elt F) → (⟨S16384x2048, .f32⟩ : BufTy).Contents (Elt F)),
    StableHlo.binary main_v63 main_v69 main_v70 (subf : (⟨S16384x2048, .f32⟩ : BufTy).Contents (Elt F) → (⟨S16384x2048, .f32⟩ : BufTy).Contents (Elt F) → (⟨S16384x2048, .f32⟩ : BufTy).Contents (Elt F)),
    StableHlo.nullary main_cst_25 (constant S_ .f32 0x3727C5AC#32),
    StableHlo.unary main_cst_25 main_v71 (broadcastInDim S2048 ![] bcast_S_S2048 : (⟨S_, .f32⟩ : BufTy).Contents (Elt F) → (⟨S2048, .f32⟩ : BufTy).Contents (Elt F)),
    StableHlo.binary main_v67 main_v71 main_v72 (addf : (⟨S2048, .f32⟩ : BufTy).Contents (Elt F) → (⟨S2048, .f32⟩ : BufTy).Contents (Elt F) → (⟨S2048, .f32⟩ : BufTy).Contents (Elt F)),
    StableHlo.unary main_v72 main_v73 (Host.rsqrt : (⟨S2048, .f32⟩ : BufTy).Contents (Elt F) → (⟨S2048, .f32⟩ : BufTy).Contents (Elt F)),
    StableHlo.unary main_v73 main_v74 (broadcastInDim S1x2048 ![1] bcast_S2048_S1x2048_1 : (⟨S2048, .f32⟩ : BufTy).Contents (Elt F) → (⟨S1x2048, .f32⟩ : BufTy).Contents (Elt F)),
    StableHlo.unary main_v74 main_v75 (broadcastInDim S16384x2048 ![0, 1] bcast_S1x2048_S16384x2048_0_1 : (⟨S1x2048, .f32⟩ : BufTy).Contents (Elt F) → (⟨S16384x2048, .f32⟩ : BufTy).Contents (Elt F)),
    StableHlo.binary main_v70 main_v75 main_v76 (mulf : (⟨S16384x2048, .f32⟩ : BufTy).Contents (Elt F) → (⟨S16384x2048, .f32⟩ : BufTy).Contents (Elt F) → (⟨S16384x2048, .f32⟩ : BufTy).Contents (Elt F)),
    StableHlo.unary main_arg7 main_v77 (broadcastInDim S1x2048 ![1] bcast_S2048_S1x2048_1 : (⟨S2048, .f32⟩ : BufTy).Contents (Elt F) → (⟨S1x2048, .f32⟩ : BufTy).Contents (Elt F)),
    StableHlo.unary main_v77 main_v78 (broadcastInDim S16384x2048 ![0, 1] bcast_S1x2048_S16384x2048_0_1 : (⟨S1x2048, .f32⟩ : BufTy).Contents (Elt F) → (⟨S16384x2048, .f32⟩ : BufTy).Contents (Elt F)),
    StableHlo.binary main_v76 main_v78 main_v79 (mulf : (⟨S16384x2048, .f32⟩ : BufTy).Contents (Elt F) → (⟨S16384x2048, .f32⟩ : BufTy).Contents (Elt F) → (⟨S16384x2048, .f32⟩ : BufTy).Contents (Elt F)),
    StableHlo.unary main_arg8 main_v80 (broadcastInDim S1x2048 ![1] bcast_S2048_S1x2048_1 : (⟨S2048, .f32⟩ : BufTy).Contents (Elt F) → (⟨S1x2048, .f32⟩ : BufTy).Contents (Elt F)),
    StableHlo.unary main_v80 main_v81 (broadcastInDim S16384x2048 ![0, 1] bcast_S1x2048_S16384x2048_0_1 : (⟨S1x2048, .f32⟩ : BufTy).Contents (Elt F) → (⟨S16384x2048, .f32⟩ : BufTy).Contents (Elt F)),
    StableHlo.binary main_v79 main_v81 main_v82 (addf : (⟨S16384x2048, .f32⟩ : BufTy).Contents (Elt F) → (⟨S16384x2048, .f32⟩ : BufTy).Contents (Elt F) → (⟨S16384x2048, .f32⟩ : BufTy).Contents (Elt F)),
    StableHlo.nullary main_cst_26 (constant S_ .f32 0xBF800000#32),
    StableHlo.nullary main_cst_27 (constant S_ .f32 0x3F800000#32),
    StableHlo.TRef.unary (.of main_cst_26 : StableHlo.TRef sig ⟨S_, .f32⟩) main_call9.v0 id,
    StableHlo.TRef.unary main_call9.v0 main_call9.v1 (broadcastInDim S16384x2048 ![] bcast_S_S16384x2048),
    StableHlo.TRef.binary main_call9.v1 (.of main_v82 : StableHlo.TRef sig ⟨S16384x2048, .f32⟩) main_call9.v2 maximumf,
    StableHlo.TRef.unary (.of main_cst_27 : StableHlo.TRef sig ⟨S_, .f32⟩) main_call9.v3 id,
    StableHlo.TRef.unary main_call9.v3 main_call9.v4 (broadcastInDim S16384x2048 ![] bcast_S_S16384x2048),
    StableHlo.TRef.binary main_call9.v4 main_call9.v2 main_call9.v5 minimumf ]

theorem opsR2_sub : (opsR2 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub ..⟩

theorem opsR2_fresh : (opsR2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

/-- The buffers stretch R2 writes. -/
abbrev opsR2_W : List (Ref sig .tc) := [main_v68, main_v69, main_v70, main_cst_25, main_v71, main_v72, main_v73, main_v74, main_v75, main_v76, main_v77, main_v78, main_v79, main_v80, main_v81, main_v82, main_cst_26, main_cst_27, main_call9.v0.ref, main_call9.v1.ref, main_call9.v2.ref, main_call9.v3.ref, main_call9.v4.ref, main_call9.v5.ref]

theorem opsR2_writes : (opsR2 : List (HloOp τ sig (Elt F))).Forall fun op => op.writes ⊆ (opsR2_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- Stretch R2 leaves every buffer it does not write as it was. -/
theorem opsR2_keep (V : Valuation τ sig (Elt F)) (r : Ref sig .tc) (h : r ∉ opsR2_W) :
    after opsR2 V (no_index (Proc.devRef .tc r)) = V (Proc.devRef .tc r) :=
  after_of_writes_sub opsR2 V opsR2_writes h

/-- Stretch A3: 6 operations. -/
abbrev opsA3 : List (HloOp τ sig (Elt F)) :=
  [ StableHlo.nullary main_cst_28 (constant S_ .f32 0x00000000#32),
    StableHlo.unary main_cst_28 main_v84 (broadcastInDim S16384x2048 ![] bcast_S_S16384x2048 : (⟨S_, .f32⟩ : BufTy).Contents (Elt F) → (⟨S16384x2048, .f32⟩ : BufTy).Contents (Elt F)),
    StableHlo.binary main_v83 main_v84 main_v85 (cmpf .oge : (⟨S16384x2048, .f32⟩ : BufTy).Contents (Elt F) → (⟨S16384x2048, .f32⟩ : BufTy).Contents (Elt F) → (⟨S16384x2048, .i1⟩ : BufTy).Contents (Elt F)),
    StableHlo.nullary main_cst_29 (constant S_ .f32 0x3F800000#32),
    StableHlo.unary main_cst_29 main_v86 (broadcastInDim S16384x2048 ![] bcast_S_S16384x2048 : (⟨S_, .f32⟩ : BufTy).Contents (Elt F) → (⟨S16384x2048, .f32⟩ : BufTy).Contents (Elt F)),
    StableHlo.nullary main_cst_30 (constant S_ .f32 0x3F800000#32) ]

theorem opsA3_sub : (opsA3 : List (HloOp τ sig (Elt F))).Forall fun op => op.bufs ⊆ tcRefs τ sig :=
  ⟨nullary_bufs_sub .., unary_bufs_sub .., binary_bufs_sub .., nullary_bufs_sub .., unary_bufs_sub .., nullary_bufs_sub ..⟩

theorem opsA3_fresh : (opsA3 : List (HloOp τ sig (Elt F))).Forall fun op => op.fresh = ∅ :=
  ⟨rfl, rfl, rfl, rfl, rfl, rfl⟩

/-- The buffers stretch A3 writes. -/
abbrev opsA3_W : List (Ref sig .tc) := [main_cst_28, main_v84, main_v85, main_cst_29, main_v86, main_cst_30]

theorem opsA3_writes : (opsA3 : List (HloOp τ sig (Elt F))).Forall fun op => op.writes ⊆ (opsA3_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- Stretch A3 leaves every buffer it does not write as it was. -/
theorem opsA3_keep (V : Valuation τ sig (Elt F)) (r : Ref sig .tc) (h : r ∉ opsA3_W) :
    after opsA3 V (no_index (Proc.devRef .tc r)) = V (Proc.devRef .tc r) :=
  after_of_writes_sub opsA3 V opsA3_writes h

/-- @main's window 1: its stretches in order. -/
abbrev ops1 : List (HloOp τ sig (Elt F)) := opsP2 ++ (opsQ2 ++ (opsR2 ++ (opsA3)))

/-- Stretch P3: 25 operations. -/
abbrev opsP3 : List (HloOp τ sig (Elt F)) :=
  [ StableHlo.unary main_cst_30 main_v87 (broadcastInDim S16384x2048 ![] bcast_S_S16384x2048 : (⟨S_, .f32⟩ : BufTy).Contents (Elt F) → (⟨S16384x2048, .f32⟩ : BufTy).Contents (Elt F)),
    StableHlo.unary main_v87 main_v88 (Host.negf : (⟨S16384x2048, .f32⟩ : BufTy).Contents (Elt F) → (⟨S16384x2048, .f32⟩ : BufTy).Contents (Elt F)),
    StableHlo.TRef.ternary (.of main_v85 : StableHlo.TRef sig ⟨S16384x2048, .i1⟩) (.of main_v86 : StableHlo.TRef sig ⟨S16384x2048, .f32⟩) (.of main_v88 : StableHlo.TRef sig ⟨S16384x2048, .f32⟩) main_call10.v0 select,
    StableHlo.nullary main_cst_31 (constant S_ .f32 0x00000000#32),
    StableHlo.unary main_cst_31 main_v90 (broadcastInDim S1024x2048 ![] bcast_S_S1024x2048 : (⟨S_, .f32⟩ : BufTy).Contents (Elt F) → (⟨S1024x2048, .f32⟩ : BufTy).Contents (Elt F)),
    StableHlo.binary main_arg9 main_v90 main_v91 (cmpf .oge : (⟨S1024x2048, .f32⟩ : BufTy).Contents (Elt F) → (⟨S1024x2048, .f32⟩ : BufTy).Contents (Elt F) → (⟨S1024x2048, .i1⟩ : BufTy).Contents (Elt F)),
    StableHlo.nullary main_cst_32 (constant S_ .f32 0x3F800000#32),
    StableHlo.unary main_cst_32 main_v92 (broadcastInDim S1024x2048 ![] bcast_S_S1024x2048 : (⟨S_, .f32⟩ : BufTy).Contents (Elt F) → (⟨S1024x2048, .f32⟩ : BufTy).Contents (Elt F)),
    StableHlo.nullary main_cst_33 (constant S_ .f32 0x3F800000#32),
    StableHlo.unary main_cst_33 main_v93 (broadcastInDim S1024x2048 ![] bcast_S_S1024x2048 : (⟨S_, .f32⟩ : BufTy).Contents (Elt F) → (⟨S1024x2048, .f32⟩ : BufTy).Contents (Elt F)),
    StableHlo.unary main_v93 main_v94 (Host.negf : (⟨S1024x2048, .f32⟩ : BufTy).Contents (Elt F) → (⟨S1024x2048, .f32⟩ : BufTy).Contents (Elt F)),
    StableHlo.TRef.ternary (.of main_v91 : StableHlo.TRef sig ⟨S1024x2048, .i1⟩) (.of main_v92 : StableHlo.TRef sig ⟨S1024x2048, .f32⟩) (.of main_v94 : StableHlo.TRef sig ⟨S1024x2048, .f32⟩) main_call11.v0 select,
    StableHlo.binary main_v89 main_v95 main_v96 ((fun l r => Host.dotGeneral dot_S16384x2048_S1024x2048_S16384x1024_1_1_0_0_n_n none l r) : (⟨S16384x2048, .f32⟩ : BufTy).Contents (Elt F) → (⟨S1024x2048, .f32⟩ : BufTy).Contents (Elt F) → (⟨S16384x1024, .f32⟩ : BufTy).Contents (Elt F)),
    StableHlo.nullary main_cst_34 (constant S_ .f32 0x00000000#32),
    StableHlo.unary main_cst_34 main_v97 (broadcastInDim S1024 ![] bcast_S_S1024 : (⟨S_, .f32⟩ : BufTy).Contents (Elt F) → (⟨S1024, .f32⟩ : BufTy).Contents (Elt F)),
    StableHlo.binary main_arg10 main_v97 main_v98 (cmpf .oge : (⟨S1024, .f32⟩ : BufTy).Contents (Elt F) → (⟨S1024, .f32⟩ : BufTy).Contents (Elt F) → (⟨S1024, .i1⟩ : BufTy).Contents (Elt F)),
    StableHlo.nullary main_cst_35 (constant S_ .f32 0x3F800000#32),
    StableHlo.unary main_cst_35 main_v99 (broadcastInDim S1024 ![] bcast_S_S1024 : (⟨S_, .f32⟩ : BufTy).Contents (Elt F) → (⟨S1024, .f32⟩ : BufTy).Contents (Elt F)),
    StableHlo.nullary main_cst_36 (constant S_ .f32 0x3F800000#32),
    StableHlo.unary main_cst_36 main_v100 (broadcastInDim S1024 ![] bcast_S_S1024 : (⟨S_, .f32⟩ : BufTy).Contents (Elt F) → (⟨S1024, .f32⟩ : BufTy).Contents (Elt F)),
    StableHlo.unary main_v100 main_v101 (Host.negf : (⟨S1024, .f32⟩ : BufTy).Contents (Elt F) → (⟨S1024, .f32⟩ : BufTy).Contents (Elt F)),
    StableHlo.TRef.ternary (.of main_v98 : StableHlo.TRef sig ⟨S1024, .i1⟩) (.of main_v99 : StableHlo.TRef sig ⟨S1024, .f32⟩) (.of main_v101 : StableHlo.TRef sig ⟨S1024, .f32⟩) main_call12.v0 select,
    StableHlo.unary main_v102 main_v103 (broadcastInDim S1x1024 ![1] bcast_S1024_S1x1024_1 : (⟨S1024, .f32⟩ : BufTy).Contents (Elt F) → (⟨S1x1024, .f32⟩ : BufTy).Contents (Elt F)),
    StableHlo.unary main_v103 main_v104 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v96 main_v104 main_v105 (addf : (⟨S16384x1024, .f32⟩ : BufTy).Contents (Elt F) → (⟨S16384x1024, .f32⟩ : BufTy).Contents (Elt F) → (⟨S16384x1024, .f32⟩ : BufTy).Contents (Elt F)) ]

theorem opsP3_sub : (opsP3 : List (HloOp τ sig (Elt F))).Forall fun op => op.bufs ⊆ tcRefs τ sig :=
  ⟨unary_bufs_sub .., unary_bufs_sub .., ternary_bufs_sub .., nullary_bufs_sub .., unary_bufs_sub .., binary_bufs_sub .., nullary_bufs_sub .., unary_bufs_sub .., nullary_bufs_sub .., unary_bufs_sub .., unary_bufs_sub .., ternary_bufs_sub .., binary_bufs_sub .., nullary_bufs_sub .., unary_bufs_sub .., binary_bufs_sub .., nullary_bufs_sub .., unary_bufs_sub .., nullary_bufs_sub .., unary_bufs_sub .., unary_bufs_sub .., ternary_bufs_sub .., unary_bufs_sub .., unary_bufs_sub .., binary_bufs_sub ..⟩

theorem opsP3_fresh : (opsP3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

/-- The buffers stretch P3 writes. -/
abbrev opsP3_W : List (Ref sig .tc) := [main_v87, main_v88, main_call10.v0.ref, main_cst_31, main_v90, main_v91, main_cst_32, main_v92, main_cst_33, main_v93, main_v94, main_call11.v0.ref, main_v96, main_cst_34, main_v97, main_v98, main_cst_35, main_v99, main_cst_36, main_v100, main_v101, main_call12.v0.ref, main_v103, main_v104, main_v105]

theorem opsP3_writes : (opsP3 : List (HloOp τ sig (Elt F))).Forall fun op => op.writes ⊆ (opsP3_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- Stretch P3 leaves every buffer it does not write as it was. -/
theorem opsP3_keep (V : Valuation τ sig (Elt F)) (r : Ref sig .tc) (h : r ∉ opsP3_W) :
    after opsP3 V (no_index (Proc.devRef .tc r)) = V (Proc.devRef .tc r) :=
  after_of_writes_sub opsP3 V opsP3_writes h

/-- Stretch Q3: 28 operations. -/
abbrev opsQ3 : List (HloOp τ sig (Elt F)) :=
  [ StableHlo.nullary main_cst_37 (constant S_ .f32 0x00000000#32),
    StableHlo.binary main_v105 main_cst_37 main_v106 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    StableHlo.nullary main_cst_38 (constant S_ .f32 0x46800000#32),
    StableHlo.unary main_cst_38 main_v107 (broadcastInDim S1024 ![] bcast_S_S1024 : (⟨S_, .f32⟩ : BufTy).Contents (Elt F) → (⟨S1024, .f32⟩ : BufTy).Contents (Elt F)),
    StableHlo.binary main_v106 main_v107 main_v108 (Host.divf : (⟨S1024, .f32⟩ : BufTy).Contents (Elt F) → (⟨S1024, .f32⟩ : BufTy).Contents (Elt F) → (⟨S1024, .f32⟩ : BufTy).Contents (Elt F)),
    StableHlo.nullary main_c_39 (constantI S_ 32 0#32),
    StableHlo.TRef.nullary main_call13.cst (constant S_ .f32 0x00000000#32),
    StableHlo.TRef.binary (.of main_v105 : StableHlo.TRef sig ⟨S16384x1024, .f32⟩) main_call13.cst main_call13.v0 (fun x v => Host.reduceAdd x v reducesTo_S16384x1024_S1024_d0 h_S_),
    StableHlo.TRef.unary main_call13.v0 main_call13.v1 (broadcastInDim S1x1024 ![1] bcast_S1024_S1x1024_1),
    StableHlo.TRef.nullary main_call13.cst_0 (constant S_ .f32 0x46800000#32),
    StableHlo.TRef.unary main_call13.cst_0 main_call13.v2 (broadcastInDim S1x1024 ![] bcast_S_S1x1024),
    StableHlo.TRef.binary main_call13.v1 main_call13.v2 main_call13.v3 Host.divf,
    StableHlo.TRef.unary main_call13.v3 main_call13.v4 (broadcastInDim S16384x1024 ![0, 1] bcast_S1x1024_S16384x1024_0_1),
    StableHlo.TRef.binary (.of main_v105 : StableHlo.TRef sig ⟨S16384x1024, .f32⟩) main_call13.v4 main_call13.v5 subf,
    StableHlo.TRef.binary main_call13.v5 main_call13.v5 main_call13.v6 mulf,
    StableHlo.TRef.unary (.of main_c_39 : StableHlo.TRef sig ⟨S_, .i32⟩) main_call13.v7 (sitofp .f32),
    StableHlo.TRef.nullary main_call13.cst_1 (constant S_ .f32 0x46800000#32),
    StableHlo.TRef.binary main_call13.cst_1 main_call13.v7 main_call13.v8 subf,
    StableHlo.TRef.nullary main_call13.cst_2 (constant S_ .f32 0x00000000#32),
    StableHlo.TRef.binary main_call13.v6 main_call13.cst_2 main_call13.v9 (fun x v => Host.reduceAdd x v reducesTo_S16384x1024_S1024_d0 h_S_),
    StableHlo.TRef.unary main_call13.v8 main_call13.v10 (broadcastInDim S1024 ![] bcast_S_S1024),
    StableHlo.TRef.binary main_call13.v9 main_call13.v10 main_call13.v11 Host.divf,
    StableHlo.TRef.nullary main_call13.cst_3 (constant S_ .f32 0x00000000#32),
    StableHlo.TRef.binary main_call13.v8 main_call13.cst_3 main_call13.v12 (cmpf .ogt),
    StableHlo.TRef.nullary main_call13.cst_4 (constant S_ .f32 0x7FC00000#32),
    StableHlo.TRef.unary main_call13.cst_4 main_call13.call0.v0 id,
    StableHlo.TRef.unary main_call13.call0.v0 main_call13.call0.v1 (broadcastInDim S1024 ![] bcast_S_S1024),
    StableHlo.TRef.ternary main_call13.v12 main_call13.v11 main_call13.call0.v1 main_call13.call0.v2 (fun p a b => select (broadcastInDim S1024 ![] bcast_S_S1024 p) a b) ]

theorem opsQ3_sub : (opsQ3 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem opsQ3_fresh : (opsQ3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

/-- The buffers stretch Q3 writes. -/
abbrev opsQ3_W : List (Ref sig .tc) := [main_cst_37, main_v106, main_cst_38, main_v107, main_v108, main_c_39, main_call13.cst.ref, main_call13.v0.ref, main_call13.v1.ref, main_call13.cst_0.ref, main_call13.v2.ref, main_call13.v3.ref, main_call13.v4.ref, main_call13.v5.ref, main_call13.v6.ref, main_call13.v7.ref, main_call13.cst_1.ref, main_call13.v8.ref, main_call13.cst_2.ref, main_call13.v9.ref, main_call13.v10.ref, main_call13.v11.ref, main_call13.cst_3.ref, main_call13.v12.ref, main_call13.cst_4.ref, main_call13.call0.v0.ref, main_call13.call0.v1.ref, main_call13.call0.v2.ref]

theorem opsQ3_writes : (opsQ3 : List (HloOp τ sig (Elt F))).Forall fun op => op.writes ⊆ (opsQ3_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- Stretch Q3 leaves every buffer it does not write as it was. -/
theorem opsQ3_keep (V : Valuation τ sig (Elt F)) (r : Ref sig .tc) (h : r ∉ opsQ3_W) :
    after opsQ3 V (no_index (Proc.devRef .tc r)) = V (Proc.devRef .tc r) :=
  after_of_writes_sub opsQ3 V opsQ3_writes h

/-- Stretch R3: 24 operations. -/
abbrev opsR3 : List (HloOp τ sig (Elt F)) :=
  [ StableHlo.unary main_v108 main_v110 (broadcastInDim S1x1024 ![1] bcast_S1024_S1x1024_1 : (⟨S1024, .f32⟩ : BufTy).Contents (Elt F) → (⟨S1x1024, .f32⟩ : BufTy).Contents (Elt F)),
    StableHlo.unary main_v110 main_v111 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v105 main_v111 main_v112 (subf : (⟨S16384x1024, .f32⟩ : BufTy).Contents (Elt F) → (⟨S16384x1024, .f32⟩ : BufTy).Contents (Elt F) → (⟨S16384x1024, .f32⟩ : BufTy).Contents (Elt F)),
    StableHlo.nullary main_cst_40 (constant S_ .f32 0x3727C5AC#32),
    StableHlo.unary main_cst_40 main_v113 (broadcastInDim S1024 ![] bcast_S_S1024 : (⟨S_, .f32⟩ : BufTy).Contents (Elt F) → (⟨S1024, .f32⟩ : BufTy).Contents (Elt F)),
    StableHlo.binary main_v109 main_v113 main_v114 (addf : (⟨S1024, .f32⟩ : BufTy).Contents (Elt F) → (⟨S1024, .f32⟩ : BufTy).Contents (Elt F) → (⟨S1024, .f32⟩ : BufTy).Contents (Elt F)),
    StableHlo.unary main_v114 main_v115 (Host.rsqrt : (⟨S1024, .f32⟩ : BufTy).Contents (Elt F) → (⟨S1024, .f32⟩ : BufTy).Contents (Elt F)),
    StableHlo.unary main_v115 main_v116 (broadcastInDim S1x1024 ![1] bcast_S1024_S1x1024_1 : (⟨S1024, .f32⟩ : BufTy).Contents (Elt F) → (⟨S1x1024, .f32⟩ : BufTy).Contents (Elt F)),
    StableHlo.unary main_v116 main_v117 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v112 main_v117 main_v118 (mulf : (⟨S16384x1024, .f32⟩ : BufTy).Contents (Elt F) → (⟨S16384x1024, .f32⟩ : BufTy).Contents (Elt F) → (⟨S16384x1024, .f32⟩ : BufTy).Contents (Elt F)),
    StableHlo.unary main_arg11 main_v119 (broadcastInDim S1x1024 ![1] bcast_S1024_S1x1024_1 : (⟨S1024, .f32⟩ : BufTy).Contents (Elt F) → (⟨S1x1024, .f32⟩ : BufTy).Contents (Elt F)),
    StableHlo.unary main_v119 main_v120 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v118 main_v120 main_v121 (mulf : (⟨S16384x1024, .f32⟩ : BufTy).Contents (Elt F) → (⟨S16384x1024, .f32⟩ : BufTy).Contents (Elt F) → (⟨S16384x1024, .f32⟩ : BufTy).Contents (Elt F)),
    StableHlo.unary main_arg12 main_v122 (broadcastInDim S1x1024 ![1] bcast_S1024_S1x1024_1 : (⟨S1024, .f32⟩ : BufTy).Contents (Elt F) → (⟨S1x1024, .f32⟩ : BufTy).Contents (Elt F)),
    StableHlo.unary main_v122 main_v123 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v121 main_v123 main_v124 (addf : (⟨S16384x1024, .f32⟩ : BufTy).Contents (Elt F) → (⟨S16384x1024, .f32⟩ : BufTy).Contents (Elt F) → (⟨S16384x1024, .f32⟩ : BufTy).Contents (Elt F)),
    StableHlo.nullary main_cst_41 (constant S_ .f32 0xBF800000#32),
    StableHlo.nullary main_cst_42 (constant S_ .f32 0x3F800000#32),
    StableHlo.TRef.unary (.of main_cst_41 : StableHlo.TRef sig ⟨S_, .f32⟩) main_call14.v0 id,
    StableHlo.TRef.unary main_call14.v0 main_call14.v1 (broadcastInDim S16384x1024 ![] bcast_S_S16384x1024),
    StableHlo.TRef.binary main_call14.v1 (.of main_v124 : StableHlo.TRef sig ⟨S16384x1024, .f32⟩) main_call14.v2 maximumf,
    StableHlo.TRef.unary (.of main_cst_42 : StableHlo.TRef sig ⟨S_, .f32⟩) main_call14.v3 id,
    StableHlo.TRef.unary main_call14.v3 main_call14.v4 (broadcastInDim S16384x1024 ![] bcast_S_S16384x1024),
    StableHlo.TRef.binary main_call14.v4 main_call14.v2 main_call14.v5 minimumf ]

theorem opsR3_sub : (opsR3 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub ..⟩

theorem opsR3_fresh : (opsR3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

/-- The buffers stretch R3 writes. -/
abbrev opsR3_W : List (Ref sig .tc) := [main_v110, main_v111, main_v112, main_cst_40, main_v113, main_v114, main_v115, main_v116, main_v117, main_v118, main_v119, main_v120, main_v121, main_v122, main_v123, main_v124, main_cst_41, main_cst_42, main_call14.v0.ref, main_call14.v1.ref, main_call14.v2.ref, main_call14.v3.ref, main_call14.v4.ref, main_call14.v5.ref]

theorem opsR3_writes : (opsR3 : List (HloOp τ sig (Elt F))).Forall fun op => op.writes ⊆ (opsR3_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- Stretch R3 leaves every buffer it does not write as it was. -/
theorem opsR3_keep (V : Valuation τ sig (Elt F)) (r : Ref sig .tc) (h : r ∉ opsR3_W) :
    after opsR3 V (no_index (Proc.devRef .tc r)) = V (Proc.devRef .tc r) :=
  after_of_writes_sub opsR3 V opsR3_writes h

/-- Stretch A4: 9 operations. -/
abbrev opsA4 : List (HloOp τ sig (Elt F)) :=
  [ StableHlo.nullary main_cst_43 (constant S_ .f32 0x00000000#32),
    StableHlo.unary main_cst_43 main_v126 (broadcastInDim S16384x1024 ![] bcast_S_S16384x1024 : (⟨S_, .f32⟩ : BufTy).Contents (Elt F) → (⟨S16384x1024, .f32⟩ : BufTy).Contents (Elt F)),
    StableHlo.binary main_v125 main_v126 main_v127 (cmpf .oge : (⟨S16384x1024, .f32⟩ : BufTy).Contents (Elt F) → (⟨S16384x1024, .f32⟩ : BufTy).Contents (Elt F) → (⟨S16384x1024, .i1⟩ : BufTy).Contents (Elt F)),
    StableHlo.nullary main_cst_44 (constant S_ .f32 0x3F800000#32),
    StableHlo.unary main_cst_44 main_v128 (broadcastInDim S16384x1024 ![] bcast_S_S16384x1024 : (⟨S_, .f32⟩ : BufTy).Contents (Elt F) → (⟨S16384x1024, .f32⟩ : BufTy).Contents (Elt F)),
    StableHlo.nullary main_cst_45 (constant S_ .f32 0x3F800000#32),
    StableHlo.unary main_cst_45 main_v129 (broadcastInDim S16384x1024 ![] bcast_S_S16384x1024 : (⟨S_, .f32⟩ : BufTy).Contents (Elt F) → (⟨S16384x1024, .f32⟩ : BufTy).Contents (Elt F)),
    StableHlo.unary main_v129 main_v130 (Host.negf : (⟨S16384x1024, .f32⟩ : BufTy).Contents (Elt F) → (⟨S16384x1024, .f32⟩ : BufTy).Contents (Elt F)),
    StableHlo.TRef.ternary (.of main_v127 : StableHlo.TRef sig ⟨S16384x1024, .i1⟩) (.of main_v128 : StableHlo.TRef sig ⟨S16384x1024, .f32⟩) (.of main_v130 : StableHlo.TRef sig ⟨S16384x1024, .f32⟩) main_call15.v0 select ]

theorem opsA4_sub : (opsA4 : List (HloOp τ sig (Elt F))).Forall fun op => op.bufs ⊆ tcRefs τ sig :=
  ⟨nullary_bufs_sub .., unary_bufs_sub .., binary_bufs_sub .., nullary_bufs_sub .., unary_bufs_sub .., nullary_bufs_sub .., unary_bufs_sub .., unary_bufs_sub .., ternary_bufs_sub ..⟩

theorem opsA4_fresh : (opsA4 : List (HloOp τ sig (Elt F))).Forall fun op => op.fresh = ∅ :=
  ⟨rfl, rfl, rfl, rfl, rfl, rfl, rfl, rfl, rfl⟩

/-- The buffers stretch A4 writes. -/
abbrev opsA4_W : List (Ref sig .tc) := [main_cst_43, main_v126, main_v127, main_cst_44, main_v128, main_cst_45, main_v129, main_v130, main_call15.v0.ref]

theorem opsA4_writes : (opsA4 : List (HloOp τ sig (Elt F))).Forall fun op => op.writes ⊆ (opsA4_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- Stretch A4 leaves every buffer it does not write as it was. -/
theorem opsA4_keep (V : Valuation τ sig (Elt F)) (r : Ref sig .tc) (h : r ∉ opsA4_W) :
    after opsA4 V (no_index (Proc.devRef .tc r)) = V (Proc.devRef .tc r) :=
  after_of_writes_sub opsA4 V opsA4_writes h

/-- @main's window 2: its stretches in order. -/
abbrev ops2 : List (HloOp τ sig (Elt F)) := opsP3 ++ (opsQ3 ++ (opsR3 ++ (opsA4)))

/-- Stretch P4: 22 operations. -/
abbrev opsP4 : List (HloOp τ sig (Elt F)) :=
  [ StableHlo.nullary main_cst_46 (constant S_ .f32 0x00000000#32),
    StableHlo.unary main_cst_46 main_v132 (broadcastInDim S512x1024 ![] bcast_S_S512x1024 : (⟨S_, .f32⟩ : BufTy).Contents (Elt F) → (⟨S512x1024, .f32⟩ : BufTy).Contents (Elt F)),
    StableHlo.binary main_arg13 main_v132 main_v133 (cmpf .oge : (⟨S512x1024, .f32⟩ : BufTy).Contents (Elt F) → (⟨S512x1024, .f32⟩ : BufTy).Contents (Elt F) → (⟨S512x1024, .i1⟩ : BufTy).Contents (Elt F)),
    StableHlo.nullary main_cst_47 (constant S_ .f32 0x3F800000#32),
    StableHlo.unary main_cst_47 main_v134 (broadcastInDim S512x1024 ![] bcast_S_S512x1024 : (⟨S_, .f32⟩ : BufTy).Contents (Elt F) → (⟨S512x1024, .f32⟩ : BufTy).Contents (Elt F)),
    StableHlo.nullary main_cst_48 (constant S_ .f32 0x3F800000#32),
    StableHlo.unary main_cst_48 main_v135 (broadcastInDim S512x1024 ![] bcast_S_S512x1024 : (⟨S_, .f32⟩ : BufTy).Contents (Elt F) → (⟨S512x1024, .f32⟩ : BufTy).Contents (Elt F)),
    StableHlo.unary main_v135 main_v136 (Host.negf : (⟨S512x1024, .f32⟩ : BufTy).Contents (Elt F) → (⟨S512x1024, .f32⟩ : BufTy).Contents (Elt F)),
    StableHlo.TRef.ternary (.of main_v133 : StableHlo.TRef sig ⟨S512x1024, .i1⟩) (.of main_v134 : StableHlo.TRef sig ⟨S512x1024, .f32⟩) (.of main_v136 : StableHlo.TRef sig ⟨S512x1024, .f32⟩) main_call16.v0 select,
    StableHlo.binary main_v131 main_v137 main_v138 ((fun l r => Host.dotGeneral dot_S16384x1024_S512x1024_S16384x512_1_1_0_0_n_n none l r) : (⟨S16384x1024, .f32⟩ : BufTy).Contents (Elt F) → (⟨S512x1024, .f32⟩ : BufTy).Contents (Elt F) → (⟨S16384x512, .f32⟩ : BufTy).Contents (Elt F)),
    StableHlo.nullary main_cst_49 (constant S_ .f32 0x00000000#32),
    StableHlo.unary main_cst_49 main_v139 (broadcastInDim S512 ![] bcast_S_S512 : (⟨S_, .f32⟩ : BufTy).Contents (Elt F) → (⟨S512, .f32⟩ : BufTy).Contents (Elt F)),
    StableHlo.binary main_arg14 main_v139 main_v140 (cmpf .oge : (⟨S512, .f32⟩ : BufTy).Contents (Elt F) → (⟨S512, .f32⟩ : BufTy).Contents (Elt F) → (⟨S512, .i1⟩ : BufTy).Contents (Elt F)),
    StableHlo.nullary main_cst_50 (constant S_ .f32 0x3F800000#32),
    StableHlo.unary main_cst_50 main_v141 (broadcastInDim S512 ![] bcast_S_S512 : (⟨S_, .f32⟩ : BufTy).Contents (Elt F) → (⟨S512, .f32⟩ : BufTy).Contents (Elt F)),
    StableHlo.nullary main_cst_51 (constant S_ .f32 0x3F800000#32),
    StableHlo.unary main_cst_51 main_v142 (broadcastInDim S512 ![] bcast_S_S512 : (⟨S_, .f32⟩ : BufTy).Contents (Elt F) → (⟨S512, .f32⟩ : BufTy).Contents (Elt F)),
    StableHlo.unary main_v142 main_v143 (Host.negf : (⟨S512, .f32⟩ : BufTy).Contents (Elt F) → (⟨S512, .f32⟩ : BufTy).Contents (Elt F)),
    StableHlo.TRef.ternary (.of main_v140 : StableHlo.TRef sig ⟨S512, .i1⟩) (.of main_v141 : StableHlo.TRef sig ⟨S512, .f32⟩) (.of main_v143 : StableHlo.TRef sig ⟨S512, .f32⟩) main_call17.v0 select,
    StableHlo.unary main_v144 main_v145 (broadcastInDim S1x512 ![1] bcast_S512_S1x512_1 : (⟨S512, .f32⟩ : BufTy).Contents (Elt F) → (⟨S1x512, .f32⟩ : BufTy).Contents (Elt F)),
    StableHlo.unary main_v145 main_v146 (broadcastInDim S16384x512 ![0, 1] bcast_S1x512_S16384x512_0_1 : (⟨S1x512, .f32⟩ : BufTy).Contents (Elt F) → (⟨S16384x512, .f32⟩ : BufTy).Contents (Elt F)),
    StableHlo.binary main_v138 main_v146 main_v147 (addf : (⟨S16384x512, .f32⟩ : BufTy).Contents (Elt F) → (⟨S16384x512, .f32⟩ : BufTy).Contents (Elt F) → (⟨S16384x512, .f32⟩ : BufTy).Contents (Elt F)) ]

theorem opsP4_sub : (opsP4 : List (HloOp τ sig (Elt F))).Forall fun op => op.bufs ⊆ tcRefs τ sig :=
  ⟨nullary_bufs_sub .., unary_bufs_sub .., binary_bufs_sub .., nullary_bufs_sub .., unary_bufs_sub .., nullary_bufs_sub .., unary_bufs_sub .., unary_bufs_sub .., ternary_bufs_sub .., binary_bufs_sub .., nullary_bufs_sub .., unary_bufs_sub .., binary_bufs_sub .., nullary_bufs_sub .., unary_bufs_sub .., nullary_bufs_sub .., unary_bufs_sub .., unary_bufs_sub .., ternary_bufs_sub .., unary_bufs_sub .., unary_bufs_sub .., binary_bufs_sub ..⟩

theorem opsP4_fresh : (opsP4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

/-- The buffers stretch P4 writes. -/
abbrev opsP4_W : List (Ref sig .tc) := [main_cst_46, main_v132, main_v133, main_cst_47, main_v134, main_cst_48, main_v135, main_v136, main_call16.v0.ref, main_v138, main_cst_49, main_v139, main_v140, main_cst_50, main_v141, main_cst_51, main_v142, main_v143, main_call17.v0.ref, main_v145, main_v146, main_v147]

theorem opsP4_writes : (opsP4 : List (HloOp τ sig (Elt F))).Forall fun op => op.writes ⊆ (opsP4_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- Stretch P4 leaves every buffer it does not write as it was. -/
theorem opsP4_keep (V : Valuation τ sig (Elt F)) (r : Ref sig .tc) (h : r ∉ opsP4_W) :
    after opsP4 V (no_index (Proc.devRef .tc r)) = V (Proc.devRef .tc r) :=
  after_of_writes_sub opsP4 V opsP4_writes h

/-- @main's window 3: its stretches in order. -/
abbrev ops3 : List (HloOp τ sig (Elt F)) := opsP4

/-- @main's operations: its windows in order. -/
abbrev ops : List (HloOp τ sig (Elt F)) := ops0 ++ (ops1 ++ (ops2 ++ (ops3)))

end Cert.ReferenceIdeal.RefValue

end
-- ==== Proof.RefRun.lean ====
/-
  The reference program's run.  @main is a straight line of host operations: each printed window of it is the
  straight line of its stretches of operations (an outlined function's body unfolds at its call, over the call's own
  buffers), so every weakly fair execution terminates with every buffer at the fold of the operations' results over
  the launch contents.
-/
import proofs.«137791_j65661460021769_2_alg».proof.Proof.RefOps

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The contents after two lines run one after the other. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A property of every element of two lists holds of every element of their concatenation. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

set_option maxHeartbeats 4000000 in
/-- Window 0 of @main is the straight line of its stretches of operations. -/
theorem main_part0_eq (c : Dev nD) : main_part0 (F := F) c = seq ops0 := by
  simp only [main_part0, fn_where.body, fn_where_0.body, fn_where_1.body, fn_where_2.body, fn_var.body, fn_clip.body, ops0, seq_append, seq, bind_assoc, pure_bind]
  rfl

set_option maxHeartbeats 4000000 in
/-- Window 1 of @main is the straight line of its stretches of operations. -/
theorem main_part1_eq (c : Dev nD) : main_part1 (F := F) c = seq ops1 := by
  simp only [main_part1, fn_where_3.body, fn_where_4.body, fn_where_1.body, fn_where_2.body, fn_var.body, fn_clip.body, ops1, seq_append, seq, bind_assoc, pure_bind]
  rfl

set_option maxHeartbeats 4000000 in
/-- Window 2 of @main is the straight line of its stretches of operations. -/
theorem main_part2_eq (c : Dev nD) : main_part2 (F := F) c = seq ops2 := by
  simp only [main_part2, fn_where_3.body, fn_where_5.body, fn_where_6.body, fn_where_8.body, fn_var_7.body, fn_clip_9.body, fn_where_10.body, ops2, seq_append, seq, bind_assoc, pure_bind]

set_option maxHeartbeats 4000000 in
/-- Window 3 of @main is the straight line of its stretches of operations. -/
theorem main_part3_eq (c : Dev nD) : main_part3 (F := F) c = seq ops3 := by
  simp only [main_part3, fn_where_11.body, fn_where_12.body, ops3, seq_append, seq, bind_assoc, pure_bind]

/-- @main is the straight line of its operations. -/
theorem main_eq (c : Dev nD) : main (F := F) c = seq ops := by
  simp only [main, ops, seq_append, ← main_part0_eq c, ← main_part1_eq c, ← main_part2_eq c, ← main_part3_eq c]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  forall_append (forall_append opsP1_sub (forall_append opsQ1_sub (forall_append opsR1_sub opsA2_sub)))
    (forall_append (forall_append opsP2_sub (forall_append opsQ2_sub (forall_append opsR2_sub opsA3_sub)))
      (forall_append (forall_append opsP3_sub (forall_append opsQ3_sub (forall_append opsR3_sub opsA4_sub))) opsP4_sub))

/-- Every operation determines its result. -/
theorem ops_fresh : (ops : List (HloOp τ sig (Elt F))).Forall fun op => op.fresh = ∅ :=
  forall_append (forall_append opsP1_fresh (forall_append opsQ1_fresh (forall_append opsR1_fresh opsA2_fresh)))
    (forall_append (forall_append opsP2_fresh (forall_append opsQ2_fresh (forall_append opsR2_fresh opsA3_fresh)))
      (forall_append (forall_append opsP3_fresh (forall_append opsQ3_fresh (forall_append opsR3_fresh opsA4_fresh))) opsP4_fresh))

/-- On every device, for any float values, from any memory with zero counters: every weakly fair execution of @main
    terminates, and every final state has each TensorCore buffer at the fold of the operations' results over the
    launch contents. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ
    (fun _ op h => List.forall_iff_forall_mem.mp ops_fresh op h)

end Cert.ReferenceIdeal.RefValue

end
-- ==== Proof.RefRows.lean ====
/-
  The reference program's layout operations at this network's sizes, read at coordinates: a one-row array broadcast
  over the 16384 rows, a vector laid along a row, the sum over the rows of a column, for the widths 2048, 1024 and
  512; and the host's entrywise operations at an index.
-/
import proofs.«137791_j65661460021769_2_alg».proof.Proof.Gen.ReferenceIdeal
import proofs.«137791_j65661460021769_2_alg».proof.Proof.Spec
import proofs.«137791_j65661460021769_2_alg».proof.Proof.LibDotRows
import proofs.«137791_j65661460021769_2_alg».proof.Proof.LibHostRows
import proofs.«137791_j65661460021769_2_alg».proof.Proof.Consts

noncomputable section

namespace Cert.ReferenceIdeal.RefValue

open Cert.ReferenceIdeal Cert.ReferenceIdeal.Gen Idealize.ShloMosaic Idealize.ShloMosaic.ValueIdx Cert.BinNet

/-- The host's division, reciprocal square root and negation, entry by entry. -/
theorem hdivf_at {S : Shape} (a b : FVec Ideal S .f32) (i : S.Idx) : Host.divf a b i = Ideal.div (a i) (b i) := rfl
theorem hrsqrt_at {S : Shape} (a : FVec Ideal S .f32) (i : S.Idx) : Host.rsqrt a i = Ideal.rsqrt (a i) := rfl
theorem hnegf_at {S : Shape} (a : FVec Ideal S .f32) (i : S.Idx) : Host.negf a i = -(a i) := rfl

/-- An integer word as a rank-0 array reads the word. -/
theorem constantI_at {S : Shape} (w : BitVec 32) (i : S.Idx) : constantI S 32 w i = w := rfl

section
variable {α : Type}

theorem row_mat_2048 (r : S1x2048.Idx → α) (p : Fin 16384) (j : Fin 2048) :
    broadcastInDim S16384x2048 (no_index ![0, 1]) bcast_S1x2048_S16384x2048_0_1 r (ix2 p j) = r (ix2 0 j) :=
  Cert.LibHostRows.bcast_row_mat _ _ rfl rfl r p j
theorem vec_row_2048 (v : S2048.Idx → α) (u : Fin 1) (j : Fin 2048) :
    broadcastInDim S1x2048 (no_index ![1]) bcast_S2048_S1x2048_1 v (ix2 u j) = v (ix1 j) :=
  Cert.LibHostRows.bcast_vec_row _ _ rfl v u j
theorem row_mat_1024 (r : S1x1024.Idx → α) (p : Fin 16384) (j : Fin 1024) :
    broadcastInDim S16384x1024 (no_index ![0, 1]) bcast_S1x1024_S16384x1024_0_1 r (ix2 p j) = r (ix2 0 j) :=
  Cert.LibHostRows.bcast_row_mat _ _ rfl rfl r p j
theorem vec_row_1024 (v : S1024.Idx → α) (u : Fin 1) (j : Fin 1024) :
    broadcastInDim S1x1024 (no_index ![1]) bcast_S1024_S1x1024_1 v (ix2 u j) = v (ix1 j) :=
  Cert.LibHostRows.bcast_vec_row _ _ rfl v u j
theorem row_mat_512 (r : S1x512.Idx → α) (p : Fin 16384) (j : Fin 512) :
    broadcastInDim S16384x512 (no_index ![0, 1]) bcast_S1x512_S16384x512_0_1 r (ix2 p j) = r (ix2 0 j) :=
  Cert.LibHostRows.bcast_row_mat _ _ rfl rfl r p j
theorem vec_row_512 (v : S512.Idx → α) (u : Fin 1) (j : Fin 512) :
    broadcastInDim S1x512 (no_index ![1]) bcast_S512_S1x512_1 v (ix2 u j) = v (ix1 j) :=
  Cert.LibHostRows.bcast_vec_row _ _ rfl v u j

end

theorem red_2048 (x : FVec Ideal S16384x2048 .f32) (init : S_.Idx → Ideal .f32) (j : Fin 2048) :
    Host.reduceAdd x init reducesTo_S16384x2048_S2048_d0 h_S_ (ix1 j) = init ix0 + ∑ p : Fin 16384, x (ix2 p j) :=
  Cert.LibHostRows.reduce_rows_at x init _ (by decide) _ j
theorem red_1024 (x : FVec Ideal S16384x1024 .f32) (init : S_.Idx → Ideal .f32) (j : Fin 1024) :
    Host.reduceAdd x init reducesTo_S16384x1024_S1024_d0 h_S_ (ix1 j) = init ix0 + ∑ p : Fin 16384, x (ix2 p j) :=
  Cert.LibHostRows.reduce_rows_at x init _ (by decide) _ j

end Cert.ReferenceIdeal.RefValue

end
-- ==== Proof.RefStage1.lean ====
/-
  Layer 1 of the reference program, read from any contents entering it: the pre-activation is the binarized linear layer of
  the entering array, the column statistics are the mean and the guarded biased variance of the pre-activation, and the
  layer's result is the clip of the normalised, scaled and shifted pre-activation.
-/
import proofs.«137791_j65661460021769_2_alg».proof.Proof.RefOps
import proofs.«137791_j65661460021769_2_alg».proof.Proof.RefRows

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.BinNet

set_option maxHeartbeats 2000000 in
/-- The pre-activation of layer 1, entry by entry: the binarized linear layer of the entering array. The operations'
    results are read off the straight line; the product is the sum over the contracted coordinate; the bias row is
    its entry of the column; and each sign selection is the specification's sign. -/
theorem P1_at (V : Valuation τ sig (Elt Ideal)) (p : Fin 16384) (j : Fin 2048) :
    after opsP1 V (main_v21 : DevRef τ sig) (ix2 p j)
      = lin (m2 (V (main_arg0 : DevRef τ sig))) (m2 (V (main_arg1 : DevRef τ sig))) (v1 (V (main_arg2 : DevRef τ sig))) p j := by
  simp only [opsP1]
  after_results_simp
  simp only [TRef.toBuf, TRef.ofBuf, cast_eq]
  generalize V (Proc.devRef .tc main_arg0) = X
  generalize V (Proc.devRef .tc main_arg1) = W
  generalize V (Proc.devRef .tc main_arg2) = b
  rw [addf_apply, Cert.LibDotRows.dotGeneral_at _ none rfl rfl (fun _ _ => rfl) (fun _ _ => rfl) (fun _ _ => rfl) (fun _ _ => rfl)]
  simp only [row_mat_2048, vec_row_2048, select_apply, cmpf_apply, Cert.LibHostRows.bcast_scalar_at, constant_apply, hnegf_at,
    Cert.Consts.ofBits_zero, Cert.Consts.ofBits_one]
  unfold lin linB sg
  rfl

/-- The same as an equation of functions of the two coordinates. -/
theorem P1_fun (V : Valuation τ sig (Elt Ideal)) :
    m2 (after opsP1 V (main_v21 : DevRef τ sig))
      = lin (m2 (V (main_arg0 : DevRef τ sig))) (m2 (V (main_arg1 : DevRef τ sig))) (v1 (V (main_arg2 : DevRef τ sig))) :=
  funext fun p => funext fun j => P1_at V p j

set_option maxHeartbeats 2000000 in
/-- The column means of layer 1's pre-activation: the sum over the rows divided by the printed row count. -/
theorem Q1_mean (V : Valuation τ sig (Elt Ideal)) (j : Fin 2048) :
    after opsQ1 V (main_v24 : DevRef τ sig) (ix1 j) = mean (m2 (V (main_v21 : DevRef τ sig))) j := by
  simp only [opsQ1]
  after_results_simp
  generalize V (Proc.devRef .tc main_v21) = H
  simp only [hdivf_at, red_2048, Cert.LibHostRows.bcast_scalar_at, constant_apply, Cert.Consts.ofBits_zero, zero_add]
  unfold mean cnt
  rfl

set_option maxHeartbeats 2000000 in
/-- The column variances of layer 1's pre-activation: the sum over the rows of the squared deviations from the column
    mean, divided by the guarded divisor, or the filler where the guard fails. -/
theorem Q1_var (V : Valuation τ sig (Elt Ideal)) (j : Fin 2048) :
    after opsQ1 V (main_v25 : DevRef τ sig) (ix1 j) = var (m2 (V (main_v21 : DevRef τ sig))) j := by
  simp only [opsQ1]
  after_results_simp
  simp only [TRef.toBuf, TRef.ofBuf, cast_eq]
  generalize V (Proc.devRef .tc main_v21) = H
  simp only [select_apply, hdivf_at, mulf_apply, subf_apply, cmpf_apply, sitofp_apply, constantI_at, id_eq,
    Cert.LibHostRows.bcast_scalar_at, row_mat_2048, vec_row_2048, red_2048, constant_apply, Cert.Consts.ofBits_zero, zero_add]
  unfold var mean dof cnt filler
  rfl

theorem Q1_mean_fun (V : Valuation τ sig (Elt Ideal)) :
    v1 (after opsQ1 V (main_v24 : DevRef τ sig)) = mean (m2 (V (main_v21 : DevRef τ sig))) :=
  funext fun j => Q1_mean V j

theorem Q1_var_fun (V : Valuation τ sig (Elt Ideal)) :
    v1 (after opsQ1 V (main_v25 : DevRef τ sig)) = var (m2 (V (main_v21 : DevRef τ sig))) :=
  funext fun j => Q1_var V j

set_option maxHeartbeats 2000000 in
/-- Layer 1's result, entry by entry: the pre-activation less the column mean, times the reciprocal square root of the
    column variance plus the printed epsilon, scaled and shifted, then clipped to [-1, 1]. -/
theorem R1_at (V : Valuation τ sig (Elt Ideal)) (p : Fin 16384) (j : Fin 2048) :
    after opsR1 V (main_v41 : DevRef τ sig) (ix2 p j)
      = clip (zrow (m2 (V (main_v21 : DevRef τ sig))) (v1 (V (main_v24 : DevRef τ sig)))
          (fun j => Ideal.rsqrt (v1 (V (main_v25 : DevRef τ sig)) j + eps))
          (v1 (V (main_arg3 : DevRef τ sig))) (v1 (V (main_arg4 : DevRef τ sig))) p j) := by
  simp only [opsR1]
  after_results_simp
  simp only [TRef.toBuf, TRef.ofBuf, cast_eq]
  generalize V (Proc.devRef .tc main_v21) = H
  generalize V (Proc.devRef .tc main_v24) = MU
  generalize V (Proc.devRef .tc main_v25) = VAR
  generalize V (Proc.devRef .tc main_arg3) = G
  generalize V (Proc.devRef .tc main_arg4) = BE
  simp only [minimumf_apply, maximumf_apply, addf_apply, mulf_apply, subf_apply, hrsqrt_at, id_eq,
    Cert.LibHostRows.bcast_scalar_at, row_mat_2048, vec_row_2048, constant_apply,
    Cert.Consts.ofBits_one, Cert.Consts.ofBits_negone]
  unfold clip zrow eps
  rfl

theorem R1_fun (V : Valuation τ sig (Elt Ideal)) :
    m2 (after opsR1 V (main_v41 : DevRef τ sig))
      = fun p j => clip (zrow (m2 (V (main_v21 : DevRef τ sig))) (v1 (V (main_v24 : DevRef τ sig)))
          (fun j => Ideal.rsqrt (v1 (V (main_v25 : DevRef τ sig)) j + eps))
          (v1 (V (main_arg3 : DevRef τ sig))) (v1 (V (main_arg4 : DevRef τ sig))) p j) :=
  funext fun p => funext fun j => R1_at V p j

/-- Layer 1 from any contents entering it: the clip of the batch normalisation of the binarized linear layer of the
    entering array.  The statistics read the pre-activation the first stretch leaves, which the later stretches do not
    write; the scale and the shift are arguments, which no stretch writes. -/
theorem layer1 (V : Valuation τ sig (Elt Ideal)) :
    m2 (after opsR1 (after opsQ1 (after opsP1 V)) (main_v41 : DevRef τ sig))
      = fun p j => clip (bnz (lin (m2 (V (main_arg0 : DevRef τ sig))) (m2 (V (main_arg1 : DevRef τ sig))) (v1 (V (main_arg2 : DevRef τ sig))))
          (v1 (V (main_arg3 : DevRef τ sig))) (v1 (V (main_arg4 : DevRef τ sig))) p j) := by
  rw [R1_fun, opsQ1_keep _ main_v21 (by decide), Q1_mean_fun, Q1_var_fun,
    opsQ1_keep _ main_arg3 (by decide), opsQ1_keep _ main_arg4 (by decide),
    opsP1_keep _ main_arg3 (by decide), opsP1_keep _ main_arg4 (by decide), P1_fun]
  rfl

end Cert.ReferenceIdeal.RefValue

end
-- ==== Proof.RefStage2.lean ====
/-
  Layer 2 of the reference program, read from any contents entering it: the pre-activation is the binarized linear layer of
  the entering array, the column statistics are the mean and the guarded biased variance of the pre-activation, and the
  layer's result is the clip of the normalised, scaled and shifted pre-activation.
-/
import proofs.«137791_j65661460021769_2_alg».proof.Proof.RefOps
import proofs.«137791_j65661460021769_2_alg».proof.Proof.RefRows

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.BinNet

set_option maxHeartbeats 2000000 in
/-- The pre-activation of layer 2, entry by entry: the binarized linear layer of the entering array. The operations'
    results are read off the straight line; the product is the sum over the contracted coordinate; the bias row is
    its entry of the column; and each sign selection is the specification's sign. -/
theorem P2_at (V : Valuation τ sig (Elt Ideal)) (p : Fin 16384) (j : Fin 2048) :
    after opsP2 (after opsA2 V) (main_v63 : DevRef τ sig) (ix2 p j)
      = lin (m2 (V (main_v41 : DevRef τ sig))) (m2 (V (main_arg5 : DevRef τ sig))) (v1 (V (main_arg6 : DevRef τ sig))) p j := by
  simp only [opsA2, opsP2]
  after_results_simp
  simp only [TRef.toBuf, TRef.ofBuf, cast_eq]
  generalize V (Proc.devRef .tc main_v41) = X
  generalize V (Proc.devRef .tc main_arg5) = W
  generalize V (Proc.devRef .tc main_arg6) = b
  rw [addf_apply, Cert.LibDotRows.dotGeneral_at _ none rfl rfl (fun _ _ => rfl) (fun _ _ => rfl) (fun _ _ => rfl) (fun _ _ => rfl)]
  simp only [row_mat_2048, vec_row_2048, select_apply, cmpf_apply, Cert.LibHostRows.bcast_scalar_at, constant_apply, hnegf_at,
    Cert.Consts.ofBits_zero, Cert.Consts.ofBits_one]
  unfold lin linB sg
  rfl

/-- The same as an equation of functions of the two coordinates. -/
theorem P2_fun (V : Valuation τ sig (Elt Ideal)) :
    m2 (after opsP2 (after opsA2 V) (main_v63 : DevRef τ sig))
      = lin (m2 (V (main_v41 : DevRef τ sig))) (m2 (V (main_arg5 : DevRef τ sig))) (v1 (V (main_arg6 : DevRef τ sig))) :=
  funext fun p => funext fun j => P2_at V p j

set_option maxHeartbeats 2000000 in
/-- The column means of layer 2's pre-activation: the sum over the rows divided by the printed row count. -/
theorem Q2_mean (V : Valuation τ sig (Elt Ideal)) (j : Fin 2048) :
    after opsQ2 V (main_v66 : DevRef τ sig) (ix1 j) = mean (m2 (V (main_v63 : DevRef τ sig))) j := by
  simp only [opsQ2]
  after_results_simp
  generalize V (Proc.devRef .tc main_v63) = H
  simp only [hdivf_at, red_2048, Cert.LibHostRows.bcast_scalar_at, constant_apply, Cert.Consts.ofBits_zero, zero_add]
  unfold mean cnt
  rfl

set_option maxHeartbeats 2000000 in
/-- The column variances of layer 2's pre-activation: the sum over the rows of the squared deviations from the column
    mean, divided by the guarded divisor, or the filler where the guard fails. -/
theorem Q2_var (V : Valuation τ sig (Elt Ideal)) (j : Fin 2048) :
    after opsQ2 V (main_v67 : DevRef τ sig) (ix1 j) = var (m2 (V (main_v63 : DevRef τ sig))) j := by
  simp only [opsQ2]
  after_results_simp
  simp only [TRef.toBuf, TRef.ofBuf, cast_eq]
  generalize V (Proc.devRef .tc main_v63) = H
  simp only [select_apply, hdivf_at, mulf_apply, subf_apply, cmpf_apply, sitofp_apply, constantI_at, id_eq,
    Cert.LibHostRows.bcast_scalar_at, row_mat_2048, vec_row_2048, red_2048, constant_apply, Cert.Consts.ofBits_zero, zero_add]
  unfold var mean dof cnt filler
  rfl

theorem Q2_mean_fun (V : Valuation τ sig (Elt Ideal)) :
    v1 (after opsQ2 V (main_v66 : DevRef τ sig)) = mean (m2 (V (main_v63 : DevRef τ sig))) :=
  funext fun j => Q2_mean V j

theorem Q2_var_fun (V : Valuation τ sig (Elt Ideal)) :
    v1 (after opsQ2 V (main_v67 : DevRef τ sig)) = var (m2 (V (main_v63 : DevRef τ sig))) :=
  funext fun j => Q2_var V j

set_option maxHeartbeats 2000000 in
/-- Layer 2's result, entry by entry: the pre-activation less the column mean, times the reciprocal square root of the
    column variance plus the printed epsilon, scaled and shifted, then clipped to [-1, 1]. -/
theorem R2_at (V : Valuation τ sig (Elt Ideal)) (p : Fin 16384) (j : Fin 2048) :
    after opsR2 V (main_v83 : DevRef τ sig) (ix2 p j)
      = clip (zrow (m2 (V (main_v63 : DevRef τ sig))) (v1 (V (main_v66 : DevRef τ sig)))
          (fun j => Ideal.rsqrt (v1 (V (main_v67 : DevRef τ sig)) j + eps))
          (v1 (V (main_arg7 : DevRef τ sig))) (v1 (V (main_arg8 : DevRef τ sig))) p j) := by
  simp only [opsR2]
  after_results_simp
  simp only [TRef.toBuf, TRef.ofBuf, cast_eq]
  generalize V (Proc.devRef .tc main_v63) = H
  generalize V (Proc.devRef .tc main_v66) = MU
  generalize V (Proc.devRef .tc main_v67) = VAR
  generalize V (Proc.devRef .tc main_arg7) = G
  generalize V (Proc.devRef .tc main_arg8) = BE
  simp only [minimumf_apply, maximumf_apply, addf_apply, mulf_apply, subf_apply, hrsqrt_at, id_eq,
    Cert.LibHostRows.bcast_scalar_at, row_mat_2048, vec_row_2048, constant_apply,
    Cert.Consts.ofBits_one, Cert.Consts.ofBits_negone]
  unfold clip zrow eps
  rfl

theorem R2_fun (V : Valuation τ sig (Elt Ideal)) :
    m2 (after opsR2 V (main_v83 : DevRef τ sig))
      = fun p j => clip (zrow (m2 (V (main_v63 : DevRef τ sig))) (v1 (V (main_v66 : DevRef τ sig)))
          (fun j => Ideal.rsqrt (v1 (V (main_v67 : DevRef τ sig)) j + eps))
          (v1 (V (main_arg7 : DevRef τ sig))) (v1 (V (main_arg8 : DevRef τ sig))) p j) :=
  funext fun p => funext fun j => R2_at V p j

/-- Layer 2 from any contents entering it: the clip of the batch normalisation of the binarized linear layer of the
    entering array.  The statistics read the pre-activation the first stretch leaves, which the later stretches do not
    write; the scale and the shift are arguments, which no stretch writes. -/
theorem layer2 (V : Valuation τ sig (Elt Ideal)) :
    m2 (after opsR2 (after opsQ2 (after opsP2 (after opsA2 V))) (main_v83 : DevRef τ sig))
      = fun p j => clip (bnz (lin (m2 (V (main_v41 : DevRef τ sig))) (m2 (V (main_arg5 : DevRef τ sig))) (v1 (V (main_arg6 : DevRef τ sig))))
          (v1 (V (main_arg7 : DevRef τ sig))) (v1 (V (main_arg8 : DevRef τ sig))) p j) := by
  rw [R2_fun, opsQ2_keep _ main_v63 (by decide), Q2_mean_fun, Q2_var_fun,
    opsQ2_keep _ main_arg7 (by decide), opsQ2_keep _ main_arg8 (by decide),
    opsP2_keep _ main_arg7 (by decide), opsP2_keep _ main_arg8 (by decide), opsA2_keep _ main_arg7 (by decide), opsA2_keep _ main_arg8 (by decide), P2_fun]
  rfl

end Cert.ReferenceIdeal.RefValue

end
-- ==== Proof.RefStage3.lean ====
/-
  Layer 3 of the reference program, read from any contents entering it: the pre-activation is the binarized linear layer of
  the entering array, the column statistics are the mean and the guarded biased variance of the pre-activation, and the
  layer's result is the clip of the normalised, scaled and shifted pre-activation.
-/
import proofs.«137791_j65661460021769_2_alg».proof.Proof.RefOps
import proofs.«137791_j65661460021769_2_alg».proof.Proof.RefRows

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.BinNet

set_option maxHeartbeats 2000000 in
/-- The pre-activation of layer 3, entry by entry: the binarized linear layer of the entering array. The operations'
    results are read off the straight line; the product is the sum over the contracted coordinate; the bias row is
    its entry of the column; and each sign selection is the specification's sign. -/
theorem P3_at (V : Valuation τ sig (Elt Ideal)) (p : Fin 16384) (j : Fin 1024) :
    after opsP3 (after opsA3 V) (main_v105 : DevRef τ sig) (ix2 p j)
      = lin (m2 (V (main_v83 : DevRef τ sig))) (m2 (V (main_arg9 : DevRef τ sig))) (v1 (V (main_arg10 : DevRef τ sig))) p j := by
  simp only [opsA3, opsP3]
  after_results_simp
  simp only [TRef.toBuf, TRef.ofBuf, cast_eq]
  generalize V (Proc.devRef .tc main_v83) = X
  generalize V (Proc.devRef .tc main_arg9) = W
  generalize V (Proc.devRef .tc main_arg10) = b
  rw [addf_apply, Cert.LibDotRows.dotGeneral_at _ none rfl rfl (fun _ _ => rfl) (fun _ _ => rfl) (fun _ _ => rfl) (fun _ _ => rfl)]
  simp only [row_mat_1024, vec_row_1024, select_apply, cmpf_apply, Cert.LibHostRows.bcast_scalar_at, constant_apply, hnegf_at,
    Cert.Consts.ofBits_zero, Cert.Consts.ofBits_one]
  unfold lin linB sg
  rfl

/-- The same as an equation of functions of the two coordinates. -/
theorem P3_fun (V : Valuation τ sig (Elt Ideal)) :
    m2 (after opsP3 (after opsA3 V) (main_v105 : DevRef τ sig))
      = lin (m2 (V (main_v83 : DevRef τ sig))) (m2 (V (main_arg9 : DevRef τ sig))) (v1 (V (main_arg10 : DevRef τ sig))) :=
  funext fun p => funext fun j => P3_at V p j

set_option maxHeartbeats 2000000 in
/-- The column means of layer 3's pre-activation: the sum over the rows divided by the printed row count. -/
theorem Q3_mean (V : Valuation τ sig (Elt Ideal)) (j : Fin 1024) :
    after opsQ3 V (main_v108 : DevRef τ sig) (ix1 j) = mean (m2 (V (main_v105 : DevRef τ sig))) j := by
  simp only [opsQ3]
  after_results_simp
  generalize V (Proc.devRef .tc main_v105) = H
  simp only [hdivf_at, red_1024, Cert.LibHostRows.bcast_scalar_at, constant_apply, Cert.Consts.ofBits_zero, zero_add]
  unfold mean cnt
  rfl

set_option maxHeartbeats 2000000 in
/-- The column variances of layer 3's pre-activation: the sum over the rows of the squared deviations from the column
    mean, divided by the guarded divisor, or the filler where the guard fails. -/
theorem Q3_var (V : Valuation τ sig (Elt Ideal)) (j : Fin 1024) :
    after opsQ3 V (main_v109 : DevRef τ sig) (ix1 j) = var (m2 (V (main_v105 : DevRef τ sig))) j := by
  simp only [opsQ3]
  after_results_simp
  simp only [TRef.toBuf, TRef.ofBuf, cast_eq]
  generalize V (Proc.devRef .tc main_v105) = H
  simp only [select_apply, hdivf_at, mulf_apply, subf_apply, cmpf_apply, sitofp_apply, constantI_at, id_eq,
    Cert.LibHostRows.bcast_scalar_at, row_mat_1024, vec_row_1024, red_1024, constant_apply, Cert.Consts.ofBits_zero, zero_add]
  unfold var mean dof cnt filler
  rfl

theorem Q3_mean_fun (V : Valuation τ sig (Elt Ideal)) :
    v1 (after opsQ3 V (main_v108 : DevRef τ sig)) = mean (m2 (V (main_v105 : DevRef τ sig))) :=
  funext fun j => Q3_mean V j

theorem Q3_var_fun (V : Valuation τ sig (Elt Ideal)) :
    v1 (after opsQ3 V (main_v109 : DevRef τ sig)) = var (m2 (V (main_v105 : DevRef τ sig))) :=
  funext fun j => Q3_var V j

set_option maxHeartbeats 2000000 in
/-- Layer 3's result, entry by entry: the pre-activation less the column mean, times the reciprocal square root of the
    column variance plus the printed epsilon, scaled and shifted, then clipped to [-1, 1]. -/
theorem R3_at (V : Valuation τ sig (Elt Ideal)) (p : Fin 16384) (j : Fin 1024) :
    after opsR3 V (main_v125 : DevRef τ sig) (ix2 p j)
      = clip (zrow (m2 (V (main_v105 : DevRef τ sig))) (v1 (V (main_v108 : DevRef τ sig)))
          (fun j => Ideal.rsqrt (v1 (V (main_v109 : DevRef τ sig)) j + eps))
          (v1 (V (main_arg11 : DevRef τ sig))) (v1 (V (main_arg12 : DevRef τ sig))) p j) := by
  simp only [opsR3]
  after_results_simp
  simp only [TRef.toBuf, TRef.ofBuf, cast_eq]
  generalize V (Proc.devRef .tc main_v105) = H
  generalize V (Proc.devRef .tc main_v108) = MU
  generalize V (Proc.devRef .tc main_v109) = VAR
  generalize V (Proc.devRef .tc main_arg11) = G
  generalize V (Proc.devRef .tc main_arg12) = BE
  simp only [minimumf_apply, maximumf_apply, addf_apply, mulf_apply, subf_apply, hrsqrt_at, id_eq,
    Cert.LibHostRows.bcast_scalar_at, row_mat_1024, vec_row_1024, constant_apply,
    Cert.Consts.ofBits_one, Cert.Consts.ofBits_negone]
  unfold clip zrow eps
  rfl

theorem R3_fun (V : Valuation τ sig (Elt Ideal)) :
    m2 (after opsR3 V (main_v125 : DevRef τ sig))
      = fun p j => clip (zrow (m2 (V (main_v105 : DevRef τ sig))) (v1 (V (main_v108 : DevRef τ sig)))
          (fun j => Ideal.rsqrt (v1 (V (main_v109 : DevRef τ sig)) j + eps))
          (v1 (V (main_arg11 : DevRef τ sig))) (v1 (V (main_arg12 : DevRef τ sig))) p j) :=
  funext fun p => funext fun j => R3_at V p j

/-- Layer 3 from any contents entering it: the clip of the batch normalisation of the binarized linear layer of the
    entering array.  The statistics read the pre-activation the first stretch leaves, which the later stretches do not
    write; the scale and the shift are arguments, which no stretch writes. -/
theorem layer3 (V : Valuation τ sig (Elt Ideal)) :
    m2 (after opsR3 (after opsQ3 (after opsP3 (after opsA3 V))) (main_v125 : DevRef τ sig))
      = fun p j => clip (bnz (lin (m2 (V (main_v83 : DevRef τ sig))) (m2 (V (main_arg9 : DevRef τ sig))) (v1 (V (main_arg10 : DevRef τ sig))))
          (v1 (V (main_arg11 : DevRef τ sig))) (v1 (V (main_arg12 : DevRef τ sig))) p j) := by
  rw [R3_fun, opsQ3_keep _ main_v105 (by decide), Q3_mean_fun, Q3_var_fun,
    opsQ3_keep _ main_arg11 (by decide), opsQ3_keep _ main_arg12 (by decide),
    opsP3_keep _ main_arg11 (by decide), opsP3_keep _ main_arg12 (by decide), opsA3_keep _ main_arg11 (by decide), opsA3_keep _ main_arg12 (by decide), P3_fun]
  rfl

end Cert.ReferenceIdeal.RefValue

end
-- ==== Proof.RefStage4.lean ====
/-
  The last layer of the reference program, read from any contents entering it: the binarized linear layer of the entering array.
-/
import proofs.«137791_j65661460021769_2_alg».proof.Proof.RefOps
import proofs.«137791_j65661460021769_2_alg».proof.Proof.RefRows

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.BinNet

set_option maxHeartbeats 2000000 in
/-- The pre-activation of layer 4, entry by entry: the binarized linear layer of the entering array. The operations'
    results are read off the straight line; the product is the sum over the contracted coordinate; the bias row is
    its entry of the column; and each sign selection is the specification's sign. -/
theorem P4_at (V : Valuation τ sig (Elt Ideal)) (p : Fin 16384) (j : Fin 512) :
    after opsP4 (after opsA4 V) (main_v147 : DevRef τ sig) (ix2 p j)
      = lin (m2 (V (main_v125 : DevRef τ sig))) (m2 (V (main_arg13 : DevRef τ sig))) (v1 (V (main_arg14 : DevRef τ sig))) p j := by
  simp only [opsA4, opsP4]
  after_results_simp
  simp only [TRef.toBuf, TRef.ofBuf, cast_eq]
  generalize V (Proc.devRef .tc main_v125) = X
  generalize V (Proc.devRef .tc main_arg13) = W
  generalize V (Proc.devRef .tc main_arg14) = b
  rw [addf_apply, Cert.LibDotRows.dotGeneral_at _ none rfl rfl (fun _ _ => rfl) (fun _ _ => rfl) (fun _ _ => rfl) (fun _ _ => rfl)]
  simp only [row_mat_512, vec_row_512, select_apply, cmpf_apply, Cert.LibHostRows.bcast_scalar_at, constant_apply, hnegf_at,
    Cert.Consts.ofBits_zero, Cert.Consts.ofBits_one]
  unfold lin linB sg
  rfl

/-- The same as an equation of functions of the two coordinates. -/
theorem P4_fun (V : Valuation τ sig (Elt Ideal)) :
    m2 (after opsP4 (after opsA4 V) (main_v147 : DevRef τ sig))
      = lin (m2 (V (main_v125 : DevRef τ sig))) (m2 (V (main_arg13 : DevRef τ sig))) (v1 (V (main_arg14 : DevRef τ sig))) :=
  funext fun p => funext fun j => P4_at V p j

end Cert.ReferenceIdeal.RefValue

end
-- ==== Proof.RefValue.lean ====
/-
  The reference program's value.  Its four layers compose: each normalised layer is the clip of the batch
  normalisation of the binarized linear layer of what enters it, a binarized linear layer sees only the signs of its
  input so the clips drop out, and no operation writes an argument.  With the run, every weakly fair execution ends with
  the result array at the specification's network of the arguments, the arguments as launched.
-/
import proofs.«137791_j65661460021769_2_alg».proof.Proof.RefRun
import proofs.«137791_j65661460021769_2_alg».proof.Proof.RefStage1
import proofs.«137791_j65661460021769_2_alg».proof.Proof.RefStage2
import proofs.«137791_j65661460021769_2_alg».proof.Proof.RefStage3
import proofs.«137791_j65661460021769_2_alg».proof.Proof.RefStage4

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.BinNet

/-- A buffer that none of the stretches writes holds at the end what it held at the launch. -/
theorem keep_of {F : FTy → Type} [FloatOps F] (V0 : Valuation τ sig (Elt F)) (r : Ref sig .tc)
    (h0 : r ∉ opsP1_W) (h1 : r ∉ opsQ1_W) (h2 : r ∉ opsR1_W) (h3 : r ∉ opsA2_W) (h4 : r ∉ opsP2_W) (h5 : r ∉ opsQ2_W) (h6 : r ∉ opsR2_W) (h7 : r ∉ opsA3_W) (h8 : r ∉ opsP3_W) (h9 : r ∉ opsQ3_W) (h10 : r ∉ opsR3_W) (h11 : r ∉ opsA4_W) (h12 : r ∉ opsP4_W) :
    after ops V0 (Proc.devRef .tc r) = V0 (Proc.devRef .tc r) := by
  simp only [ops, ops0, ops1, ops2, ops3, after_append]
  rw [opsP4_keep _ r h12, opsA4_keep _ r h11, opsR3_keep _ r h10, opsQ3_keep _ r h9, opsP3_keep _ r h8, opsA3_keep _ r h7, opsR2_keep _ r h6, opsQ2_keep _ r h5, opsP2_keep _ r h4, opsA2_keep _ r h3, opsR1_keep _ r h2, opsQ1_keep _ r h1, opsP1_keep _ r h0]

/-- The result array as a function of its two coordinates: the network of the arguments. -/
theorem value_fun (V0 : Valuation τ sig (Elt Ideal)) :
    m2 (after ops V0 (main_v147 : DevRef τ sig))
      = net (m2 (V0 (main_arg0 : DevRef τ sig))) (m2 (V0 (main_arg1 : DevRef τ sig))) (v1 (V0 (main_arg2 : DevRef τ sig))) (v1 (V0 (main_arg3 : DevRef τ sig))) (v1 (V0 (main_arg4 : DevRef τ sig)))
          (m2 (V0 (main_arg5 : DevRef τ sig))) (v1 (V0 (main_arg6 : DevRef τ sig))) (v1 (V0 (main_arg7 : DevRef τ sig))) (v1 (V0 (main_arg8 : DevRef τ sig)))
          (m2 (V0 (main_arg9 : DevRef τ sig))) (v1 (V0 (main_arg10 : DevRef τ sig))) (v1 (V0 (main_arg11 : DevRef τ sig))) (v1 (V0 (main_arg12 : DevRef τ sig)))
          (m2 (V0 (main_arg13 : DevRef τ sig))) (v1 (V0 (main_arg14 : DevRef τ sig))) := by
  simp only [ops, ops0, ops1, ops2, ops3, after_append]
  rw [P4_fun, layer3, layer2, layer1]
  simp (disch := decide) only [opsP1_keep, opsQ1_keep, opsR1_keep, opsA2_keep, opsP2_keep, opsQ2_keep, opsR2_keep, opsA3_keep,
    opsP3_keep, opsQ3_keep, opsR3_keep]
  rw [lin_clip, lin_clip, lin_clip]
  rfl

/-- The result array: the specification's output of the argument arrays. -/
theorem value (V0 : Valuation τ sig (Elt Ideal)) :
    after ops V0 (main_v147 : DevRef τ sig)
      = out (V0 (main_arg0 : DevRef τ sig)) (V0 (main_arg1 : DevRef τ sig)) (V0 (main_arg2 : DevRef τ sig)) (V0 (main_arg3 : DevRef τ sig)) (V0 (main_arg4 : DevRef τ sig)) (V0 (main_arg5 : DevRef τ sig)) (V0 (main_arg6 : DevRef τ sig)) (V0 (main_arg7 : DevRef τ sig)) (V0 (main_arg8 : DevRef τ sig)) (V0 (main_arg9 : DevRef τ sig)) (V0 (main_arg10 : DevRef τ sig)) (V0 (main_arg11 : DevRef τ sig)) (V0 (main_arg12 : DevRef τ sig)) (V0 (main_arg13 : DevRef τ sig)) (V0 (main_arg14 : DevRef τ sig)) :=
  arr2_ext _ _ fun p k => congrFun (congrFun (value_fun V0) p) k

/-- On every device, at the ideal values, from any memory with zero counters: every weakly fair execution of the
    reference's @main terminates with the result array at the specification's network of the launch contents of the
    arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v147)
          = Cert.BinNet.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨(h c main_v147).trans (value (launchContents m c)),
     (h c main_arg0).trans (keep_of (launchContents m c) main_arg0 (by decide) (by decide) (by decide) (by decide) (by decide) (by decide) (by decide) (by decide) (by decide) (by decide) (by decide) (by decide) (by decide)),
     (h c main_arg1).trans (keep_of (launchContents m c) main_arg1 (by decide) (by decide) (by decide) (by decide) (by decide) (by decide) (by decide) (by decide) (by decide) (by decide) (by decide) (by decide) (by decide)),
     (h c main_arg2).trans (keep_of (launchContents m c) main_arg2 (by decide) (by decide) (by decide) (by decide) (by decide) (by decide) (by decide) (by decide) (by decide) (by decide) (by decide) (by decide) (by decide)),
     (h c main_arg3).trans (keep_of (launchContents m c) main_arg3 (by decide) (by decide) (by decide) (by decide) (by decide) (by decide) (by decide) (by decide) (by decide) (by decide) (by decide) (by decide) (by decide)),
     (h c main_arg4).trans (keep_of (launchContents m c) main_arg4 (by decide) (by decide) (by decide) (by decide) (by decide) (by decide) (by decide) (by decide) (by decide) (by decide) (by decide) (by decide) (by decide)),
     (h c main_arg5).trans (keep_of (launchContents m c) main_arg5 (by decide) (by decide) (by decide) (by decide) (by decide) (by decide) (by decide) (by decide) (by decide) (by decide) (by decide) (by decide) (by decide)),
     (h c main_arg6).trans (keep_of (launchContents m c) main_arg6 (by decide) (by decide) (by decide) (by decide) (by decide) (by decide) (by decide) (by decide) (by decide) (by decide) (by decide) (by decide) (by decide)),
     (h c main_arg7).trans (keep_of (launchContents m c) main_arg7 (by decide) (by decide) (by decide) (by decide) (by decide) (by decide) (by decide) (by decide) (by decide) (by decide) (by decide) (by decide) (by decide)),
     (h c main_arg8).trans (keep_of (launchContents m c) main_arg8 (by decide) (by decide) (by decide) (by decide) (by decide) (by decide) (by decide) (by decide) (by decide) (by decide) (by decide) (by decide) (by decide)),
     (h c main_arg9).trans (keep_of (launchContents m c) main_arg9 (by decide) (by decide) (by decide) (by decide) (by decide) (by decide) (by decide) (by decide) (by decide) (by decide) (by decide) (by decide) (by decide)),
     (h c main_arg10).trans (keep_of (launchContents m c) main_arg10 (by decide) (by decide) (by decide) (by decide) (by decide) (by decide) (by decide) (by decide) (by decide) (by decide) (by decide) (by decide) (by decide)),
     (h c main_arg11).trans (keep_of (launchContents m c) main_arg11 (by decide) (by decide) (by decide) (by decide) (by decide) (by decide) (by decide) (by decide) (by decide) (by decide) (by decide) (by decide) (by decide)),
     (h c main_arg12).trans (keep_of (launchContents m c) main_arg12 (by decide) (by decide) (by decide) (by decide) (by decide) (by decide) (by decide) (by decide) (by decide) (by decide) (by decide) (by decide) (by decide)),
     (h c main_arg13).trans (keep_of (launchContents m c) main_arg13 (by decide) (by decide) (by decide) (by decide) (by decide) (by decide) (by decide) (by decide) (by decide) (by decide) (by decide) (by decide) (by decide)),
     (h c main_arg14).trans (keep_of (launchContents m c) main_arg14 (by decide) (by decide) (by decide) (by decide) (by decide) (by decide) (by decide) (by decide) (by decide) (by decide) (by decide) (by decide) (by decide))⟩)
    (run_all m ρ)

/-- In particular the argument arrays end as launched. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => (h c).2) (run m ρ)

end Cert.ReferenceIdeal.RefValue

end
-- ==== Proof.lean ====
/-
  The certificate: a four-layer binarized network with training-mode batch normalisation, as a pipelined kernel program
  and as plain array code.

  Both programs compute, entry by entry over the extended reals, the specification's `out` of the fifteen argument
  arrays (Proof/Spec.lean).  The kernel program runs each layer as a pipelined region over blocks of 256 rows and
  takes the batch statistics between regions on the host; each region's output array is the layer of what the region
  finds (Proof/RegionValue0 … 3), the host groups hand the next region the previous output's statistics as rows
  (Proof/KHost…), and the chain of buffer contents from the launch to the return gives the result (Proof/KChain,
  over the run of Proof/KRun).  The reference clips the normalised activations to `[-1, 1]` before the next layer
  takes their signs, which changes no sign (Proof/RefValue over the hand-written run of Proof/RefRun).  The frames
  of the two kernel programs are the generated ones; the reference's frame is its run with the result dropped; the
  idealization rewrote nothing, so it preserves the program trivially.
-/
import proofs.«137791_j65661460021769_2_alg».proof.Defs
import proofs.«137791_j65661460021769_2_alg».proof.Proof.Gen.Kernel
import proofs.«137791_j65661460021769_2_alg».proof.Proof.Gen.Kernel.Skeleton
import proofs.«137791_j65661460021769_2_alg».proof.Proof.Gen.Kernel.Launch
import proofs.«137791_j65661460021769_2_alg».proof.Proof.Gen.Kernel.Points
import proofs.«137791_j65661460021769_2_alg».proof.Proof.Gen.Kernel.Frame
import proofs.«137791_j65661460021769_2_alg».proof.Proof.Gen.KernelIdeal
import proofs.«137791_j65661460021769_2_alg».proof.Proof.Gen.KernelIdeal.Skeleton
import proofs.«137791_j65661460021769_2_alg».proof.Proof.Gen.KernelIdeal.Launch
import proofs.«137791_j65661460021769_2_alg».proof.Proof.Gen.KernelIdeal.Points
import proofs.«137791_j65661460021769_2_alg».proof.Proof.Gen.KernelIdeal.Frame
import proofs.«137791_j65661460021769_2_alg».proof.Proof.Gen.ReferenceIdeal
import proofs.«137791_j65661460021769_2_alg».proof.Proof.Gen.Pre_finite_inputs
import proofs.«137791_j65661460021769_2_alg».proof.Proof.KRun
import proofs.«137791_j65661460021769_2_alg».proof.Proof.KChain
import proofs.«137791_j65661460021769_2_alg».proof.Proof.RegionValue0
import proofs.«137791_j65661460021769_2_alg».proof.Proof.RegionValue1
import proofs.«137791_j65661460021769_2_alg».proof.Proof.RegionValue2
import proofs.«137791_j65661460021769_2_alg».proof.Proof.RegionValue3
import proofs.«137791_j65661460021769_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

/-- The idealization rewrote nothing. -/
theorem preserves : Cert.preserves_Kernel_KernelIdeal := trivial

/-- What each region computes of the contents it finds. -/
theorem regions : Cert.KernelIdeal.KChain.Regions :=
  ⟨fun V c => Cert.KernelIdeal.RegionValue.region0 V c, fun V c => Cert.KernelIdeal.RegionValue.region1 V c,
    fun V c => Cert.KernelIdeal.RegionValue.region2 V c, fun V c => Cert.KernelIdeal.RegionValue.region3 V c⟩

/-- From memories agreeing on the arguments both programs end at the specification's result of those arguments. -/
theorem algebraic : Cert.algebraic_KernelIdeal_ReferenceIdeal := by
  intro m ρ m' ρ' _ hagree
  refine ⟨fun c => Cert.BinNet.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun _ h c => ⟨(h c).1.trans (Cert.KernelIdeal.KChain.result m ρ c regions), (h c).2⟩)
      (Cert.KernelIdeal.KRun.run_result (F := Ideal) m ρ)
  · refine (θ_run Cert.ReferenceIdeal.defs _ _).mono (fun _ h c => ⟨(h c).1.trans ?_, (h c).2⟩)
      (Cert.ReferenceIdeal.RefValue.run m' ρ')
    obtain ⟨e0, e1, e2, e3, e4, e5, e6, e7, e8, e9, e10, e11, e12, e13, e14⟩ := hagree c
    rw [e0, e1, e2, e3, e4, e5, e6, e7, e8, e9, e10, e11, e12, e13, e14]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
